-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v56)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v56) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v76) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x100 : Shape := ⟨2, ![100000, 100]⟩
abbrev S2x1600000 : Shape := ⟨2, ![2, 1600000]⟩
abbrev S1600000 : Shape := ⟨1, ![1600000]⟩
abbrev S128x100 : Shape := ⟨2, ![128, 100]⟩
abbrev S128 : Shape := ⟨1, ![128]⟩
abbrev S128x128 : Shape := ⟨2, ![128, 128]⟩
abbrev S47x384 : Shape := ⟨2, ![47, 384]⟩
abbrev S47 : Shape := ⟨1, ![47]⟩
abbrev S_ : Shape := ⟨0, ![]⟩

class Facts : Prop where
  bcast_S_S100000x100 : S_.BroadcastsInDim S100000x100 (![] : Fin 0 → Fin S100000x100.rank)
  reducesTo_S100000x100_S_d0_1 : S100000x100.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S128x100 : S_.BroadcastsInDim S128x100 (![] : Fin 0 → Fin S128x100.rank)
  reducesTo_S128x100_S_d0_1 : S128x100.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S47x384 : S_.BroadcastsInDim S47x384 (![] : Fin 0 → Fin S47x384.rank)
  reducesTo_S47x384_S_d0_1 : S47x384.ReducesTo [0, 1] S_
  bcast_S_S47 : S_.BroadcastsInDim S47 (![] : Fin 0 → Fin S47.rank)
  reducesTo_S47_S_d0 : S47.ReducesTo [0] S_

variable [Facts]

def fn_part3 {F : FTy → Type} [FloatOps F] (main_arg12 : FVec F S47x384 .f32) (main_arg13 : FVec F S47 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S47x384 .f32 := Host.absf main_arg12
  let main_cst_20 : FVec F S_ .f32 := constant S_ .f32 0x7F800000#32
  let main_v55 : FVec F S47x384 .f32 := broadcastInDim S47x384 ![] bcast_S_S47x384 main_cst_20
  let main_v56 : IVec S47x384 1 := cmpf .olt main_v54 main_v55
  let main_c_21 : IVec S_ 1 := constantI S_ 1 1#1
  let main_v57 : IVec S_ 1 := (fun x v => Host.reduce IntOp.andi x v reducesTo_S47x384_S_d0_1 h_S_) main_v56 main_c_21
  let main_v58 : IVec S_ 1 := andi main_v53 main_v57
  let main_v59 : FVec F S47 .f32 := Host.absf main_arg13
  let main_cst_22 : FVec F S_ .f32 := constant S_ .f32 0x7F800000#32
  let main_v60 : FVec F S47 .f32 := broadcastInDim S47 ![] bcast_S_S47 main_cst_22
  let main_v61 : IVec S47 1 := cmpf .olt main_v59 main_v60
  let main_c_23 : IVec S_ 1 := constantI S_ 1 1#1
  let main_v62 : IVec S_ 1 := (fun x v => Host.reduce IntOp.andi x v reducesTo_S47_S_d0 h_S_) main_v61 main_c_23
  let main_v63 : IVec S_ 1 := andi main_v58 main_v62
  main_v63

def fn_part2 {F : FTy → Type} [FloatOps F] (main_arg8 : FVec F S128 .f32) (main_arg9 : FVec F S128x128 .f32) (main_arg10 : FVec F S128x128 .f32) (main_arg11 : FVec F S128 .f32) (main_arg12 : FVec F S47x384 .f32) (main_arg13 : FVec F S47 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x128 .f32 := Host.absf main_arg9
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128x128 .f32 := Host.absf main_arg10
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  let main_v49 : FVec F S128 .f32 := Host.absf main_arg11
  let main_cst_18 : FVec F S_ .f32 := constant S_ .f32 0x7F800000#32
  let main_v50 : FVec F S128 .f32 := broadcastInDim S128 ![] bcast_S_S128 main_cst_18
  fn_part3 (F := F) main_arg12 main_arg13 main_v48 main_v49 main_v50

def fn_part1 {F : FTy → Type} [FloatOps F] (main_arg5 : FVec F S128 .f32) (main_arg6 : FVec F S128x128 .f32) (main_arg7 : FVec F S128x128 .f32) (main_arg8 : FVec F S128 .f32) (main_arg9 : FVec F S128x128 .f32) (main_arg10 : FVec F S128x128 .f32) (main_arg11 : FVec F S128 .f32) (main_arg12 : FVec F S47x384 .f32) (main_arg13 : FVec F S47 .f32) (main_v13 : IVec S_ 1) (main_v16 : IVec S128x100 1) : IVec S_ 1 :=
  let main_c_5 : IVec S_ 1 := constantI S_ 1 1#1
  let main_v17 : IVec S_ 1 := (fun x v => Host.reduce IntOp.andi x v reducesTo_S128x100_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128x128 .f32 := Host.absf main_arg7
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg8 main_arg9 main_arg10 main_arg11 main_arg12 main_arg13 main_v33

def fn {F : FTy → Type} [FloatOps F] (main_arg0 : FVec F S100000x100 .f32) (main_arg1 : IVec S2x1600000 32) (main_arg2 : FVec F S1600000 .f32) (main_arg3 : FVec F S128x100 .f32) (main_arg4 : FVec F S128x100 .f32) (main_arg5 : FVec F S128 .f32) (main_arg6 : FVec F S128x128 .f32) (main_arg7 : FVec F S128x128 .f32) (main_arg8 : FVec F S128 .f32) (main_arg9 : FVec F S128x128 .f32) (main_arg10 : FVec F S128x128 .f32) (main_arg11 : FVec F S128 .f32) (main_arg12 : FVec F S47x384 .f32) (main_arg13 : FVec F S47 .f32) : IVec S_ 1 :=
  let main_v0 : FVec F S100000x100 .f32 := Host.absf main_arg0
  let main_cst : FVec F S_ .f32 := constant S_ .f32 0x7F800000#32
  let main_v1 : FVec F S100000x100 .f32 := broadcastInDim S100000x100 ![] bcast_S_S100000x100 main_cst
  let main_v2 : IVec S100000x100 1 := cmpf .olt main_v0 main_v1
  let main_c : IVec S_ 1 := constantI S_ 1 1#1
  let main_v3 : IVec S_ 1 := (fun x v => Host.reduce IntOp.andi x v reducesTo_S100000x100_S_d0_1 h_S_) main_v2 main_c
  let main_v4 : FVec F S1600000 .f32 := Host.absf main_arg2
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S128x100 .f32 := Host.absf main_arg3
  let main_cst_2 : FVec F S_ .f32 := constant S_ .f32 0x7F800000#32
  let main_v10 : FVec F S128x100 .f32 := broadcastInDim S128x100 ![] bcast_S_S128x100 main_cst_2
  let main_v11 : IVec S128x100 1 := cmpf .olt main_v9 main_v10
  let main_c_3 : IVec S_ 1 := constantI S_ 1 1#1
  let main_v12 : IVec S_ 1 := (fun x v => Host.reduce IntOp.andi x v reducesTo_S128x100_S_d0_1 h_S_) main_v11 main_c_3
  let main_v13 : IVec S_ 1 := andi main_v8 main_v12
  let main_v14 : FVec F S128x100 .f32 := Host.absf main_arg4
  let main_cst_4 : FVec F S_ .f32 := constant S_ .f32 0x7F800000#32
  let main_v15 : FVec F S128x100 .f32 := broadcastInDim S128x100 ![] bcast_S_S128x100 main_cst_4
  let main_v16 : IVec S128x100 1 := cmpf .olt main_v14 main_v15
  fn_part1 (F := F) main_arg5 main_arg6 main_arg7 main_arg8 main_arg9 main_arg10 main_arg11 main_arg12 main_arg13 main_v13 main_v16
-- ==== Kernel.lean ====
abbrev S100000x100 : Shape := ⟨2, ![100000, 100]⟩
abbrev S2x1600000 : Shape := ⟨2, ![2, 1600000]⟩
abbrev S1600000 : Shape := ⟨1, ![1600000]⟩
abbrev S128x100 : Shape := ⟨2, ![128, 100]⟩
abbrev S128 : Shape := ⟨1, ![128]⟩
abbrev S128x128 : Shape := ⟨2, ![128, 128]⟩
abbrev S47x384 : Shape := ⟨2, ![47, 384]⟩
abbrev S47 : Shape := ⟨1, ![47]⟩
abbrev S1x1600000 : Shape := ⟨2, ![1, 1600000]⟩
abbrev S100x128 : Shape := ⟨2, ![100, 128]⟩
abbrev S1x128 : Shape := ⟨2, ![1, 128]⟩
abbrev S384x47 : Shape := ⟨2, ![384, 47]⟩
abbrev S1x47 : Shape := ⟨2, ![1, 47]⟩
abbrev S_ : Shape := ⟨0, ![]⟩
abbrev S1600000x1 : Shape := ⟨2, ![1600000, 1]⟩
abbrev S1600000x100 : Shape := ⟨2, ![1600000, 100]⟩
abbrev S100000x128 : Shape := ⟨2, ![100000, 128]⟩
abbrev S2000x100 : Shape := ⟨2, ![2000, 100]⟩
abbrev S2000x128 : Shape := ⟨2, ![2000, 128]⟩
abbrev S1600000x128 : Shape := ⟨2, ![1600000, 128]⟩
abbrev S100000x47 : Shape := ⟨2, ![100000, 47]⟩
abbrev S2000x47 : Shape := ⟨2, ![2000, 47]⟩
abbrev S2000x384 : Shape := ⟨2, ![2000, 384]⟩
abbrev S2000 : Shape := ⟨1, ![2000]⟩
abbrev S2000x1 : Shape := ⟨2, ![2000, 1]⟩

abbrev nBuf : Space → Nat
  | .hbm => 80
  | .vmem => 31
  | .smem => 0
  | _ => 0

abbrev bufTy : (tb : Table) → Fin (tcTables nBuf tb) → BufTy
  | .hbm, ⟨0, _⟩ => ⟨S100000x100, .f32⟩
  | .hbm, ⟨1, _⟩ => ⟨S2x1600000, .i32⟩
  | .hbm, ⟨2, _⟩ => ⟨S1600000, .f32⟩
  | .hbm, ⟨3, _⟩ => ⟨S128x100, .f32⟩
  | .hbm, ⟨4, _⟩ => ⟨S128x100, .f32⟩
  | .hbm, ⟨5, _⟩ => ⟨S128, .f32⟩
  | .hbm, ⟨6, _⟩ => ⟨S128x128, .f32⟩
  | .hbm, ⟨7, _⟩ => ⟨S128x128, .f32⟩
  | .hbm, ⟨8, _⟩ => ⟨S128, .f32⟩
  | .hbm, ⟨9, _⟩ => ⟨S128x128, .f32⟩
  | .hbm, ⟨10, _⟩ => ⟨S128x128, .f32⟩
  | .hbm, ⟨11, _⟩ => ⟨S128, .f32⟩
  | .hbm, ⟨12, _⟩ => ⟨S47x384, .f32⟩
  | .hbm, ⟨13, _⟩ => ⟨S47, .f32⟩
  | .hbm, ⟨14, _⟩ => ⟨S1x1600000, .i32⟩
  | .hbm, ⟨15, _⟩ => ⟨S1600000, .i32⟩
  | .hbm, ⟨16, _⟩ => ⟨S1x1600000, .i32⟩
  | .hbm, ⟨17, _⟩ => ⟨S1600000, .i32⟩
  | .hbm, ⟨18, _⟩ => ⟨S100x128, .f32⟩
  | .hbm, ⟨19, _⟩ => ⟨S100x128, .f32⟩
  | .hbm, ⟨20, _⟩ => ⟨S1x128, .f32⟩
  | .hbm, ⟨21, _⟩ => ⟨S128x128, .f32⟩
  | .hbm, ⟨22, _⟩ => ⟨S128x128, .f32⟩
  | .hbm, ⟨23, _⟩ => ⟨S1x128, .f32⟩
  | .hbm, ⟨24, _⟩ => ⟨S128x128, .f32⟩
  | .hbm, ⟨25, _⟩ => ⟨S128x128, .f32⟩
  | .hbm, ⟨26, _⟩ => ⟨S1x128, .f32⟩
  | .hbm, ⟨27, _⟩ => ⟨S384x47, .f32⟩
  | .hbm, ⟨28, _⟩ => ⟨S1x47, .f32⟩
  | .hbm, ⟨29, _⟩ => ⟨S_, .i32⟩
  | .hbm, ⟨30, _⟩ => ⟨S1600000, .i32⟩
  | .hbm, ⟨31, _⟩ => ⟨S1600000, .i1⟩
  | .hbm, ⟨32, _⟩ => ⟨S_, .i32⟩
  | .hbm, ⟨33, _⟩ => ⟨S1600000, .i32⟩
  | .hbm, ⟨34, _⟩ => ⟨S1600000, .i32⟩
  | .hbm, ⟨35, _⟩ => ⟨S1600000, .i32⟩
  | .hbm, ⟨36, _⟩ => ⟨S1600000x1, .i32⟩
  | .hbm, ⟨37, _⟩ => ⟨S1600000x100, .f32⟩
  | .hbm, ⟨38, _⟩ => ⟨S1600000x1, .f32⟩
  | .hbm, ⟨39, _⟩ => ⟨S1600000x100, .f32⟩
  | .hbm, ⟨40, _⟩ => ⟨S1600000x100, .f32⟩
  | .hbm, ⟨41, _⟩ => ⟨S_, .f32⟩
  | .hbm, ⟨42, _⟩ => ⟨S100000x100, .f32⟩
  | .hbm, ⟨43, _⟩ => ⟨S1600000x1, .i32⟩
  | .hbm, ⟨44, _⟩ => ⟨S100000x100, .f32⟩
  | .hbm, ⟨45, _⟩ => ⟨S100000x128, .f32⟩
  | .hbm, ⟨46, _⟩ => ⟨S_, .i32⟩
  | .hbm, ⟨47, _⟩ => ⟨S1600000, .i32⟩
  | .hbm, ⟨48, _⟩ => ⟨S1600000, .i1⟩
  | .hbm, ⟨49, _⟩ => ⟨S_, .i32⟩
  | .hbm, ⟨50, _⟩ => ⟨S1600000, .i32⟩
  | .hbm, ⟨51, _⟩ => ⟨S1600000, .i32⟩
  | .hbm, ⟨52, _⟩ => ⟨S1600000, .i32⟩
  | .hbm, ⟨53, _⟩ => ⟨S1600000x1, .i32⟩
  | .hbm, ⟨54, _⟩ => ⟨S1600000x128, .f32⟩
  | .hbm, ⟨55, _⟩ => ⟨S1600000x1, .f32⟩
  | .hbm, ⟨56, _⟩ => ⟨S1600000x128, .f32⟩
  | .hbm, ⟨57, _⟩ => ⟨S1600000x128, .f32⟩
  | .hbm, ⟨58, _⟩ => ⟨S_, .f32⟩
  | .hbm, ⟨59, _⟩ => ⟨S100000x128, .f32⟩
  | .hbm, ⟨60, _⟩ => ⟨S1600000x1, .i32⟩
  | .hbm, ⟨61, _⟩ => ⟨S100000x128, .f32⟩
  | .hbm, ⟨62, _⟩ => ⟨S100000x128, .f32⟩
  | .hbm, ⟨63, _⟩ => ⟨S_, .i32⟩
  | .hbm, ⟨64, _⟩ => ⟨S1600000, .i32⟩
  | .hbm, ⟨65, _⟩ => ⟨S1600000, .i1⟩
  | .hbm, ⟨66, _⟩ => ⟨S_, .i32⟩
  | .hbm, ⟨67, _⟩ => ⟨S1600000, .i32⟩
  | .hbm, ⟨68, _⟩ => ⟨S1600000, .i32⟩
  | .hbm, ⟨69, _⟩ => ⟨S1600000, .i32⟩
  | .hbm, ⟨70, _⟩ => ⟨S1600000x1, .i32⟩
  | .hbm, ⟨71, _⟩ => ⟨S1600000x128, .f32⟩
  | .hbm, ⟨72, _⟩ => ⟨S1600000x1, .f32⟩
  | .hbm, ⟨73, _⟩ => ⟨S1600000x128, .f32⟩
  | .hbm, ⟨74, _⟩ => ⟨S1600000x128, .f32⟩
  | .hbm, ⟨75, _⟩ => ⟨S_, .f32⟩
  | .hbm, ⟨76, _⟩ => ⟨S100000x128, .f32⟩
  | .hbm, ⟨77, _⟩ => ⟨S1600000x1, .i32⟩
  | .hbm, ⟨78, _⟩ => ⟨S100000x128, .f32⟩
  | .hbm, ⟨79, _⟩ => ⟨S100000x47, .f32⟩
  | .local _ .vmem, ⟨0, _⟩ => ⟨S2000x100, .f32⟩
  | .local _ .vmem, ⟨1, _⟩ => ⟨S2000x100, .f32⟩
  | .local _ .vmem, ⟨2, _⟩ => ⟨S2000x100, .f32⟩
  | .local _ .vmem, ⟨3, _⟩ => ⟨S2000x100, .f32⟩
  | .local _ .vmem, ⟨4, _⟩ => ⟨S100x128, .f32⟩
  | .local _ .vmem, ⟨5, _⟩ => ⟨S100x128, .f32⟩
  | .local _ .vmem, ⟨6, _⟩ => ⟨S1x128, .f32⟩
  | .local _ .vmem, ⟨7, _⟩ => ⟨S2000x128, .f32⟩
  | .local _ .vmem, ⟨8, _⟩ => ⟨S2000x128, .f32⟩
  | .local _ .vmem, ⟨9, _⟩ => ⟨S2000x128, .f32⟩
  | .local _ .vmem, ⟨10, _⟩ => ⟨S2000x128, .f32⟩
  | .local _ .vmem, ⟨11, _⟩ => ⟨S2000x128, .f32⟩
  | .local _ .vmem, ⟨12, _⟩ => ⟨S2000x128, .f32⟩
  | .local _ .vmem, ⟨13, _⟩ => ⟨S128x128, .f32⟩
  | .local _ .vmem, ⟨14, _⟩ => ⟨S128x128, .f32⟩
  | .local _ .vmem, ⟨15, _⟩ => ⟨S1x128, .f32⟩
  | .local _ .vmem, ⟨16, _⟩ => ⟨S2000x128, .f32⟩
  | .local _ .vmem, ⟨17, _⟩ => ⟨S2000x128, .f32⟩
  | .local _ .vmem, ⟨18, _⟩ => ⟨S2000x128, .f32⟩
  | .local _ .vmem, ⟨19, _⟩ => ⟨S2000x128, .f32⟩
  | .local _ .vmem, ⟨20, _⟩ => ⟨S2000x128, .f32⟩
  | .local _ .vmem, ⟨21, _⟩ => ⟨S2000x128, .f32⟩
  | .local _ .vmem, ⟨22, _⟩ => ⟨S2000x128, .f32⟩
  | .local _ .vmem, ⟨23, _⟩ => ⟨S2000x128, .f32⟩
  | .local _ .vmem, ⟨24, _⟩ => ⟨S128x128, .f32⟩
  | .local _ .vmem, ⟨25, _⟩ => ⟨S128x128, .f32⟩
  | .local _ .vmem, ⟨26, _⟩ => ⟨S1x128, .f32⟩
  | .local _ .vmem, ⟨27, _⟩ => ⟨S384x47, .f32⟩
  | .local _ .vmem, ⟨28, _⟩ => ⟨S1x47, .f32⟩
  | .local _ .vmem, ⟨29, _⟩ => ⟨S2000x47, .f32⟩
  | .local _ .vmem, ⟨30, _⟩ => ⟨S2000x47, .f32⟩
  | _, _ => ⟨S100000x100, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_c : Ref sig .tc := ⟨.hbm, 29, rfl⟩
abbrev main_v15 : Ref sig .tc := ⟨.hbm, 30, rfl⟩
abbrev main_v16 : Ref sig .tc := ⟨.hbm, 31, rfl⟩
abbrev main_c_0 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_cst : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_c_1 : Ref sig .tc := ⟨.hbm, 46, rfl⟩
abbrev main_v29 : Ref sig .tc := ⟨.hbm, 47, rfl⟩
abbrev main_v30 : Ref sig .tc := ⟨.hbm, 48, rfl⟩
abbrev main_c_2 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_cst_3 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_c_4 : Ref sig .tc := ⟨.hbm, 63, rfl⟩
abbrev main_v43 : Ref sig .tc := ⟨.hbm, 64, rfl⟩
abbrev main_v44 : Ref sig .tc := ⟨.hbm, 65, rfl⟩
abbrev main_c_5 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_cst_6 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg2_1 : Ref sig .tc := ⟨.vmem, 23, rfl⟩
abbrev cc2_stg3_0 : Ref sig .tc := ⟨.vmem, 24, rfl⟩
abbrev cc2_stg4_0 : Ref sig .tc := ⟨.vmem, 25, rfl⟩
abbrev cc2_stg5_0 : Ref sig .tc := ⟨.vmem, 26, rfl⟩
abbrev cc2_stg6_0 : Ref sig .tc := ⟨.vmem, 27, rfl⟩
abbrev cc2_stg7_0 : Ref sig .tc := ⟨.vmem, 28, rfl⟩
abbrev cc2_stg8_0 : Ref sig .tc := ⟨.vmem, 29, rfl⟩
abbrev cc2_stg8_1 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem2_1 : DmaSem sig := 23
abbrev cc2_sem3_0 : DmaSem sig := 24
abbrev cc2_sem4_0 : DmaSem sig := 25
abbrev cc2_sem5_0 : DmaSem sig := 26
abbrev cc2_sem6_0 : DmaSem sig := 27
abbrev cc2_sem7_0 : DmaSem sig := 28
abbrev cc2_sem8_0 : DmaSem sig := 29
abbrev cc2_sem8_1 : DmaSem sig := 30

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x100 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x100 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S100x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S100x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S2000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S384x47 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S1x47 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 2 → Memref sig .tc .vmem S2000x47 .f32 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  transposes_S128x100_S100x128_1_0 : S128x100.Transposes [1, 0] S100x128
  shapeCasts_S128_S1x128 : S128.ShapeCasts S1x128
  transposes_S128x128_S128x128_1_0 : S128x128.Transposes [1, 0] S128x128
  transposes_S47x384_S384x47_1_0 : S47x384.Transposes [1, 0] S384x47
  shapeCasts_S47_S1x47 : S47.ShapeCasts S1x47
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S1600000x1_S1600000x100_0_1 : S1600000x1.BroadcastsInDim S1600000x100 (![0, 1] : Fin 2 → Fin S1600000x100.rank)
  bcast_S_S100000x100 : S_.BroadcastsInDim S100000x100 (![] : Fin 0 → Fin S100000x100.rank)
  inb_S2000x100_S2000x100_0_0 : ∀ a, (![0, 0] : Fin 2 → Nat) a + S2000x100.size a ≤ S2000x100.size a
  h_S2000x100 : 0 < S2000x100.numel
  shapeCasts_S2000x100_S2000x100 : S2000x100.ShapeCasts S2000x100
  bitsLt_bf16_f32 : FTy.bits .bf16 < FTy.bits .f32
  inb_S100x128_S100x128_0_0 : ∀ a, (![0, 0] : Fin 2 → Nat) a + S100x128.size a ≤ S100x128.size a
  h_S100x128 : 0 < S100x128.numel
  shapeCasts_S100x128_S100x128 : S100x128.ShapeCasts S100x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  inb_S2000x128_S2000x128_0_0 : ∀ a, (![0, 0] : Fin 2 → Nat) a + S2000x128.size a ≤ S2000x128.size a
  h_S2000x128 : 0 < S2000x128.numel
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  shapeCasts_S2000x128_S2000x128 : S2000x128.ShapeCasts S2000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  concatenates_S2000x128_S2000x128_S2000x128_S2000x384_d1 : Shape.Concatenates [S2000x128, S2000x128, S2000x128] S2000x384 1
  inb_S384x47_S384x47_0_0 : ∀ a, (![0, 0] : Fin 2 → Nat) a + S384x47.size a ≤ S384x47.size a
  h_S384x47 : 0 < S384x47.numel
  shapeCasts_S384x47_S384x47 : S384x47.ShapeCasts S384x47
  inb_S1x47_S1x47_0_0 : ∀ a, (![0, 0] : Fin 2 → Nat) a + S1x47.size a ≤ S1x47.size a
  h_S1x47 : 0 < S1x47.numel
  shapeCasts_S1x47_S1x47 : S1x47.ShapeCasts S1x47
  broadcasts_S1x47_S2000x47 : S1x47.Broadcasts S2000x47
  reduces_S2000x47_S2000 : S2000x47.Reduces [1] S2000
  shapeCasts_S2000_S2000x1 : S2000.ShapeCasts S2000x1
  broadcasts_S2000x1_S2000x47 : S2000x1.Broadcasts S2000x47
  inb_S2000x47_S2000x47_0_0 : ∀ a, (![0, 0] : Fin 2 → Nat) a + S2000x47.size a ≤ S2000x47.size a
  h_S2000x47 : 0 < S2000x47.numel
  gather_S100000x100_S1600000x1_S1600000x100_1_0_n_n_0_1_1100_wf : GatherDims.WF S100000x100 S1600000x1 S1600000x100 [1] [0] [] [0] [] 1 ![1, 100]
  scatter_S100000x100_S1600000x1_S1600000x100_1_0_0_1_wf : ScatterDims.WF S100000x100 S1600000x1 S1600000x100 [1] [0] [0] 1
  dot_S2000x100_S100x128_S2000x128_1_0_0_1_n_n_wf : DotDims.WF S2000x100 S100x128 S2000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S2000x128_S128x128_S2000x128_1_0_0_1_n_n_wf : DotDims.WF S2000x128 S128x128 S2000x128 [1] [0] [0] [1] [] []
  dot_S2000x384_S384x47_S2000x47_1_0_0_1_n_n_wf : DotDims.WF S2000x384 S384x47 S2000x47 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x100.size a ≤ S100000x100.size a
  hwx0_0 : ∀ i : grid0.Coords, EltTy.bits .f32 = 32 ∨ (Rect.block (s := S100000x100) S2000x100.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x100.size a ≤ S100000x100.size a
  hwx0_1 : ∀ i : grid0.Coords, EltTy.bits .f32 = 32 ∨ (Rect.block (s := S100000x100) S2000x100.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S100x128.size a ≤ S100x128.size a
  hwx0_2 : ∀ i : grid0.Coords, EltTy.bits .f32 = 32 ∨ (Rect.block (s := S100x128) S100x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S100x128.size a ≤ S100x128.size a
  hwx0_3 : ∀ i : grid0.Coords, EltTy.bits .f32 = 32 ∨ (Rect.block (s := S100x128) S100x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x128.size a ≤ S100000x128.size a
  hwx0_5 : ∀ i : grid0.Coords, EltTy.bits .f32 = 32 ∨ (Rect.block (s := S100000x128) S2000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S100000x128.size a
  hwx1_0 : ∀ i : grid1.Coords, EltTy.bits .f32 = 32 ∨ (Rect.block (s := S100000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S100000x128.size a
  hwx1_1 : ∀ i : grid1.Coords, EltTy.bits .f32 = 32 ∨ (Rect.block (s := S100000x128) S2000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x128.size a ≤ S100000x128.size a
  hwx1_5 : ∀ i : grid1.Coords, EltTy.bits .f32 = 32 ∨ (Rect.block (s := S100000x128) S2000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S100000x128.size a
  hwx2_0 : ∀ i : grid2.Coords, EltTy.bits .f32 = 32 ∨ (Rect.block (s := S100000x128) S2000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x128.size a ≤ S100000x128.size a
  hwx2_1 : ∀ i : grid2.Coords, EltTy.bits .f32 = 32 ∨ (Rect.block (s := S100000x128) S2000x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x128.size a ≤ S100000x128.size a
  hwx2_2 : ∀ i : grid2.Coords, EltTy.bits .f32 = 32 ∨ (Rect.block (s := S100000x128) S2000x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x128.size a ≤ S128x128.size a
  hwx2_4 : ∀ i : grid2.Coords, EltTy.bits .f32 = 32 ∨ (Rect.block (s := S128x128) S128x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x128.size a ≤ S1x128.size a
  hwx2_5 : ∀ i : grid2.Coords, EltTy.bits .f32 = 32 ∨ (Rect.block (s := S1x128) S1x128.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S384x47.size a ≤ S384x47.size a
  hwx2_6 : ∀ i : grid2.Coords, EltTy.bits .f32 = 32 ∨ (Rect.block (s := S384x47) S384x47.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S1x47.size a ≤ S1x47.size a
  hwx2_7 : ∀ i : grid2.Coords, EltTy.bits .f32 = 32 ∨ (Rect.block (s := S1x47) S1x47.size (cc2_transform_7 i) (hinb2_7 i)).WholeWords (EltTy.packing .f32)
  hstage2_8 : ∀ j, (stage2_8 j).IsWhole
  nbuf2_8 : grid2.bufCount reads2_8 false = 2
  hreads2_8 : ∀ i i' : grid2.Coords, (∀ a, reads2_8 a = true → i a = i' a) → cc2_transform_8 i = cc2_transform_8 i'
  hinb2_8 : ∀ (i : grid2.Coords) a, (cc2_transform_8 i a + 1) * S2000x47.size a ≤ S100000x47.size a
  hwx2_8 : ∀ i : grid2.Coords, EltTy.bits .f32 = 32 ∨ (Rect.block (s := S100000x47) S2000x47.size (cc2_transform_8 i) (hinb2_8 i)).WholeWords (EltTy.packing .f32)

variable [Facts₀]

def gather_S100000x100_S1600000x1_S1600000x100_1_0_n_n_0_1_1100 : GatherDims S100000x100 S1600000x1 S1600000x100 where
  offsetDims := [1]
  collapsedSliceDims := [0]
  operandBatchingDims := []
  startIndicesBatchingDims := []
  startIndexMap := [0]
  indexVectorDim := 1
  sliceSizes := ![1, 100]
  wf := gather_S100000x100_S1600000x1_S1600000x100_1_0_n_n_0_1_1100_wf
def scatter_S100000x100_S1600000x1_S1600000x100_1_0_0_1 : ScatterDims S100000x100 S1600000x1 S1600000x100 where
  updateWindowDims := [1]
  insertedWindowDims := [0]
  scatterDimsToOperandDims := [0]
  indexVectorDim := 1
  wf := scatter_S100000x100_S1600000x1_S1600000x100_1_0_0_1_wf
def dot_S2000x100_S100x128_S2000x128_1_0_0_1_n_n : DotDims S2000x100 S100x128 S2000x128 where
  lhsContracting := [1]
  rhsContracting := [0]
  lhsNonContracting := [0]
  rhsNonContracting := [1]
  lhsBatch := []
  rhsBatch := []
  wf := dot_S2000x100_S100x128_S2000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def dot_S2000x384_S384x47_S2000x47_1_0_0_1_n_n : DotDims S2000x384 S384x47 S2000x47 where
  lhsContracting := [1]
  rhsContracting := [0]
  lhsNonContracting := [0]
  rhsNonContracting := [1]
  lhsBatch := []
  rhsBatch := []
  wf := dot_S2000x384_S384x47_S2000x47_1_0_0_1_n_n_wf

abbrev win0_0 : Pipeline.Window sig grid0 :=
  Pipeline.Window.ofSpec (Memref.whole main_v27) S2000x100.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S2000x100.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S100x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S100x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v6) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v28) S2000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v41) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v28) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v7) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v8) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v9) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v42) S2000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v55) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v28) S2000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v42) S2000x128.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v10) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v11) S128x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v12) S1x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v13) S384x47.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v14) S1x47.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v56) S2000x47.size cc2_transform_8 reads2_8 true false 2 stage2_8 sem2_8
    hrank2 hreads2_8 hinb2_8 nbuf2_8 (Memref.isWhole_whole _) hwx2_8 hstage2_8

abbrev win2 : Fin 9 → Pipeline.Window sig grid2 := fun | 0 => win2_0 | 1 => win2_1 | 2 => win2_2 | 3 => win2_3 | 4 => win2_4 | 5 => win2_5 | 6 => win2_6 | 7 => win2_7 | 8 => win2_8 | ⟨_ + 9, h⟩ => absurd h (Nat.not_lt.2 (Nat.le_add_left _ _))
abbrev spec2 : Fin 9 → Pipeline.WinSpec sig grid2.rank := fun w => (win2 w).toWinSpec

class Facts : Prop extends Facts₀ where

variable [Facts]
-- ==== ReferenceIdeal.lean ====
abbrev S100000x100 : Shape := ⟨2, ![100000, 100]⟩
abbrev S2x1600000 : Shape := ⟨2, ![2, 1600000]⟩
abbrev S1600000 : Shape := ⟨1, ![1600000]⟩
abbrev S128x100 : Shape := ⟨2, ![128, 100]⟩
abbrev S128 : Shape := ⟨1, ![128]⟩
abbrev S128x128 : Shape := ⟨2, ![128, 128]⟩
abbrev S47x384 : Shape := ⟨2, ![47, 384]⟩
abbrev S47 : Shape := ⟨1, ![47]⟩
abbrev S1x1600000 : Shape := ⟨2, ![1, 1600000]⟩
abbrev S_ : Shape := ⟨0, ![]⟩
abbrev S1600000x1 : Shape := ⟨2, ![1600000, 1]⟩
abbrev S1600000x100 : Shape := ⟨2, ![1600000, 100]⟩
abbrev S100x128 : Shape := ⟨2, ![100, 128]⟩
abbrev S100000x128 : Shape := ⟨2, ![100000, 128]⟩
abbrev S1x128 : Shape := ⟨2, ![1, 128]⟩
abbrev S1600000x128 : Shape := ⟨2, ![1600000, 128]⟩
abbrev S100000x384 : Shape := ⟨2, ![100000, 384]⟩
abbrev S384x47 : Shape := ⟨2, ![384, 47]⟩
abbrev S100000x47 : Shape := ⟨2, ![100000, 47]⟩
abbrev S1x47 : Shape := ⟨2, ![1, 47]⟩
abbrev S100000 : Shape := ⟨1, ![100000]⟩
abbrev S100000x1 : Shape := ⟨2, ![100000, 1]⟩

abbrev nBuf : Space → Nat
  | .hbm => 120
  | .vmem => 0
  | .smem => 0
  | _ => 0

abbrev bufTy : (tb : Table) → Fin (tcTables nBuf tb) → BufTy
  | .hbm, ⟨0, _⟩ => ⟨S100000x100, .f32⟩
  | .hbm, ⟨1, _⟩ => ⟨S2x1600000, .i32⟩
  | .hbm, ⟨2, _⟩ => ⟨S1600000, .f32⟩
  | .hbm, ⟨3, _⟩ => ⟨S128x100, .f32⟩
  | .hbm, ⟨4, _⟩ => ⟨S128x100, .f32⟩
  | .hbm, ⟨5, _⟩ => ⟨S128, .f32⟩
  | .hbm, ⟨6, _⟩ => ⟨S128x128, .f32⟩
  | .hbm, ⟨7, _⟩ => ⟨S128x128, .f32⟩
  | .hbm, ⟨8, _⟩ => ⟨S128, .f32⟩
  | .hbm, ⟨9, _⟩ => ⟨S128x128, .f32⟩
  | .hbm, ⟨10, _⟩ => ⟨S128x128, .f32⟩
  | .hbm, ⟨11, _⟩ => ⟨S128, .f32⟩
  | .hbm, ⟨12, _⟩ => ⟨S47x384, .f32⟩
  | .hbm, ⟨13, _⟩ => ⟨S47, .f32⟩
  | .hbm, ⟨14, _⟩ => ⟨S1x1600000, .i32⟩
  | .hbm, ⟨15, _⟩ => ⟨S1600000, .i32⟩
  | .hbm, ⟨16, _⟩ => ⟨S1x1600000, .i32⟩
  | .hbm, ⟨17, _⟩ => ⟨S1600000, .i32⟩
  | .hbm, ⟨18, _⟩ => ⟨S_, .i32⟩
  | .hbm, ⟨19, _⟩ => ⟨S1600000, .i32⟩
  | .hbm, ⟨20, _⟩ => ⟨S1600000, .i1⟩
  | .hbm, ⟨21, _⟩ => ⟨S_, .i32⟩
  | .hbm, ⟨22, _⟩ => ⟨S1600000, .i32⟩
  | .hbm, ⟨23, _⟩ => ⟨S1600000, .i32⟩
  | .hbm, ⟨24, _⟩ => ⟨S1600000, .i32⟩
  | .hbm, ⟨25, _⟩ => ⟨S1600000x1, .i32⟩
  | .hbm, ⟨26, _⟩ => ⟨S1600000x100, .f32⟩
  | .hbm, ⟨27, _⟩ => ⟨S1600000x1, .f32⟩
  | .hbm, ⟨28, _⟩ => ⟨S1600000x100, .f32⟩
  | .hbm, ⟨29, _⟩ => ⟨S1600000x100, .f32⟩
  | .hbm, ⟨30, _⟩ => ⟨S_, .f32⟩
  | .hbm, ⟨31, _⟩ => ⟨S100000x100, .f32⟩
  | .hbm, ⟨32, _⟩ => ⟨S1600000x1, .i32⟩
  | .hbm, ⟨33, _⟩ => ⟨S100000x100, .f32⟩
  | .hbm, ⟨34, _⟩ => ⟨S100x128, .f32⟩
  | .hbm, ⟨35, _⟩ => ⟨S100000x128, .f32⟩
  | .hbm, ⟨36, _⟩ => ⟨S100x128, .f32⟩
  | .hbm, ⟨37, _⟩ => ⟨S100000x128, .f32⟩
  | .hbm, ⟨38, _⟩ => ⟨S100000x128, .f32⟩
  | .hbm, ⟨39, _⟩ => ⟨S1x128, .f32⟩
  | .hbm, ⟨40, _⟩ => ⟨S100000x128, .f32⟩
  | .hbm, ⟨41, _⟩ => ⟨S100000x128, .f32⟩
  | .hbm, ⟨42, _⟩ => ⟨S_, .f32⟩
  | .hbm, ⟨43, _⟩ => ⟨S100000x128, .f32⟩
  | .hbm, ⟨44, _⟩ => ⟨S100000x128, .f32⟩
  | .hbm, ⟨45, _⟩ => ⟨S_, .i32⟩
  | .hbm, ⟨46, _⟩ => ⟨S1600000, .i32⟩
  | .hbm, ⟨47, _⟩ => ⟨S1600000, .i1⟩
  | .hbm, ⟨48, _⟩ => ⟨S_, .i32⟩
  | .hbm, ⟨49, _⟩ => ⟨S1600000, .i32⟩
  | .hbm, ⟨50, _⟩ => ⟨S1600000, .i32⟩
  | .hbm, ⟨51, _⟩ => ⟨S1600000, .i32⟩
  | .hbm, ⟨52, _⟩ => ⟨S1600000x1, .i32⟩
  | .hbm, ⟨53, _⟩ => ⟨S1600000x128, .f32⟩
  | .hbm, ⟨54, _⟩ => ⟨S1600000x1, .f32⟩
  | .hbm, ⟨55, _⟩ => ⟨S1600000x128, .f32⟩
  | .hbm, ⟨56, _⟩ => ⟨S1600000x128, .f32⟩
  | .hbm, ⟨57, _⟩ => ⟨S_, .f32⟩
  | .hbm, ⟨58, _⟩ => ⟨S100000x128, .f32⟩
  | .hbm, ⟨59, _⟩ => ⟨S1600000x1, .i32⟩
  | .hbm, ⟨60, _⟩ => ⟨S100000x128, .f32⟩
  | .hbm, ⟨61, _⟩ => ⟨S128x128, .f32⟩
  | .hbm, ⟨62, _⟩ => ⟨S100000x128, .f32⟩
  | .hbm, ⟨63, _⟩ => ⟨S128x128, .f32⟩
  | .hbm, ⟨64, _⟩ => ⟨S100000x128, .f32⟩
  | .hbm, ⟨65, _⟩ => ⟨S100000x128, .f32⟩
  | .hbm, ⟨66, _⟩ => ⟨S1x128, .f32⟩
  | .hbm, ⟨67, _⟩ => ⟨S100000x128, .f32⟩
  | .hbm, ⟨68, _⟩ => ⟨S100000x128, .f32⟩
  | .hbm, ⟨69, _⟩ => ⟨S_, .f32⟩
  | .hbm, ⟨70, _⟩ => ⟨S100000x128, .f32⟩
  | .hbm, ⟨71, _⟩ => ⟨S100000x128, .f32⟩
  | .hbm, ⟨72, _⟩ => ⟨S_, .i32⟩
  | .hbm, ⟨73, _⟩ => ⟨S1600000, .i32⟩
  | .hbm, ⟨74, _⟩ => ⟨S1600000, .i1⟩
  | .hbm, ⟨75, _⟩ => ⟨S_, .i32⟩
  | .hbm, ⟨76, _⟩ => ⟨S1600000, .i32⟩
  | .hbm, ⟨77, _⟩ => ⟨S1600000, .i32⟩
  | .hbm, ⟨78, _⟩ => ⟨S1600000, .i32⟩
  | .hbm, ⟨79, _⟩ => ⟨S1600000x1, .i32⟩
  | .hbm, ⟨80, _⟩ => ⟨S1600000x128, .f32⟩
  | .hbm, ⟨81, _⟩ => ⟨S1600000x1, .f32⟩
  | .hbm, ⟨82, _⟩ => ⟨S1600000x128, .f32⟩
  | .hbm, ⟨83, _⟩ => ⟨S1600000x128, .f32⟩
  | .hbm, ⟨84, _⟩ => ⟨S_, .f32⟩
  | .hbm, ⟨85, _⟩ => ⟨S100000x128, .f32⟩
  | .hbm, ⟨86, _⟩ => ⟨S1600000x1, .i32⟩
  | .hbm, ⟨87, _⟩ => ⟨S100000x128, .f32⟩
  | .hbm, ⟨88, _⟩ => ⟨S128x128, .f32⟩
  | .hbm, ⟨89, _⟩ => ⟨S100000x128, .f32⟩
  | .hbm, ⟨90, _⟩ => ⟨S128x128, .f32⟩
  | .hbm, ⟨91, _⟩ => ⟨S100000x128, .f32⟩
  | .hbm, ⟨92, _⟩ => ⟨S100000x128, .f32⟩
  | .hbm, ⟨93, _⟩ => ⟨S1x128, .f32⟩
  | .hbm, ⟨94, _⟩ => ⟨S100000x128, .f32⟩
  | .hbm, ⟨95, _⟩ => ⟨S100000x128, .f32⟩
  | .hbm, ⟨96, _⟩ => ⟨S_, .f32⟩
  | .hbm, ⟨97, _⟩ => ⟨S100000x128, .f32⟩
  | .hbm, ⟨98, _⟩ => ⟨S100000x128, .f32⟩
  | .hbm, ⟨99, _⟩ => ⟨S100000x384, .f32⟩
  | .hbm, ⟨100, _⟩ => ⟨S384x47, .f32⟩
  | .hbm, ⟨101, _⟩ => ⟨S100000x47, .f32⟩
  | .hbm, ⟨102, _⟩ => ⟨S1x47, .f32⟩
  | .hbm, ⟨103, _⟩ => ⟨S100000x47, .f32⟩
  | .hbm, ⟨104, _⟩ => ⟨S100000x47, .f32⟩
  | .hbm, ⟨105, _⟩ => ⟨S_, .f32⟩
  | .hbm, ⟨106, _⟩ => ⟨S100000, .f32⟩
  | .hbm, ⟨107, _⟩ => ⟨S_, .f32⟩
  | .hbm, ⟨108, _⟩ => ⟨S100000, .f32⟩
  | .hbm, ⟨109, _⟩ => ⟨S100000, .f32⟩
  | .hbm, ⟨110, _⟩ => ⟨S100000x1, .f32⟩
  | .hbm, ⟨111, _⟩ => ⟨S100000x47, .f32⟩
  | .hbm, ⟨112, _⟩ => ⟨S100000x47, .f32⟩
  | .hbm, ⟨113, _⟩ => ⟨S100000x47, .f32⟩
  | .hbm, ⟨114, _⟩ => ⟨S_, .f32⟩
  | .hbm, ⟨115, _⟩ => ⟨S100000, .f32⟩
  | .hbm, ⟨116, _⟩ => ⟨S100000x1, .f32⟩
  | .hbm, ⟨117, _⟩ => ⟨S100000x1, .f32⟩
  | .hbm, ⟨118, _⟩ => ⟨S100000x47, .f32⟩
  | .hbm, ⟨119, _⟩ => ⟨S100000x47, .f32⟩
  | _, _ => ⟨S100000x100, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_c : Ref sig .tc := ⟨.hbm, 18, rfl⟩
abbrev main_v4 : Ref sig .tc := ⟨.hbm, 19, rfl⟩
abbrev main_v5 : Ref sig .tc := ⟨.hbm, 20, rfl⟩
abbrev main_c_0 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_cst : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_call0_cst : Ref sig .tc := ⟨.hbm, 42, rfl⟩
abbrev main_call0_v0 : Ref sig .tc := ⟨.hbm, 43, rfl⟩
abbrev main_v25 : Ref sig .tc := ⟨.hbm, 44, rfl⟩
abbrev main_c_1 : Ref sig .tc := ⟨.hbm, 45, rfl⟩
abbrev main_v26 : Ref sig .tc := ⟨.hbm, 46, rfl⟩
abbrev main_v27 : Ref sig .tc := ⟨.hbm, 47, rfl⟩
abbrev main_c_2 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_cst_3 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_call1_cst : Ref sig .tc := ⟨.hbm, 69, rfl⟩
abbrev main_call1_v0 : Ref sig .tc := ⟨.hbm, 70, rfl⟩
abbrev main_v47 : Ref sig .tc := ⟨.hbm, 71, rfl⟩
abbrev main_c_4 : Ref sig .tc := ⟨.hbm, 72, rfl⟩
abbrev main_v48 : Ref sig .tc := ⟨.hbm, 73, rfl⟩
abbrev main_v49 : Ref sig .tc := ⟨.hbm, 74, rfl⟩
abbrev main_c_5 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_cst_6 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_call2_cst : Ref sig .tc := ⟨.hbm, 96, rfl⟩
abbrev main_call2_v0 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_call3_cst : Ref sig .tc := ⟨.hbm, 105, rfl⟩
abbrev main_call3_v0 : Ref sig .tc := ⟨.hbm, 106, rfl⟩
abbrev main_call3_cst_0 : Ref sig .tc := ⟨.hbm, 107, rfl⟩
abbrev main_call3_v1 : Ref sig .tc := ⟨.hbm, 108, rfl⟩
abbrev main_call3_v2 : Ref sig .tc := ⟨.hbm, 109, rfl⟩
abbrev main_call3_v3 : Ref sig .tc := ⟨.hbm, 110, rfl⟩
abbrev main_call3_v4 : Ref sig .tc := ⟨.hbm, 111, rfl⟩
abbrev main_call3_v5 : Ref sig .tc := ⟨.hbm, 112, rfl⟩
abbrev main_call3_v6 : Ref sig .tc := ⟨.hbm, 113, rfl⟩
abbrev main_call3_cst_1 : Ref sig .tc := ⟨.hbm, 114, rfl⟩
abbrev main_call3_v7 : Ref sig .tc := ⟨.hbm, 115, rfl⟩
abbrev main_call3_v8 : Ref sig .tc := ⟨.hbm, 116, rfl⟩
abbrev main_call3_v9 : Ref sig .tc := ⟨.hbm, 117, rfl⟩
abbrev main_call3_v10 : Ref sig .tc := ⟨.hbm, 118, rfl⟩
abbrev main_v76 : Ref sig .tc := ⟨.hbm, 119, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S1600000x1_S1600000x100_0_1 : S1600000x1.BroadcastsInDim S1600000x100 (![0, 1] : Fin 2 → Fin S1600000x100.rank)
  bcast_S_S100000x100 : S_.BroadcastsInDim S100000x100 (![] : Fin 0 → Fin S100000x100.rank)
  transposes_S128x100_S100x128_1_0 : S128x100.Transposes [1, 0] S100x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S100000x128 : S_.BroadcastsInDim S100000x128 (![] : Fin 0 → Fin S100000x128.rank)
  bcast_S1600000x1_S1600000x128_0_1 : S1600000x1.BroadcastsInDim S1600000x128 (![0, 1] : Fin 2 → Fin S1600000x128.rank)
  transposes_S128x128_S128x128_1_0 : S128x128.Transposes [1, 0] S128x128
  concatenates_S100000x128_S100000x128_S100000x128_S100000x384_d1 : Shape.Concatenates [S100000x128, S100000x128, S100000x128] S100000x384 1
  transposes_S47x384_S384x47_1_0 : S47x384.Transposes [1, 0] S384x47
  bcast_S47_S1x47_1 : S47.BroadcastsInDim S1x47 (![1] : Fin 1 → Fin S1x47.rank)
  bcast_S1x47_S100000x47_0_1 : S1x47.BroadcastsInDim S100000x47 (![0, 1] : Fin 2 → Fin S100000x47.rank)
  reducesTo_S100000x47_S100000_d1 : S100000x47.ReducesTo [1] S100000
  h_S_ : 0 < S_.numel
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x47_0_1 : S100000x1.BroadcastsInDim S100000x47 (![0, 1] : Fin 2 → Fin S100000x47.rank)
  gather_S100000x100_S1600000x1_S1600000x100_1_0_n_n_0_1_1100_wf : GatherDims.WF S100000x100 S1600000x1 S1600000x100 [1] [0] [] [0] [] 1 ![1, 100]
  scatter_S100000x100_S1600000x1_S1600000x100_1_0_0_1_wf : ScatterDims.WF S100000x100 S1600000x1 S1600000x100 [1] [0] [0] 1
  dot_S100000x100_S100x128_S100000x128_1_0_0_1_n_n_wf : DotDims.WF S100000x100 S100x128 S100000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []
  dot_S100000x384_S384x47_S100000x47_1_0_0_1_n_n_wf : DotDims.WF S100000x384 S384x47 S100000x47 [1] [0] [0] [1] [] []

variable [Facts₀]

def gather_S100000x100_S1600000x1_S1600000x100_1_0_n_n_0_1_1100 : GatherDims S100000x100 S1600000x1 S1600000x100 where
  offsetDims := [1]
  collapsedSliceDims := [0]
  operandBatchingDims := []
  startIndicesBatchingDims := []
  startIndexMap := [0]
  indexVectorDim := 1
  sliceSizes := ![1, 100]
  wf := gather_S100000x100_S1600000x1_S1600000x100_1_0_n_n_0_1_1100_wf
def scatter_S100000x100_S1600000x1_S1600000x100_1_0_0_1 : ScatterDims S100000x100 S1600000x1 S1600000x100 where
  updateWindowDims := [1]
  insertedWindowDims := [0]
  scatterDimsToOperandDims := [0]
  indexVectorDim := 1
  wf := scatter_S100000x100_S1600000x1_S1600000x100_1_0_0_1_wf
def dot_S100000x100_S100x128_S100000x128_1_0_0_1_n_n : DotDims S100000x100 S100x128 S100000x128 where
  lhsContracting := [1]
  rhsContracting := [0]
  lhsNonContracting := [0]
  rhsNonContracting := [1]
  lhsBatch := []
  rhsBatch := []
  wf := dot_S100000x100_S100x128_S100000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x384_S384x47_S100000x47_1_0_0_1_n_n : DotDims S100000x384 S384x47 S100000x47 where
  lhsContracting := [1]
  rhsContracting := [0]
  lhsNonContracting := [0]
  rhsNonContracting := [1]
  lhsBatch := []
  rhsBatch := []
  wf := dot_S100000x384_S384x47_S100000x47_1_0_0_1_n_n_wf

class Facts : Prop extends Facts₀ where

variable [Facts]
-- ==== Proof.ValueRun.lean ====
/-
  The idealized kernel program's run with its result named. The program is six segments in a row — a stretch of host
  operations, then a pipelined region, three times over — and the contents of every buffer at each boundary are a fold
  through them from the launch memory. Every weakly fair execution ends with each buffer at the last boundary's contents;
  read at the result buffer this names the result, and read at the argument buffers it says they are as launched.
-/
import proofs.«172433_j15625091023093_1_alg».proof.Proof.KernelIdealFrameP

set_option maxRecDepth 16384

noncomputable section

namespace Cert.KernelIdeal.ValueRun

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- From any memory with zero counters every weakly fair execution of the program terminates without a fault, with the
    result buffer at the contents the last boundary gives it and every argument array as launched. -/
theorem run_named : θ_run defs (onTc (τ := τ) (main (F := F))) ⟨m, fun _ => 0, ρ⟩ (fun r => ∀ c : Dev nD,
      r.2.mem ((c.tc : Thread nD τ).loc main_v56) = W6 m ρ c (Proc.devRef .tc main_v56)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v56 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c),
       (h c _ (mem_uc main_arg9 (by decide))).trans (W6_main_arg9 m ρ c),
       (h c _ (mem_uc main_arg10 (by decide))).trans (W6_main_arg10 m ρ c),
       (h c _ (mem_uc main_arg11 (by decide))).trans (W6_main_arg11 m ρ c),
       (h c _ (mem_uc main_arg12 (by decide))).trans (W6_main_arg12 m ρ c),
       (h c _ (mem_uc main_arg13 (by decide))).trans (W6_main_arg13 m ρ c)⟩)

end Cert.KernelIdeal.ValueRun

end
-- ==== Proof.HostDefs.lean ====
/-
  The reference program's result written as a composition of a few whole-array stages, each a fixed line of host
  operations: the neighbourhood aggregation (gather the source rows, scale each by its edge weight, add them up at the
  destination rows), a layer (two matrix products, the bias laid along the rows, the rectifier), the logits of the three
  layers' outputs joined side by side, and the logarithmic softmax along each row.
-/
import proofs.«172433_j15625091023093_1_alg».proof.Proof.Gen.ReferenceIdeal
import Idealize.ShloMosaic.PureOps.Ideal

noncomputable section

namespace Cert.ReferenceIdeal.HostNet

open Cert.ReferenceIdeal Cert.ReferenceIdeal.Gen Idealize.ShloMosaic Idealize.ShloMosaic.TcCoe Idealize.SL.Sem

/-- The aggregation over the edge list of a table of 100 features per node. -/
def agg100 (x : FVec Ideal S100000x100 .f32) (ei : IVec S2x1600000 32) (ew : FVec Ideal S1600000 .f32) : FVec Ideal S100000x100 .f32 :=
  Host.scatterAdd scatter_S100000x100_S1600000x1_S1600000x100_1_0_0_1 (broadcastInDim S100000x100 ![] bcast_S_S100000x100 (constant (F := Ideal) S_ .f32 0x00000000#32)) (broadcastInDim S1600000x1 ![0] bcast_S1600000_S1600000x1_0 (shapeCast _ (extractStridedSlice S1x1600000 ![1, 0] ei slices_S2x1600000_S1x1600000_1_0) shapeCasts_S1x1600000_S1600000)) (mulf (Host.gather gather_S100000x100_S1600000x1_S1600000x100_1_0_n_n_0_1_1100 x (broadcastInDim S1600000x1 ![0] bcast_S1600000_S1600000x1_0 (select (cmpi .slt (shapeCast _ (extractStridedSlice S1x1600000 ![0, 0] ei slices_S2x1600000_S1x1600000_0_0) shapeCasts_S1x1600000_S1600000) (broadcastInDim S1600000 ![] bcast_S_S1600000 (constantI S_ 32 0#32))) (addi (shapeCast _ (extractStridedSlice S1x1600000 ![0, 0] ei slices_S2x1600000_S1x1600000_0_0) shapeCasts_S1x1600000_S1600000) (broadcastInDim S1600000 ![] bcast_S_S1600000 (constantI S_ 32 100000#32))) (shapeCast _ (extractStridedSlice S1x1600000 ![0, 0] ei slices_S2x1600000_S1x1600000_0_0) shapeCasts_S1x1600000_S1600000)))) (broadcastInDim S1600000x100 ![0, 1] bcast_S1600000x1_S1600000x100_0_1 (broadcastInDim S1600000x1 ![0] bcast_S1600000_S1600000x1_0 ew)))

/-- The aggregation over the edge list of a table of 128 features per node. -/
def agg128 (x : FVec Ideal S100000x128 .f32) (ei : IVec S2x1600000 32) (ew : FVec Ideal S1600000 .f32) : FVec Ideal S100000x128 .f32 :=
  Host.scatterAdd scatter_S100000x128_S1600000x1_S1600000x128_1_0_0_1 (broadcastInDim S100000x128 ![] bcast_S_S100000x128 (constant (F := Ideal) S_ .f32 0x00000000#32)) (broadcastInDim S1600000x1 ![0] bcast_S1600000_S1600000x1_0 (shapeCast _ (extractStridedSlice S1x1600000 ![1, 0] ei slices_S2x1600000_S1x1600000_1_0) shapeCasts_S1x1600000_S1600000)) (mulf (Host.gather gather_S100000x128_S1600000x1_S1600000x128_1_0_n_n_0_1_1128 x (broadcastInDim S1600000x1 ![0] bcast_S1600000_S1600000x1_0 (select (cmpi .slt (shapeCast _ (extractStridedSlice S1x1600000 ![0, 0] ei slices_S2x1600000_S1x1600000_0_0) shapeCasts_S1x1600000_S1600000) (broadcastInDim S1600000 ![] bcast_S_S1600000 (constantI S_ 32 0#32))) (addi (shapeCast _ (extractStridedSlice S1x1600000 ![0, 0] ei slices_S2x1600000_S1x1600000_0_0) shapeCasts_S1x1600000_S1600000) (broadcastInDim S1600000 ![] bcast_S_S1600000 (constantI S_ 32 100000#32))) (shapeCast _ (extractStridedSlice S1x1600000 ![0, 0] ei slices_S2x1600000_S1x1600000_0_0) shapeCasts_S1x1600000_S1600000)))) (broadcastInDim S1600000x128 ![0, 1] bcast_S1600000x1_S1600000x128_0_1 (broadcastInDim S1600000x1 ![0] bcast_S1600000_S1600000x1_0 ew)))

/-- The first layer: 100 input features, 128 output features. -/
def layer100 (a x : FVec Ideal S100000x100 .f32) (wr wo : FVec Ideal S100x128 .f32) (b : FVec Ideal S128 .f32) : FVec Ideal S100000x128 .f32 :=
  maximumf (addf (addf (Host.dotGeneral dot_S100000x100_S100x128_S100000x128_1_0_0_1_n_n none a wr) (Host.dotGeneral dot_S100000x100_S100x128_S100000x128_1_0_0_1_n_n none x wo)) (broadcastInDim S100000x128 ![0, 1] bcast_S1x128_S100000x128_0_1 (broadcastInDim S1x128 ![1] bcast_S128_S1x128_1 b))) (broadcastInDim S100000x128 ![] bcast_S_S100000x128 (constant (F := Ideal) S_ .f32 0x00000000#32))

/-- A later layer: 128 input features, 128 output features. -/
def layer128 (a x : FVec Ideal S100000x128 .f32) (wr wo : FVec Ideal S128x128 .f32) (b : FVec Ideal S128 .f32) : FVec Ideal S100000x128 .f32 :=
  maximumf (addf (addf (Host.dotGeneral dot_S100000x128_S128x128_S100000x128_1_0_0_1_n_n none a wr) (Host.dotGeneral dot_S100000x128_S128x128_S100000x128_1_0_0_1_n_n none x wo)) (broadcastInDim S100000x128 ![0, 1] bcast_S1x128_S100000x128_0_1 (broadcastInDim S1x128 ![1] bcast_S128_S1x128_1 b))) (broadcastInDim S100000x128 ![] bcast_S_S100000x128 (constant (F := Ideal) S_ .f32 0x00000000#32))

/-- The logits: the three layers' outputs joined side by side, against the classifier's weights, plus its bias. -/
def logits (x1 x2 x3 : FVec Ideal S100000x128 .f32) (wl : FVec Ideal S384x47 .f32) (bl : FVec Ideal S47 .f32) : FVec Ideal S100000x47 .f32 :=
  addf (Host.dotGeneral dot_S100000x384_S384x47_S100000x47_1_0_0_1_n_n none (concatenate S100000x384 1 [⟨S100000x128, x1⟩, ⟨S100000x128, x2⟩, ⟨S100000x128, x3⟩] concatenates_S100000x128_S100000x128_S100000x128_S100000x384_d1) wl) (broadcastInDim S100000x47 ![0, 1] bcast_S1x47_S100000x47_0_1 (broadcastInDim S1x47 ![1] bcast_S47_S1x47_1 bl))

/-- The logarithmic softmax along each row. -/
def logSoftmax (l : FVec Ideal S100000x47 .f32) : FVec Ideal S100000x47 .f32 :=
  subf (subf l (broadcastInDim S100000x47 ![0, 1] bcast_S100000x1_S100000x47_0_1 (broadcastInDim S100000x1 ![0] bcast_S100000_S100000x1_0 (maximumf (broadcastInDim S100000 ![] bcast_S_S100000 (constant (F := Ideal) S_ .f32 0xFF800000#32)) (Host.reduce FloatOps.maximumf l (constant (F := Ideal) S_ .f32 0xFF800000#32) reducesTo_S100000x47_S100000_d1 h_S_))))) (broadcastInDim S100000x47 ![0, 1] bcast_S100000x1_S100000x47_0_1 (Host.log (broadcastInDim S100000x1 ![0] bcast_S100000_S100000x1_0 (Host.reduceAdd (Host.exp (subf l (broadcastInDim S100000x47 ![0, 1] bcast_S100000x1_S100000x47_0_1 (broadcastInDim S100000x1 ![0] bcast_S100000_S100000x1_0 (maximumf (broadcastInDim S100000 ![] bcast_S_S100000 (constant (F := Ideal) S_ .f32 0xFF800000#32)) (Host.reduce FloatOps.maximumf l (constant (F := Ideal) S_ .f32 0xFF800000#32) reducesTo_S100000x47_S100000_d1 h_S_)))))) (constant (F := Ideal) S_ .f32 0x00000000#32) reducesTo_S100000x47_S100000_d1 h_S_))))

/-- The whole network as the reference computes it. -/
def net (x0 : FVec Ideal S100000x100 .f32) (ei : IVec S2x1600000 32) (ew : FVec Ideal S1600000 .f32)
    (w1r w1o : FVec Ideal S128x100 .f32) (b1 : FVec Ideal S128 .f32) (w2r w2o : FVec Ideal S128x128 .f32) (b2 : FVec Ideal S128 .f32)
    (w3r w3o : FVec Ideal S128x128 .f32) (b3 : FVec Ideal S128 .f32) (wl : FVec Ideal S47x384 .f32) (bl : FVec Ideal S47 .f32) :
    FVec Ideal S100000x47 .f32 :=
  let x1 := layer100 (agg100 x0 ei ew) x0 (transpose S100x128 [1, 0] w1r transposes_S128x100_S100x128_1_0) (transpose S100x128 [1, 0] w1o transposes_S128x100_S100x128_1_0) b1
  let x2 := layer128 (agg128 x1 ei ew) x1 (transpose S128x128 [1, 0] w2r transposes_S128x128_S128x128_1_0) (transpose S128x128 [1, 0] w2o transposes_S128x128_S128x128_1_0) b2
  let x3 := layer128 (agg128 x2 ei ew) x2 (transpose S128x128 [1, 0] w3r transposes_S128x128_S128x128_1_0) (transpose S128x128 [1, 0] w3o transposes_S128x128_S128x128_1_0) b3
  logSoftmax (logits x1 x2 x3 (transpose S384x47 [1, 0] wl transposes_S47x384_S384x47_1_0) bl)

end Cert.ReferenceIdeal.HostNet

end
-- ==== Proof.RefNet.lean ====
/-
  The reference's three layers and its result as expressions of the argument arrays: each layer is the layer's
  whole-array expression of the aggregation of the previous layer's output and of that output; the result is the
  logarithmic softmax of the classifier's logits of the three layers' outputs.
-/
import proofs.«172433_j15625091023093_1_alg».proof.Proof.HostDefs

noncomputable section

namespace Cert.ReferenceIdeal.RefValue

open Cert.ReferenceIdeal Cert.ReferenceIdeal.Gen Cert.ReferenceIdeal.HostNet
open Idealize.ShloMosaic Idealize.ShloMosaic.TcCoe Idealize.SL.Sem

variable (m : (ℓ : Loc nD τ sig) → Buf (Elt Ideal) ℓ) (c : Dev nD)

/-! ## The three layers' outputs and the result, as expressions of the argument arrays -/

def x1 : FVec Ideal S100000x128 .f32 :=
  layer100 (agg100 (m ((c.tc : Thread nD τ).loc main_arg0)) (m ((c.tc : Thread nD τ).loc main_arg1)) (m ((c.tc : Thread nD τ).loc main_arg2))) (m ((c.tc : Thread nD τ).loc main_arg0))
    (transpose S100x128 [1, 0] (m ((c.tc : Thread nD τ).loc main_arg3)) transposes_S128x100_S100x128_1_0) (transpose S100x128 [1, 0] (m ((c.tc : Thread nD τ).loc main_arg4)) transposes_S128x100_S100x128_1_0) (m ((c.tc : Thread nD τ).loc main_arg5))

def x2 : FVec Ideal S100000x128 .f32 :=
  layer128 (agg128 (x1 m c) (m ((c.tc : Thread nD τ).loc main_arg1)) (m ((c.tc : Thread nD τ).loc main_arg2))) (x1 m c)
    (transpose S128x128 [1, 0] (m ((c.tc : Thread nD τ).loc main_arg6)) transposes_S128x128_S128x128_1_0) (transpose S128x128 [1, 0] (m ((c.tc : Thread nD τ).loc main_arg7)) transposes_S128x128_S128x128_1_0) (m ((c.tc : Thread nD τ).loc main_arg8))

def x3 : FVec Ideal S100000x128 .f32 :=
  layer128 (agg128 (x2 m c) (m ((c.tc : Thread nD τ).loc main_arg1)) (m ((c.tc : Thread nD τ).loc main_arg2))) (x2 m c)
    (transpose S128x128 [1, 0] (m ((c.tc : Thread nD τ).loc main_arg9)) transposes_S128x128_S128x128_1_0) (transpose S128x128 [1, 0] (m ((c.tc : Thread nD τ).loc main_arg10)) transposes_S128x128_S128x128_1_0) (m ((c.tc : Thread nD τ).loc main_arg11))

def out : FVec Ideal S100000x47 .f32 :=
  logSoftmax (logits (x1 m c) (x2 m c) (x3 m c) (transpose S384x47 [1, 0] (m ((c.tc : Thread nD τ).loc main_arg12)) transposes_S47x384_S384x47_1_0) (m ((c.tc : Thread nD τ).loc main_arg13)))

end Cert.ReferenceIdeal.RefValue

end
-- ==== Proof.LibOpenLists.lean ====
/-
  Two programs' host operations read side by side. A line of host operations turns the buffers' contents before it into
  the contents after it (the fold `after`). Opened operation by operation, the contents of one result buffer become a
  term in the contents the line started from; when two programs apply the same operations in the same order to contents
  that agree, the two terms are the same term, and an equation between a buffer of one and a buffer of the other is
  closed without unfolding any operation (a gather, a scatter, a sort stay closed). A line cut in two is read through
  the cut; a change of float format is the identity on extended reals, so a table rounded to another format is the table.
-/
import Idealize.ShloMosaic.Lib.StableHlo.Run
import Idealize.ShloMosaic.PureOps.Ideal

noncomputable section

namespace Cert.OpenLists

open Idealize.ShloMosaic Idealize.ShloMosaic.StableHlo

/-- Two lines run one after the other: the contents after the second, from the contents after the first. -/
theorem after_append {τ : Topo} {sig : RefSig} {Val : EltTy → Type} (l₁ l₂ : List (HloOp τ sig Val)) (V : Valuation τ sig Val) :
    after (l₁ ++ l₂) V = after l₂ (after l₁ V) := by
  induction l₁ generalizing V with
  | nil => rfl
  | cons op l ih => exact ih (op.result V)

/-- A table rounded to a narrower float format is the table, on extended reals. -/
theorem truncf_id {s : Shape} {φ ψ : FTy} (a : FVec Ideal s φ) (h : ψ.bits < φ.bits) : (truncf ψ a h : FVec Ideal s ψ) = a := rfl

/-- A table widened to a wider float format is the table, on extended reals. -/
theorem extf_id {s : Shape} {φ ψ : FTy} (a : FVec Ideal s φ) (h : φ.bits < ψ.bits) : (extf ψ a h : FVec Ideal s ψ) = a := rfl

/-- Opens every `after <literal list> V (Proc.devRef .tc r)` in the goal, on both sides of an equation and in every
    conjunct, down to the contents the lines started from, in one pass; hypotheses that relate the two programs' starting
    contents (`vk … = vr …`) are rewritten on the way. What is left, if anything, is an equation between the same operations
    spelt in the two programs' vocabularies: `rfl` — provided no side is applied to an index or wrapped in something `rfl`
    would have to unfold. -/
macro "open_lists" "[" hs:Lean.Parser.Tactic.simpLemma,* "]" : tactic =>
  `(tactic| (simp (disch := decide) only [after_append, after_cons, after_nil,
      nullary_result', unary_result', binary_result', ternary_result', quaternary_result', reshape_result',
      nullary_result_ne', unary_result_ne', binary_result_ne', ternary_result_ne', quaternary_result_ne', reshape_result_ne',
      cast_eq, truncf_id, extf_id, and_self, and_true, true_and, $hs,*]))

end Cert.OpenLists

end
-- ==== Proof.ReferenceValue.lean ====
/-
  The reference program's run, read stage by stage. The program is one straight line of host operations; it is cut here
  after each layer's rectifier into four lines — first layer, second layer, third layer, classifier with its logarithmic
  softmax. The contents of the buffers after the whole line are the fold through the four; after each line the layer's
  output buffer holds that layer's whole-array expression of the buffers the line started from, every earlier result is
  still where it was written, and the argument arrays are never written. So the result is the classifier's expression of
  the three layers' outputs, each layer's output the layer's expression of the previous one's.
-/
import proofs.«172433_j15625091023093_1_alg».proof.Proof.ReferenceRunP
import proofs.«172433_j15625091023093_1_alg».proof.Proof.RefNet
import proofs.«172433_j15625091023093_1_alg».proof.Proof.LibOpenLists
import Idealize.ShloMosaic.Lib.StableHlo.Run

noncomputable section

namespace Cert.ReferenceIdeal.RefValue

open Cert.ReferenceIdeal Cert.ReferenceIdeal.Gen Cert.ReferenceIdeal.ValueP Cert.ReferenceIdeal.HostNet
open Idealize.ShloMosaic Idealize.ShloMosaic.TcCoe Idealize.SL.Sem Idealize.ShloMosaic.StableHlo

/-- One pass that reads a line of host operations at a buffer: each operation's result at its own buffer is its function
    of its operands' contents, at any other buffer what was there; an operation of an inlined function carries its function
    across an equality of buffer types that is the identity. -/
local macro "read_line" : tactic =>
  `(tactic| (simp (disch := decide) only [after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne', cast_eq]))

/-! ## The program's line cut in four -/

section Lines

variable {F : FTy → Type} [FloatOps F]

/-- The first layer: the edge list's rows, the aggregation of the input features, the layer, its rectifier. -/
abbrev opsA : List (HloOp τ sig (Elt F)) :=
  [ unary main_arg1 main_v0 ((extractStridedSlice S1x1600000 ![0, 0] · slices_S2x1600000_S1x1600000_0_0) : (⟨S2x1600000, .i32⟩ : BufTy).Contents (Elt F) → (⟨S1x1600000, .i32⟩ : BufTy).Contents (Elt F)),
    reshape main_v0 main_v1 rfl shapeCasts_S1x1600000_S1600000,
    unary main_arg1 main_v2 ((extractStridedSlice S1x1600000 ![1, 0] · slices_S2x1600000_S1x1600000_1_0) : (⟨S2x1600000, .i32⟩ : BufTy).Contents (Elt F) → (⟨S1x1600000, .i32⟩ : BufTy).Contents (Elt F)),
    reshape main_v2 main_v3 rfl shapeCasts_S1x1600000_S1600000,
    nullary main_c (constantI S_ 32 0#32),
    unary main_c main_v4 (broadcastInDim S1600000 ![] bcast_S_S1600000 : (⟨S_, .i32⟩ : BufTy).Contents (Elt F) → (⟨S1600000, .i32⟩ : BufTy).Contents (Elt F)),
    binary main_v1 main_v4 main_v5 (cmpi .slt : (⟨S1600000, .i32⟩ : BufTy).Contents (Elt F) → (⟨S1600000, .i32⟩ : BufTy).Contents (Elt F) → (⟨S1600000, .i1⟩ : BufTy).Contents (Elt F)),
    nullary main_c_0 (constantI S_ 32 100000#32),
    unary main_c_0 main_v6 (broadcastInDim S1600000 ![] bcast_S_S1600000 : (⟨S_, .i32⟩ : BufTy).Contents (Elt F) → (⟨S1600000, .i32⟩ : BufTy).Contents (Elt F)),
    binary main_v1 main_v6 main_v7 (addi : (⟨S1600000, .i32⟩ : BufTy).Contents (Elt F) → (⟨S1600000, .i32⟩ : BufTy).Contents (Elt F) → (⟨S1600000, .i32⟩ : BufTy).Contents (Elt F)),
    ternary main_v5 main_v7 main_v1 main_v8 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v8 main_v9 (broadcastInDim S1600000x1 ![0] bcast_S1600000_S1600000x1_0 : (⟨S1600000, .i32⟩ : BufTy).Contents (Elt F) → (⟨S1600000x1, .i32⟩ : BufTy).Contents (Elt F)),
    binary main_arg0 main_v9 main_v10 ((fun x i => Host.gather gather_S100000x100_S1600000x1_S1600000x100_1_0_n_n_0_1_1100 x i) : (⟨S100000x100, .f32⟩ : BufTy).Contents (Elt F) → (⟨S1600000x1, .i32⟩ : BufTy).Contents (Elt F) → (⟨S1600000x100, .f32⟩ : BufTy).Contents (Elt F)),
    unary main_arg2 main_v11 (broadcastInDim S1600000x1 ![0] bcast_S1600000_S1600000x1_0 : (⟨S1600000, .f32⟩ : BufTy).Contents (Elt F) → (⟨S1600000x1, .f32⟩ : BufTy).Contents (Elt F)),
    unary main_v11 main_v12 (broadcastInDim S1600000x100 ![0, 1] bcast_S1600000x1_S1600000x100_0_1 : (⟨S1600000x1, .f32⟩ : BufTy).Contents (Elt F) → (⟨S1600000x100, .f32⟩ : BufTy).Contents (Elt F)),
    binary main_v10 main_v12 main_v13 (mulf : (⟨S1600000x100, .f32⟩ : BufTy).Contents (Elt F) → (⟨S1600000x100, .f32⟩ : BufTy).Contents (Elt F) → (⟨S1600000x100, .f32⟩ : BufTy).Contents (Elt F)),
    nullary main_cst (constant S_ .f32 0x00000000#32),
    unary main_cst main_v14 (broadcastInDim S100000x100 ![] bcast_S_S100000x100 : (⟨S_, .f32⟩ : BufTy).Contents (Elt F) → (⟨S100000x100, .f32⟩ : BufTy).Contents (Elt F)),
    unary main_v3 main_v15 (broadcastInDim S1600000x1 ![0] bcast_S1600000_S1600000x1_0 : (⟨S1600000, .i32⟩ : BufTy).Contents (Elt F) → (⟨S1600000x1, .i32⟩ : BufTy).Contents (Elt F)),
    ternary main_v14 main_v15 main_v13 main_v16 ((fun x i u => Host.scatterAdd scatter_S100000x100_S1600000x1_S1600000x100_1_0_0_1 x i u) : (⟨S100000x100, .f32⟩ : BufTy).Contents (Elt F) → (⟨S1600000x1, .i32⟩ : BufTy).Contents (Elt F) → (⟨S1600000x100, .f32⟩ : BufTy).Contents (Elt F) → (⟨S100000x100, .f32⟩ : BufTy).Contents (Elt F)),
    unary main_arg3 main_v17 ((transpose S100x128 [1, 0] · transposes_S128x100_S100x128_1_0) : (⟨S128x100, .f32⟩ : BufTy).Contents (Elt F) → (⟨S100x128, .f32⟩ : BufTy).Contents (Elt F)),
    binary main_v16 main_v17 main_v18 ((fun l r => Host.dotGeneral dot_S100000x100_S100x128_S100000x128_1_0_0_1_n_n none l r) : (⟨S100000x100, .f32⟩ : BufTy).Contents (Elt F) → (⟨S100x128, .f32⟩ : BufTy).Contents (Elt F) → (⟨S100000x128, .f32⟩ : BufTy).Contents (Elt F)),
    unary main_arg4 main_v19 ((transpose S100x128 [1, 0] · transposes_S128x100_S100x128_1_0) : (⟨S128x100, .f32⟩ : BufTy).Contents (Elt F) → (⟨S100x128, .f32⟩ : BufTy).Contents (Elt F)),
    binary main_arg0 main_v19 main_v20 ((fun l r => Host.dotGeneral dot_S100000x100_S100x128_S100000x128_1_0_0_1_n_n none l r) : (⟨S100000x100, .f32⟩ : BufTy).Contents (Elt F) → (⟨S100x128, .f32⟩ : BufTy).Contents (Elt F) → (⟨S100000x128, .f32⟩ : BufTy).Contents (Elt F)),
    binary main_v18 main_v20 main_v21 (addf : (⟨S100000x128, .f32⟩ : BufTy).Contents (Elt F) → (⟨S100000x128, .f32⟩ : BufTy).Contents (Elt F) → (⟨S100000x128, .f32⟩ : BufTy).Contents (Elt F)),
    unary main_arg5 main_v22 (broadcastInDim S1x128 ![1] bcast_S128_S1x128_1 : (⟨S128, .f32⟩ : BufTy).Contents (Elt F) → (⟨S1x128, .f32⟩ : BufTy).Contents (Elt F)),
    unary main_v22 main_v23 (broadcastInDim S100000x128 ![0, 1] bcast_S1x128_S100000x128_0_1 : (⟨S1x128, .f32⟩ : BufTy).Contents (Elt F) → (⟨S100000x128, .f32⟩ : BufTy).Contents (Elt F)),
    binary main_v21 main_v23 main_v24 (addf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S100000x128, .f32⟩) main_call0_v0) (broadcastInDim S100000x128 ![] bcast_S_S100000x128),
    TRef.binary (TRef.of (T := ⟨S100000x128, .f32⟩) main_v24) (TRef.of (T := ⟨S100000x128, .f32⟩) main_call0_v0) (TRef.of (T := ⟨S100000x128, .f32⟩) main_v25) maximumf ]

/-- The second layer, from the first layer's output. -/
abbrev opsB : List (HloOp τ sig (Elt F)) :=
  [ nullary main_c_1 (constantI S_ 32 0#32),
    unary main_c_1 main_v26 (broadcastInDim S1600000 ![] bcast_S_S1600000 : (⟨S_, .i32⟩ : BufTy).Contents (Elt F) → (⟨S1600000, .i32⟩ : BufTy).Contents (Elt F)),
    binary main_v1 main_v26 main_v27 (cmpi .slt : (⟨S1600000, .i32⟩ : BufTy).Contents (Elt F) → (⟨S1600000, .i32⟩ : BufTy).Contents (Elt F) → (⟨S1600000, .i1⟩ : BufTy).Contents (Elt F)),
    nullary main_c_2 (constantI S_ 32 100000#32),
    unary main_c_2 main_v28 (broadcastInDim S1600000 ![] bcast_S_S1600000 : (⟨S_, .i32⟩ : BufTy).Contents (Elt F) → (⟨S1600000, .i32⟩ : BufTy).Contents (Elt F)),
    binary main_v1 main_v28 main_v29 (addi : (⟨S1600000, .i32⟩ : BufTy).Contents (Elt F) → (⟨S1600000, .i32⟩ : BufTy).Contents (Elt F) → (⟨S1600000, .i32⟩ : BufTy).Contents (Elt F)),
    ternary main_v27 main_v29 main_v1 main_v30 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v30 main_v31 (broadcastInDim S1600000x1 ![0] bcast_S1600000_S1600000x1_0 : (⟨S1600000, .i32⟩ : BufTy).Contents (Elt F) → (⟨S1600000x1, .i32⟩ : BufTy).Contents (Elt F)),
    binary main_v25 main_v31 main_v32 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    unary main_arg2 main_v33 (broadcastInDim S1600000x1 ![0] bcast_S1600000_S1600000x1_0 : (⟨S1600000, .f32⟩ : BufTy).Contents (Elt F) → (⟨S1600000x1, .f32⟩ : BufTy).Contents (Elt F)),
    unary main_v33 main_v34 (broadcastInDim S1600000x128 ![0, 1] bcast_S1600000x1_S1600000x128_0_1 : (⟨S1600000x1, .f32⟩ : BufTy).Contents (Elt F) → (⟨S1600000x128, .f32⟩ : BufTy).Contents (Elt F)),
    binary main_v32 main_v34 main_v35 (mulf : (⟨S1600000x128, .f32⟩ : BufTy).Contents (Elt F) → (⟨S1600000x128, .f32⟩ : BufTy).Contents (Elt F) → (⟨S1600000x128, .f32⟩ : BufTy).Contents (Elt F)),
    nullary main_cst_3 (constant S_ .f32 0x00000000#32),
    unary main_cst_3 main_v36 (broadcastInDim S100000x128 ![] bcast_S_S100000x128 : (⟨S_, .f32⟩ : BufTy).Contents (Elt F) → (⟨S100000x128, .f32⟩ : BufTy).Contents (Elt F)),
    unary main_v3 main_v37 (broadcastInDim S1600000x1 ![0] bcast_S1600000_S1600000x1_0 : (⟨S1600000, .i32⟩ : BufTy).Contents (Elt F) → (⟨S1600000x1, .i32⟩ : BufTy).Contents (Elt F)),
    ternary main_v36 main_v37 main_v35 main_v38 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    unary main_arg6 main_v39 ((transpose S128x128 [1, 0] · transposes_S128x128_S128x128_1_0) : (⟨S128x128, .f32⟩ : BufTy).Contents (Elt F) → (⟨S128x128, .f32⟩ : BufTy).Contents (Elt F)),
    binary main_v38 main_v39 main_v40 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_arg7 main_v41 ((transpose S128x128 [1, 0] · transposes_S128x128_S128x128_1_0) : (⟨S128x128, .f32⟩ : BufTy).Contents (Elt F) → (⟨S128x128, .f32⟩ : BufTy).Contents (Elt F)),
    binary main_v25 main_v41 main_v42 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    binary main_v40 main_v42 main_v43 (addf : (⟨S100000x128, .f32⟩ : BufTy).Contents (Elt F) → (⟨S100000x128, .f32⟩ : BufTy).Contents (Elt F) → (⟨S100000x128, .f32⟩ : BufTy).Contents (Elt F)),
    unary main_arg8 main_v44 (broadcastInDim S1x128 ![1] bcast_S128_S1x128_1 : (⟨S128, .f32⟩ : BufTy).Contents (Elt F) → (⟨S1x128, .f32⟩ : BufTy).Contents (Elt F)),
    unary main_v44 main_v45 (broadcastInDim S100000x128 ![0, 1] bcast_S1x128_S100000x128_0_1 : (⟨S1x128, .f32⟩ : BufTy).Contents (Elt F) → (⟨S100000x128, .f32⟩ : BufTy).Contents (Elt F)),
    binary main_v43 main_v45 main_v46 (addf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S100000x128, .f32⟩) main_call1_v0) (broadcastInDim S100000x128 ![] bcast_S_S100000x128),
    TRef.binary (TRef.of (T := ⟨S100000x128, .f32⟩) main_v46) (TRef.of (T := ⟨S100000x128, .f32⟩) main_call1_v0) (TRef.of (T := ⟨S100000x128, .f32⟩) main_v47) maximumf ]

/-- The third layer, from the second layer's output. -/
abbrev opsC : List (HloOp τ sig (Elt F)) :=
  [ nullary main_c_4 (constantI S_ 32 0#32),
    unary main_c_4 main_v48 (broadcastInDim S1600000 ![] bcast_S_S1600000 : (⟨S_, .i32⟩ : BufTy).Contents (Elt F) → (⟨S1600000, .i32⟩ : BufTy).Contents (Elt F)),
    binary main_v1 main_v48 main_v49 (cmpi .slt : (⟨S1600000, .i32⟩ : BufTy).Contents (Elt F) → (⟨S1600000, .i32⟩ : BufTy).Contents (Elt F) → (⟨S1600000, .i1⟩ : BufTy).Contents (Elt F)),
    nullary main_c_5 (constantI S_ 32 100000#32),
    unary main_c_5 main_v50 (broadcastInDim S1600000 ![] bcast_S_S1600000 : (⟨S_, .i32⟩ : BufTy).Contents (Elt F) → (⟨S1600000, .i32⟩ : BufTy).Contents (Elt F)),
    binary main_v1 main_v50 main_v51 (addi : (⟨S1600000, .i32⟩ : BufTy).Contents (Elt F) → (⟨S1600000, .i32⟩ : BufTy).Contents (Elt F) → (⟨S1600000, .i32⟩ : BufTy).Contents (Elt F)),
    ternary main_v49 main_v51 main_v1 main_v52 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v52 main_v53 (broadcastInDim S1600000x1 ![0] bcast_S1600000_S1600000x1_0 : (⟨S1600000, .i32⟩ : BufTy).Contents (Elt F) → (⟨S1600000x1, .i32⟩ : BufTy).Contents (Elt F)),
    binary main_v47 main_v53 main_v54 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    unary main_arg2 main_v55 (broadcastInDim S1600000x1 ![0] bcast_S1600000_S1600000x1_0 : (⟨S1600000, .f32⟩ : BufTy).Contents (Elt F) → (⟨S1600000x1, .f32⟩ : BufTy).Contents (Elt F)),
    unary main_v55 main_v56 (broadcastInDim S1600000x128 ![0, 1] bcast_S1600000x1_S1600000x128_0_1 : (⟨S1600000x1, .f32⟩ : BufTy).Contents (Elt F) → (⟨S1600000x128, .f32⟩ : BufTy).Contents (Elt F)),
    binary main_v54 main_v56 main_v57 (mulf : (⟨S1600000x128, .f32⟩ : BufTy).Contents (Elt F) → (⟨S1600000x128, .f32⟩ : BufTy).Contents (Elt F) → (⟨S1600000x128, .f32⟩ : BufTy).Contents (Elt F)),
    nullary main_cst_6 (constant S_ .f32 0x00000000#32),
    unary main_cst_6 main_v58 (broadcastInDim S100000x128 ![] bcast_S_S100000x128 : (⟨S_, .f32⟩ : BufTy).Contents (Elt F) → (⟨S100000x128, .f32⟩ : BufTy).Contents (Elt F)),
    unary main_v3 main_v59 (broadcastInDim S1600000x1 ![0] bcast_S1600000_S1600000x1_0 : (⟨S1600000, .i32⟩ : BufTy).Contents (Elt F) → (⟨S1600000x1, .i32⟩ : BufTy).Contents (Elt F)),
    ternary main_v58 main_v59 main_v57 main_v60 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    unary main_arg9 main_v61 ((transpose S128x128 [1, 0] · transposes_S128x128_S128x128_1_0) : (⟨S128x128, .f32⟩ : BufTy).Contents (Elt F) → (⟨S128x128, .f32⟩ : BufTy).Contents (Elt F)),
    binary main_v60 main_v61 main_v62 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_arg10 main_v63 ((transpose S128x128 [1, 0] · transposes_S128x128_S128x128_1_0) : (⟨S128x128, .f32⟩ : BufTy).Contents (Elt F) → (⟨S128x128, .f32⟩ : BufTy).Contents (Elt F)),
    binary main_v47 main_v63 main_v64 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    binary main_v62 main_v64 main_v65 (addf : (⟨S100000x128, .f32⟩ : BufTy).Contents (Elt F) → (⟨S100000x128, .f32⟩ : BufTy).Contents (Elt F) → (⟨S100000x128, .f32⟩ : BufTy).Contents (Elt F)),
    unary main_arg11 main_v66 (broadcastInDim S1x128 ![1] bcast_S128_S1x128_1 : (⟨S128, .f32⟩ : BufTy).Contents (Elt F) → (⟨S1x128, .f32⟩ : BufTy).Contents (Elt F)),
    unary main_v66 main_v67 (broadcastInDim S100000x128 ![0, 1] bcast_S1x128_S100000x128_0_1 : (⟨S1x128, .f32⟩ : BufTy).Contents (Elt F) → (⟨S100000x128, .f32⟩ : BufTy).Contents (Elt F)),
    binary main_v65 main_v67 main_v68 (addf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S100000x128, .f32⟩) main_call2_v0) (broadcastInDim S100000x128 ![] bcast_S_S100000x128),
    TRef.binary (TRef.of (T := ⟨S100000x128, .f32⟩) main_v68) (TRef.of (T := ⟨S100000x128, .f32⟩) main_call2_v0) (TRef.of (T := ⟨S100000x128, .f32⟩) main_v69) maximumf ]

/-- The classifier and the logarithmic softmax, from the three layers' outputs. -/
abbrev opsD : List (HloOp τ sig (Elt F)) :=
  [ nary ![main_v25, main_v47, main_v69] main_v70 (fun u => concatenate S100000x384 1 [⟨S100000x128, u 0⟩, ⟨S100000x128, u 1⟩, ⟨S100000x128, u 2⟩] concatenates_S100000x128_S100000x128_S100000x128_S100000x384_d1),
    unary main_arg12 main_v71 ((transpose S384x47 [1, 0] · transposes_S47x384_S384x47_1_0) : (⟨S47x384, .f32⟩ : BufTy).Contents (Elt F) → (⟨S384x47, .f32⟩ : BufTy).Contents (Elt F)),
    binary main_v70 main_v71 main_v72 ((fun l r => Host.dotGeneral dot_S100000x384_S384x47_S100000x47_1_0_0_1_n_n none l r) : (⟨S100000x384, .f32⟩ : BufTy).Contents (Elt F) → (⟨S384x47, .f32⟩ : BufTy).Contents (Elt F) → (⟨S100000x47, .f32⟩ : BufTy).Contents (Elt F)),
    unary main_arg13 main_v73 (broadcastInDim S1x47 ![1] bcast_S47_S1x47_1 : (⟨S47, .f32⟩ : BufTy).Contents (Elt F) → (⟨S1x47, .f32⟩ : BufTy).Contents (Elt F)),
    unary main_v73 main_v74 (broadcastInDim S100000x47 ![0, 1] bcast_S1x47_S100000x47_0_1 : (⟨S1x47, .f32⟩ : BufTy).Contents (Elt F) → (⟨S100000x47, .f32⟩ : BufTy).Contents (Elt F)),
    binary main_v72 main_v74 main_v75 (addf : (⟨S100000x47, .f32⟩ : BufTy).Contents (Elt F) → (⟨S100000x47, .f32⟩ : BufTy).Contents (Elt F) → (⟨S100000x47, .f32⟩ : BufTy).Contents (Elt F)),
    TRef.nullary (TRef.of (T := ⟨S_, .f32⟩) main_call3_cst) (constant S_ .f32 0xFF800000#32),
    TRef.binary (TRef.of (T := ⟨S100000x47, .f32⟩) main_v75) (TRef.of (T := ⟨S_, .f32⟩) main_call3_cst) (TRef.of (T := ⟨S100000, .f32⟩) main_call3_v0) (fun x v => Host.reduce FloatOps.maximumf x v reducesTo_S100000x47_S100000_d1 h_S_),
    TRef.nullary (TRef.of (T := ⟨S_, .f32⟩) main_call3_cst_0) (constant S_ .f32 0xFF800000#32),
    TRef.unary (TRef.of (T := ⟨S_, .f32⟩) main_call3_cst_0) (TRef.of (T := ⟨S100000, .f32⟩) main_call3_v1) (broadcastInDim S100000 ![] bcast_S_S100000),
    TRef.binary (TRef.of (T := ⟨S100000, .f32⟩) main_call3_v1) (TRef.of (T := ⟨S100000, .f32⟩) main_call3_v0) (TRef.of (T := ⟨S100000, .f32⟩) main_call3_v2) maximumf,
    TRef.unary (TRef.of (T := ⟨S100000, .f32⟩) main_call3_v2) (TRef.of (T := ⟨S100000x1, .f32⟩) main_call3_v3) (broadcastInDim S100000x1 ![0] bcast_S100000_S100000x1_0),
    TRef.unary (TRef.of (T := ⟨S100000x1, .f32⟩) main_call3_v3) (TRef.of (T := ⟨S100000x47, .f32⟩) main_call3_v4) (broadcastInDim S100000x47 ![0, 1] bcast_S100000x1_S100000x47_0_1),
    TRef.binary (TRef.of (T := ⟨S100000x47, .f32⟩) main_v75) (TRef.of (T := ⟨S100000x47, .f32⟩) main_call3_v4) (TRef.of (T := ⟨S100000x47, .f32⟩) main_call3_v5) subf,
    TRef.unary (TRef.of (T := ⟨S100000x47, .f32⟩) main_call3_v5) (TRef.of (T := ⟨S100000x47, .f32⟩) main_call3_v6) Host.exp,
    TRef.nullary (TRef.of (T := ⟨S_, .f32⟩) main_call3_cst_1) (constant S_ .f32 0x00000000#32),
    TRef.binary (TRef.of (T := ⟨S100000x47, .f32⟩) main_call3_v6) (TRef.of (T := ⟨S_, .f32⟩) main_call3_cst_1) (TRef.of (T := ⟨S100000, .f32⟩) main_call3_v7) (fun x v => Host.reduceAdd x v reducesTo_S100000x47_S100000_d1 h_S_),
    TRef.unary (TRef.of (T := ⟨S100000, .f32⟩) main_call3_v7) (TRef.of (T := ⟨S100000x1, .f32⟩) main_call3_v8) (broadcastInDim S100000x1 ![0] bcast_S100000_S100000x1_0),
    TRef.unary (TRef.of (T := ⟨S100000x1, .f32⟩) main_call3_v8) (TRef.of (T := ⟨S100000x1, .f32⟩) main_call3_v9) Host.log,
    TRef.unary (TRef.of (T := ⟨S100000x1, .f32⟩) main_call3_v9) (TRef.of (T := ⟨S100000x47, .f32⟩) main_call3_v10) (broadcastInDim S100000x47 ![0, 1] bcast_S100000x1_S100000x47_0_1),
    TRef.binary (TRef.of (T := ⟨S100000x47, .f32⟩) main_call3_v5) (TRef.of (T := ⟨S100000x47, .f32⟩) main_call3_v10) (TRef.of (T := ⟨S100000x47, .f32⟩) main_v76) subf ]

/-- The program's line is the four, one after the other. -/
theorem ops_split : (ops : List (HloOp τ sig (Elt F))) = opsA ++ (opsB ++ (opsC ++ opsD)) := rfl

end Lines

/-- So the contents after the program are the fold through the four lines. -/
theorem after_ops (V : Valuation τ sig (Elt Ideal)) :
    after (ops : List (HloOp τ sig (Elt Ideal))) V = after opsD (after opsC (after opsB (after opsA V))) := by
  rw [ops_split (F := Ideal), Cert.OpenLists.after_append, Cert.OpenLists.after_append, Cert.OpenLists.after_append]

variable (m : (ℓ : Loc nD τ sig) → Buf (Elt Ideal) ℓ) (c : Dev nD)

/-- The buffers' contents at launch, after the first, the second and the third layer's lines. -/
def R0 : Valuation τ sig (Elt Ideal) := launchContents m c
def R1 : Valuation τ sig (Elt Ideal) := after opsA (R0 m c)
def R2 : Valuation τ sig (Elt Ideal) := after opsB (R1 m c)
def R3 : Valuation τ sig (Elt Ideal) := after opsC (R2 m c)

/-! ## After the first layer's line -/

theorem r1_x1 : R1 m c (Proc.devRef .tc main_v25) = x1 m c := by
  unfold R1 R0
  show after opsA (launchContents m c) (Proc.devRef .tc main_v25) = _
  read_line <;> rfl

theorem r1_src : R1 m c (Proc.devRef .tc main_v1) =
    shapeCast S1600000 (extractStridedSlice S1x1600000 ![0, 0] (m ((c.tc : Thread nD τ).loc main_arg1)) slices_S2x1600000_S1x1600000_0_0) shapeCasts_S1x1600000_S1600000 := by
  unfold R1 R0
  show after opsA (launchContents m c) (Proc.devRef .tc main_v1) = _
  read_line <;> rfl

theorem r1_dst : R1 m c (Proc.devRef .tc main_v3) =
    shapeCast S1600000 (extractStridedSlice S1x1600000 ![1, 0] (m ((c.tc : Thread nD τ).loc main_arg1)) slices_S2x1600000_S1x1600000_1_0) shapeCasts_S1x1600000_S1600000 := by
  unfold R1 R0
  show after opsA (launchContents m c) (Proc.devRef .tc main_v3) = _
  read_line <;> rfl

/-- The first line writes no argument array. -/
theorem r1_arg0 : R1 m c (Proc.devRef .tc main_arg0) = (m ((c.tc : Thread nD τ).loc main_arg0)) := by
  unfold R1 R0
  show after opsA (launchContents m c) (Proc.devRef .tc main_arg0) = _
  read_line <;> rfl
theorem r1_arg1 : R1 m c (Proc.devRef .tc main_arg1) = (m ((c.tc : Thread nD τ).loc main_arg1)) := by
  unfold R1 R0
  show after opsA (launchContents m c) (Proc.devRef .tc main_arg1) = _
  read_line <;> rfl
theorem r1_arg2 : R1 m c (Proc.devRef .tc main_arg2) = (m ((c.tc : Thread nD τ).loc main_arg2)) := by
  unfold R1 R0
  show after opsA (launchContents m c) (Proc.devRef .tc main_arg2) = _
  read_line <;> rfl
theorem r1_arg3 : R1 m c (Proc.devRef .tc main_arg3) = (m ((c.tc : Thread nD τ).loc main_arg3)) := by
  unfold R1 R0
  show after opsA (launchContents m c) (Proc.devRef .tc main_arg3) = _
  read_line <;> rfl
theorem r1_arg4 : R1 m c (Proc.devRef .tc main_arg4) = (m ((c.tc : Thread nD τ).loc main_arg4)) := by
  unfold R1 R0
  show after opsA (launchContents m c) (Proc.devRef .tc main_arg4) = _
  read_line <;> rfl
theorem r1_arg5 : R1 m c (Proc.devRef .tc main_arg5) = (m ((c.tc : Thread nD τ).loc main_arg5)) := by
  unfold R1 R0
  show after opsA (launchContents m c) (Proc.devRef .tc main_arg5) = _
  read_line <;> rfl
theorem r1_arg6 : R1 m c (Proc.devRef .tc main_arg6) = (m ((c.tc : Thread nD τ).loc main_arg6)) := by
  unfold R1 R0
  show after opsA (launchContents m c) (Proc.devRef .tc main_arg6) = _
  read_line <;> rfl
theorem r1_arg7 : R1 m c (Proc.devRef .tc main_arg7) = (m ((c.tc : Thread nD τ).loc main_arg7)) := by
  unfold R1 R0
  show after opsA (launchContents m c) (Proc.devRef .tc main_arg7) = _
  read_line <;> rfl
theorem r1_arg8 : R1 m c (Proc.devRef .tc main_arg8) = (m ((c.tc : Thread nD τ).loc main_arg8)) := by
  unfold R1 R0
  show after opsA (launchContents m c) (Proc.devRef .tc main_arg8) = _
  read_line <;> rfl
theorem r1_arg9 : R1 m c (Proc.devRef .tc main_arg9) = (m ((c.tc : Thread nD τ).loc main_arg9)) := by
  unfold R1 R0
  show after opsA (launchContents m c) (Proc.devRef .tc main_arg9) = _
  read_line <;> rfl
theorem r1_arg10 : R1 m c (Proc.devRef .tc main_arg10) = (m ((c.tc : Thread nD τ).loc main_arg10)) := by
  unfold R1 R0
  show after opsA (launchContents m c) (Proc.devRef .tc main_arg10) = _
  read_line <;> rfl
theorem r1_arg11 : R1 m c (Proc.devRef .tc main_arg11) = (m ((c.tc : Thread nD τ).loc main_arg11)) := by
  unfold R1 R0
  show after opsA (launchContents m c) (Proc.devRef .tc main_arg11) = _
  read_line <;> rfl
theorem r1_arg12 : R1 m c (Proc.devRef .tc main_arg12) = (m ((c.tc : Thread nD τ).loc main_arg12)) := by
  unfold R1 R0
  show after opsA (launchContents m c) (Proc.devRef .tc main_arg12) = _
  read_line <;> rfl
theorem r1_arg13 : R1 m c (Proc.devRef .tc main_arg13) = (m ((c.tc : Thread nD τ).loc main_arg13)) := by
  unfold R1 R0
  show after opsA (launchContents m c) (Proc.devRef .tc main_arg13) = _
  read_line <;> rfl

/-! ## After the second layer's line -/

theorem r2_x2 : R2 m c (Proc.devRef .tc main_v47) = x2 m c := by
  unfold R2
  show after opsB (R1 m c) (Proc.devRef .tc main_v47) = _
  read_line
  rw [r1_x1 m c, r1_src m c, r1_dst m c, r1_arg2 m c, r1_arg6 m c, r1_arg7 m c, r1_arg8 m c]
  rfl

/-- The second line leaves the first layer's output and the edge list's rows where they are. -/
theorem r2_x1 : R2 m c (Proc.devRef .tc main_v25) = x1 m c := by
  refine Eq.trans ?_ (r1_x1 m c)
  unfold R2
  show after opsB (R1 m c) (Proc.devRef .tc main_v25) = _
  read_line
theorem r2_src : R2 m c (Proc.devRef .tc main_v1) = shapeCast S1600000 (extractStridedSlice S1x1600000 ![0, 0] (m ((c.tc : Thread nD τ).loc main_arg1)) slices_S2x1600000_S1x1600000_0_0) shapeCasts_S1x1600000_S1600000 := by
  refine Eq.trans ?_ (r1_src m c)
  unfold R2
  show after opsB (R1 m c) (Proc.devRef .tc main_v1) = _
  read_line
theorem r2_dst : R2 m c (Proc.devRef .tc main_v3) = shapeCast S1600000 (extractStridedSlice S1x1600000 ![1, 0] (m ((c.tc : Thread nD τ).loc main_arg1)) slices_S2x1600000_S1x1600000_1_0) shapeCasts_S1x1600000_S1600000 := by
  refine Eq.trans ?_ (r1_dst m c)
  unfold R2
  show after opsB (R1 m c) (Proc.devRef .tc main_v3) = _
  read_line
theorem r2_arg0 : R2 m c (Proc.devRef .tc main_arg0) = (m ((c.tc : Thread nD τ).loc main_arg0)) := by
  refine Eq.trans ?_ (r1_arg0 m c)
  unfold R2
  show after opsB (R1 m c) (Proc.devRef .tc main_arg0) = _
  read_line
theorem r2_arg1 : R2 m c (Proc.devRef .tc main_arg1) = (m ((c.tc : Thread nD τ).loc main_arg1)) := by
  refine Eq.trans ?_ (r1_arg1 m c)
  unfold R2
  show after opsB (R1 m c) (Proc.devRef .tc main_arg1) = _
  read_line
theorem r2_arg2 : R2 m c (Proc.devRef .tc main_arg2) = (m ((c.tc : Thread nD τ).loc main_arg2)) := by
  refine Eq.trans ?_ (r1_arg2 m c)
  unfold R2
  show after opsB (R1 m c) (Proc.devRef .tc main_arg2) = _
  read_line
theorem r2_arg3 : R2 m c (Proc.devRef .tc main_arg3) = (m ((c.tc : Thread nD τ).loc main_arg3)) := by
  refine Eq.trans ?_ (r1_arg3 m c)
  unfold R2
  show after opsB (R1 m c) (Proc.devRef .tc main_arg3) = _
  read_line
theorem r2_arg4 : R2 m c (Proc.devRef .tc main_arg4) = (m ((c.tc : Thread nD τ).loc main_arg4)) := by
  refine Eq.trans ?_ (r1_arg4 m c)
  unfold R2
  show after opsB (R1 m c) (Proc.devRef .tc main_arg4) = _
  read_line
theorem r2_arg5 : R2 m c (Proc.devRef .tc main_arg5) = (m ((c.tc : Thread nD τ).loc main_arg5)) := by
  refine Eq.trans ?_ (r1_arg5 m c)
  unfold R2
  show after opsB (R1 m c) (Proc.devRef .tc main_arg5) = _
  read_line
theorem r2_arg6 : R2 m c (Proc.devRef .tc main_arg6) = (m ((c.tc : Thread nD τ).loc main_arg6)) := by
  refine Eq.trans ?_ (r1_arg6 m c)
  unfold R2
  show after opsB (R1 m c) (Proc.devRef .tc main_arg6) = _
  read_line
theorem r2_arg7 : R2 m c (Proc.devRef .tc main_arg7) = (m ((c.tc : Thread nD τ).loc main_arg7)) := by
  refine Eq.trans ?_ (r1_arg7 m c)
  unfold R2
  show after opsB (R1 m c) (Proc.devRef .tc main_arg7) = _
  read_line
theorem r2_arg8 : R2 m c (Proc.devRef .tc main_arg8) = (m ((c.tc : Thread nD τ).loc main_arg8)) := by
  refine Eq.trans ?_ (r1_arg8 m c)
  unfold R2
  show after opsB (R1 m c) (Proc.devRef .tc main_arg8) = _
  read_line
theorem r2_arg9 : R2 m c (Proc.devRef .tc main_arg9) = (m ((c.tc : Thread nD τ).loc main_arg9)) := by
  refine Eq.trans ?_ (r1_arg9 m c)
  unfold R2
  show after opsB (R1 m c) (Proc.devRef .tc main_arg9) = _
  read_line
theorem r2_arg10 : R2 m c (Proc.devRef .tc main_arg10) = (m ((c.tc : Thread nD τ).loc main_arg10)) := by
  refine Eq.trans ?_ (r1_arg10 m c)
  unfold R2
  show after opsB (R1 m c) (Proc.devRef .tc main_arg10) = _
  read_line
theorem r2_arg11 : R2 m c (Proc.devRef .tc main_arg11) = (m ((c.tc : Thread nD τ).loc main_arg11)) := by
  refine Eq.trans ?_ (r1_arg11 m c)
  unfold R2
  show after opsB (R1 m c) (Proc.devRef .tc main_arg11) = _
  read_line
theorem r2_arg12 : R2 m c (Proc.devRef .tc main_arg12) = (m ((c.tc : Thread nD τ).loc main_arg12)) := by
  refine Eq.trans ?_ (r1_arg12 m c)
  unfold R2
  show after opsB (R1 m c) (Proc.devRef .tc main_arg12) = _
  read_line
theorem r2_arg13 : R2 m c (Proc.devRef .tc main_arg13) = (m ((c.tc : Thread nD τ).loc main_arg13)) := by
  refine Eq.trans ?_ (r1_arg13 m c)
  unfold R2
  show after opsB (R1 m c) (Proc.devRef .tc main_arg13) = _
  read_line

/-! ## After the third layer's line -/

theorem r3_x3 : R3 m c (Proc.devRef .tc main_v69) = x3 m c := by
  unfold R3
  show after opsC (R2 m c) (Proc.devRef .tc main_v69) = _
  read_line
  rw [r2_x2 m c, r2_src m c, r2_dst m c, r2_arg2 m c, r2_arg9 m c, r2_arg10 m c, r2_arg11 m c]
  rfl

theorem r3_x1 : R3 m c (Proc.devRef .tc main_v25) = x1 m c := by
  refine Eq.trans ?_ (r2_x1 m c)
  unfold R3
  show after opsC (R2 m c) (Proc.devRef .tc main_v25) = _
  read_line
theorem r3_x2 : R3 m c (Proc.devRef .tc main_v47) = x2 m c := by
  refine Eq.trans ?_ (r2_x2 m c)
  unfold R3
  show after opsC (R2 m c) (Proc.devRef .tc main_v47) = _
  read_line
theorem r3_arg0 : R3 m c (Proc.devRef .tc main_arg0) = (m ((c.tc : Thread nD τ).loc main_arg0)) := by
  refine Eq.trans ?_ (r2_arg0 m c)
  unfold R3
  show after opsC (R2 m c) (Proc.devRef .tc main_arg0) = _
  read_line
theorem r3_arg1 : R3 m c (Proc.devRef .tc main_arg1) = (m ((c.tc : Thread nD τ).loc main_arg1)) := by
  refine Eq.trans ?_ (r2_arg1 m c)
  unfold R3
  show after opsC (R2 m c) (Proc.devRef .tc main_arg1) = _
  read_line
theorem r3_arg2 : R3 m c (Proc.devRef .tc main_arg2) = (m ((c.tc : Thread nD τ).loc main_arg2)) := by
  refine Eq.trans ?_ (r2_arg2 m c)
  unfold R3
  show after opsC (R2 m c) (Proc.devRef .tc main_arg2) = _
  read_line
theorem r3_arg3 : R3 m c (Proc.devRef .tc main_arg3) = (m ((c.tc : Thread nD τ).loc main_arg3)) := by
  refine Eq.trans ?_ (r2_arg3 m c)
  unfold R3
  show after opsC (R2 m c) (Proc.devRef .tc main_arg3) = _
  read_line
theorem r3_arg4 : R3 m c (Proc.devRef .tc main_arg4) = (m ((c.tc : Thread nD τ).loc main_arg4)) := by
  refine Eq.trans ?_ (r2_arg4 m c)
  unfold R3
  show after opsC (R2 m c) (Proc.devRef .tc main_arg4) = _
  read_line
theorem r3_arg5 : R3 m c (Proc.devRef .tc main_arg5) = (m ((c.tc : Thread nD τ).loc main_arg5)) := by
  refine Eq.trans ?_ (r2_arg5 m c)
  unfold R3
  show after opsC (R2 m c) (Proc.devRef .tc main_arg5) = _
  read_line
theorem r3_arg6 : R3 m c (Proc.devRef .tc main_arg6) = (m ((c.tc : Thread nD τ).loc main_arg6)) := by
  refine Eq.trans ?_ (r2_arg6 m c)
  unfold R3
  show after opsC (R2 m c) (Proc.devRef .tc main_arg6) = _
  read_line
theorem r3_arg7 : R3 m c (Proc.devRef .tc main_arg7) = (m ((c.tc : Thread nD τ).loc main_arg7)) := by
  refine Eq.trans ?_ (r2_arg7 m c)
  unfold R3
  show after opsC (R2 m c) (Proc.devRef .tc main_arg7) = _
  read_line
theorem r3_arg8 : R3 m c (Proc.devRef .tc main_arg8) = (m ((c.tc : Thread nD τ).loc main_arg8)) := by
  refine Eq.trans ?_ (r2_arg8 m c)
  unfold R3
  show after opsC (R2 m c) (Proc.devRef .tc main_arg8) = _
  read_line
theorem r3_arg9 : R3 m c (Proc.devRef .tc main_arg9) = (m ((c.tc : Thread nD τ).loc main_arg9)) := by
  refine Eq.trans ?_ (r2_arg9 m c)
  unfold R3
  show after opsC (R2 m c) (Proc.devRef .tc main_arg9) = _
  read_line
theorem r3_arg10 : R3 m c (Proc.devRef .tc main_arg10) = (m ((c.tc : Thread nD τ).loc main_arg10)) := by
  refine Eq.trans ?_ (r2_arg10 m c)
  unfold R3
  show after opsC (R2 m c) (Proc.devRef .tc main_arg10) = _
  read_line
theorem r3_arg11 : R3 m c (Proc.devRef .tc main_arg11) = (m ((c.tc : Thread nD τ).loc main_arg11)) := by
  refine Eq.trans ?_ (r2_arg11 m c)
  unfold R3
  show after opsC (R2 m c) (Proc.devRef .tc main_arg11) = _
  read_line
theorem r3_arg12 : R3 m c (Proc.devRef .tc main_arg12) = (m ((c.tc : Thread nD τ).loc main_arg12)) := by
  refine Eq.trans ?_ (r2_arg12 m c)
  unfold R3
  show after opsC (R2 m c) (Proc.devRef .tc main_arg12) = _
  read_line
theorem r3_arg13 : R3 m c (Proc.devRef .tc main_arg13) = (m ((c.tc : Thread nD τ).loc main_arg13)) := by
  refine Eq.trans ?_ (r2_arg13 m c)
  unfold R3
  show after opsC (R2 m c) (Proc.devRef .tc main_arg13) = _
  read_line

/-! ## After the whole program -/

/-- The result buffer holds the classifier's expression of the three layers' outputs. -/
theorem res_out : after (ops : List (HloOp τ sig (Elt Ideal))) (launchContents m c) (Proc.devRef .tc main_v76) = out m c := by
  rw [after_ops]
  show after opsD (R3 m c) (Proc.devRef .tc main_v76) = _
  read_line
  have e1 : R3 m c (Proc.devRef .tc (![main_v25, main_v47, main_v69] 0)) = x1 m c := r3_x1 m c
  have e2 : R3 m c (Proc.devRef .tc (![main_v25, main_v47, main_v69] 1)) = x2 m c := r3_x2 m c
  have e3 : R3 m c (Proc.devRef .tc (![main_v25, main_v47, main_v69] 2)) = x3 m c := r3_x3 m c
  rw [e1, e2, e3, r3_arg12 m c, r3_arg13 m c]
  rfl

/-- No line writes an argument array. -/
theorem kept0 : after (ops : List (HloOp τ sig (Elt Ideal))) (launchContents m c) (Proc.devRef .tc main_arg0) = (m ((c.tc : Thread nD τ).loc main_arg0)) := by
  rw [after_ops]
  refine Eq.trans ?_ (r3_arg0 m c)
  show after opsD (R3 m c) (Proc.devRef .tc main_arg0) = _
  read_line
theorem kept1 : after (ops : List (HloOp τ sig (Elt Ideal))) (launchContents m c) (Proc.devRef .tc main_arg1) = (m ((c.tc : Thread nD τ).loc main_arg1)) := by
  rw [after_ops]
  refine Eq.trans ?_ (r3_arg1 m c)
  show after opsD (R3 m c) (Proc.devRef .tc main_arg1) = _
  read_line
theorem kept2 : after (ops : List (HloOp τ sig (Elt Ideal))) (launchContents m c) (Proc.devRef .tc main_arg2) = (m ((c.tc : Thread nD τ).loc main_arg2)) := by
  rw [after_ops]
  refine Eq.trans ?_ (r3_arg2 m c)
  show after opsD (R3 m c) (Proc.devRef .tc main_arg2) = _
  read_line
theorem kept3 : after (ops : List (HloOp τ sig (Elt Ideal))) (launchContents m c) (Proc.devRef .tc main_arg3) = (m ((c.tc : Thread nD τ).loc main_arg3)) := by
  rw [after_ops]
  refine Eq.trans ?_ (r3_arg3 m c)
  show after opsD (R3 m c) (Proc.devRef .tc main_arg3) = _
  read_line
theorem kept4 : after (ops : List (HloOp τ sig (Elt Ideal))) (launchContents m c) (Proc.devRef .tc main_arg4) = (m ((c.tc : Thread nD τ).loc main_arg4)) := by
  rw [after_ops]
  refine Eq.trans ?_ (r3_arg4 m c)
  show after opsD (R3 m c) (Proc.devRef .tc main_arg4) = _
  read_line
theorem kept5 : after (ops : List (HloOp τ sig (Elt Ideal))) (launchContents m c) (Proc.devRef .tc main_arg5) = (m ((c.tc : Thread nD τ).loc main_arg5)) := by
  rw [after_ops]
  refine Eq.trans ?_ (r3_arg5 m c)
  show after opsD (R3 m c) (Proc.devRef .tc main_arg5) = _
  read_line
theorem kept6 : after (ops : List (HloOp τ sig (Elt Ideal))) (launchContents m c) (Proc.devRef .tc main_arg6) = (m ((c.tc : Thread nD τ).loc main_arg6)) := by
  rw [after_ops]
  refine Eq.trans ?_ (r3_arg6 m c)
  show after opsD (R3 m c) (Proc.devRef .tc main_arg6) = _
  read_line
theorem kept7 : after (ops : List (HloOp τ sig (Elt Ideal))) (launchContents m c) (Proc.devRef .tc main_arg7) = (m ((c.tc : Thread nD τ).loc main_arg7)) := by
  rw [after_ops]
  refine Eq.trans ?_ (r3_arg7 m c)
  show after opsD (R3 m c) (Proc.devRef .tc main_arg7) = _
  read_line
theorem kept8 : after (ops : List (HloOp τ sig (Elt Ideal))) (launchContents m c) (Proc.devRef .tc main_arg8) = (m ((c.tc : Thread nD τ).loc main_arg8)) := by
  rw [after_ops]
  refine Eq.trans ?_ (r3_arg8 m c)
  show after opsD (R3 m c) (Proc.devRef .tc main_arg8) = _
  read_line
theorem kept9 : after (ops : List (HloOp τ sig (Elt Ideal))) (launchContents m c) (Proc.devRef .tc main_arg9) = (m ((c.tc : Thread nD τ).loc main_arg9)) := by
  rw [after_ops]
  refine Eq.trans ?_ (r3_arg9 m c)
  show after opsD (R3 m c) (Proc.devRef .tc main_arg9) = _
  read_line
theorem kept10 : after (ops : List (HloOp τ sig (Elt Ideal))) (launchContents m c) (Proc.devRef .tc main_arg10) = (m ((c.tc : Thread nD τ).loc main_arg10)) := by
  rw [after_ops]
  refine Eq.trans ?_ (r3_arg10 m c)
  show after opsD (R3 m c) (Proc.devRef .tc main_arg10) = _
  read_line
theorem kept11 : after (ops : List (HloOp τ sig (Elt Ideal))) (launchContents m c) (Proc.devRef .tc main_arg11) = (m ((c.tc : Thread nD τ).loc main_arg11)) := by
  rw [after_ops]
  refine Eq.trans ?_ (r3_arg11 m c)
  show after opsD (R3 m c) (Proc.devRef .tc main_arg11) = _
  read_line
theorem kept12 : after (ops : List (HloOp τ sig (Elt Ideal))) (launchContents m c) (Proc.devRef .tc main_arg12) = (m ((c.tc : Thread nD τ).loc main_arg12)) := by
  rw [after_ops]
  refine Eq.trans ?_ (r3_arg12 m c)
  show after opsD (R3 m c) (Proc.devRef .tc main_arg12) = _
  read_line
theorem kept13 : after (ops : List (HloOp τ sig (Elt Ideal))) (launchContents m c) (Proc.devRef .tc main_arg13) = (m ((c.tc : Thread nD τ).loc main_arg13)) := by
  rw [after_ops]
  refine Eq.trans ?_ (r3_arg13 m c)
  show after opsD (R3 m c) (Proc.devRef .tc main_arg13) = _
  read_line

/-- On every device, from any memory with zero counters: every weakly fair execution of the reference program terminates
    with its result at that expression of the argument arrays, and the argument arrays unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v76) = out m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13) :=
  (θ_run defs _ _).mono (fun _ h c => ⟨(h c main_v76).trans (res_out m c),
      (h c main_arg0).trans (kept0 m c),
      (h c main_arg1).trans (kept1 m c),
      (h c main_arg2).trans (kept2 m c),
      (h c main_arg3).trans (kept3 m c),
      (h c main_arg4).trans (kept4 m c),
      (h c main_arg5).trans (kept5 m c),
      (h c main_arg6).trans (kept6 m c),
      (h c main_arg7).trans (kept7 m c),
      (h c main_arg8).trans (kept8 m c),
      (h c main_arg9).trans (kept9 m c),
      (h c main_arg10).trans (kept10 m c),
      (h c main_arg11).trans (kept11 m c),
      (h c main_arg12).trans (kept12 m c),
      (h c main_arg13).trans (kept13 m c)⟩)
    (run_seq scopedRefs_eq scopedSems_eq defs main (fun _ => ops) main_eq (fun _ => ops_sub) m ρ)

end Cert.ReferenceIdeal.RefValue

end
-- ==== Proof.Fold.lean ====
/-
  What each pipelined region of the idealized kernel program finds in its windows' arrays, read back to the launch
  memory. The buffers' contents at a boundary are a fold through the segments before it: a stretch of host operations
  writes its results and leaves every other buffer alone, a region writes its output array and leaves every other buffer
  alone. So the edge list's two rows, the edge weights and the transposed weights and biases computed once by the first
  stretch are still there when a later region reads them; each layer's output stays where its region wrote it; and the
  aggregation each region finds in its first window is the same line of host operations the reference applies — gather the
  source rows, scale by the edge weights, add up at the destination rows — applied to the previous layer's output.
-/
import proofs.«172433_j15625091023093_1_alg».proof.Proof.KernelIdealFrameP
import proofs.«172433_j15625091023093_1_alg».proof.Proof.HostDefs
import Idealize.ShloMosaic.Lib.StableHlo.Run

noncomputable section

namespace Cert.KernelIdeal.Fold

open Cert.KernelIdeal Cert.KernelIdeal.Gen Cert.KernelIdeal.GenP
open Idealize.ShloMosaic Idealize.ShloMosaic.TcCoe Idealize.ShloMosaic.StableHlo Idealize.SL.Sem
open Idealize.ShloMosaic.Pipeline (Dat Cfg Window)

variable (m : (ℓ : Loc nD τ sig) → Buf (Elt Ideal) ℓ) (ρ : Dev nD → PrngReg) (c : Dev nD)

/-! ## What the first stretch of host operations leaves -/

/-- The first region finds the aggregation of the input features over the edge list in its first window's array. -/
theorem e1_agg : V1 m ρ c main_v27 = Cert.ReferenceIdeal.HostNet.agg100 (m ((c : Thread nD τ).loc main_arg0)) (m ((c : Thread nD τ).loc main_arg1)) (m ((c : Thread nD τ).loc main_arg2)) := by
  show StableHlo.after hostOps0 (W0 m ρ c) (Proc.devRef .tc main_v27) = _
  after_results_simp <;> rfl

/-- … the input features themselves in its second, -/
theorem e1_x : V1 m ρ c main_arg0 = (m ((c : Thread nD τ).loc main_arg0)) := by
  show StableHlo.after hostOps0 (W0 m ρ c) (Proc.devRef .tc main_arg0) = _
  after_results_simp <;> rfl

/-- … the first layer's two weight matrices transposed, -/
theorem e1_wr : V1 m ρ c main_v4 = transpose S100x128 [1, 0] (m ((c : Thread nD τ).loc main_arg3)) transposes_S128x100_S100x128_1_0 := by
  show StableHlo.after hostOps0 (W0 m ρ c) (Proc.devRef .tc main_v4) = _
  after_results_simp <;> rfl

theorem e1_wo : V1 m ρ c main_v5 = transpose S100x128 [1, 0] (m ((c : Thread nD τ).loc main_arg4)) transposes_S128x100_S100x128_1_0 := by
  show StableHlo.after hostOps0 (W0 m ρ c) (Proc.devRef .tc main_v5) = _
  after_results_simp <;> rfl

/-- … and the first layer's bias as one row. -/
theorem e1_b : V1 m ρ c main_v6 = shapeCast S1x128 (m ((c : Thread nD τ).loc main_arg5)) shapeCasts_S128_S1x128 := by
  show StableHlo.after hostOps0 (W0 m ρ c) (Proc.devRef .tc main_v6) = _
  after_results_simp <;> rfl

/-! ## Buffers the first stretch writes and nothing changes before they are read

Each is read again at a later boundary: neither a stretch nor a region in between writes it, so the fold walks back to the
first stretch. -/

/-- After the first stretch: the source row of the edge list, as a vector. -/
theorem w1_v1 : W1 m ρ c (Proc.devRef .tc main_v1) = shapeCast S1600000 (extractStridedSlice S1x1600000 ![0, 0] (m ((c : Thread nD τ).loc main_arg1)) slices_S2x1600000_S1x1600000_0_0) shapeCasts_S1x1600000_S1600000 := by
  show StableHlo.after hostOps0 (W0 m ρ c) (Proc.devRef .tc main_v1) = _
  after_results_simp <;> rfl
theorem w2_v1 : W2 m ρ c (Proc.devRef .tc main_v1) = shapeCast S1600000 (extractStridedSlice S1x1600000 ![0, 0] (m ((c : Thread nD τ).loc main_arg1)) slices_S2x1600000_S1x1600000_0_0) shapeCasts_S1x1600000_S1600000 :=
  (W2_of_ne m ρ c main_v1 (by decide)).trans (w1_v1 m ρ c)
theorem w3_v1 : W3 m ρ c (Proc.devRef .tc main_v1) = shapeCast S1600000 (extractStridedSlice S1x1600000 ![0, 0] (m ((c : Thread nD τ).loc main_arg1)) slices_S2x1600000_S1x1600000_0_0) shapeCasts_S1x1600000_S1600000 := by
  refine Eq.trans ?_ (w2_v1 m ρ c)
  show StableHlo.after hostOps1 (W2 m ρ c) (Proc.devRef .tc main_v1) = _
  after_results_simp
theorem w4_v1 : W4 m ρ c (Proc.devRef .tc main_v1) = shapeCast S1600000 (extractStridedSlice S1x1600000 ![0, 0] (m ((c : Thread nD τ).loc main_arg1)) slices_S2x1600000_S1x1600000_0_0) shapeCasts_S1x1600000_S1600000 :=
  (W4_of_ne m ρ c main_v1 (by decide)).trans (w3_v1 m ρ c)

/-- After the first stretch: the destination row of the edge list, as a vector. -/
theorem w1_v3 : W1 m ρ c (Proc.devRef .tc main_v3) = shapeCast S1600000 (extractStridedSlice S1x1600000 ![1, 0] (m ((c : Thread nD τ).loc main_arg1)) slices_S2x1600000_S1x1600000_1_0) shapeCasts_S1x1600000_S1600000 := by
  show StableHlo.after hostOps0 (W0 m ρ c) (Proc.devRef .tc main_v3) = _
  after_results_simp <;> rfl
theorem w2_v3 : W2 m ρ c (Proc.devRef .tc main_v3) = shapeCast S1600000 (extractStridedSlice S1x1600000 ![1, 0] (m ((c : Thread nD τ).loc main_arg1)) slices_S2x1600000_S1x1600000_1_0) shapeCasts_S1x1600000_S1600000 :=
  (W2_of_ne m ρ c main_v3 (by decide)).trans (w1_v3 m ρ c)
theorem w3_v3 : W3 m ρ c (Proc.devRef .tc main_v3) = shapeCast S1600000 (extractStridedSlice S1x1600000 ![1, 0] (m ((c : Thread nD τ).loc main_arg1)) slices_S2x1600000_S1x1600000_1_0) shapeCasts_S1x1600000_S1600000 := by
  refine Eq.trans ?_ (w2_v3 m ρ c)
  show StableHlo.after hostOps1 (W2 m ρ c) (Proc.devRef .tc main_v3) = _
  after_results_simp
theorem w4_v3 : W4 m ρ c (Proc.devRef .tc main_v3) = shapeCast S1600000 (extractStridedSlice S1x1600000 ![1, 0] (m ((c : Thread nD τ).loc main_arg1)) slices_S2x1600000_S1x1600000_1_0) shapeCasts_S1x1600000_S1600000 :=
  (W4_of_ne m ρ c main_v3 (by decide)).trans (w3_v3 m ρ c)

/-- After the first stretch: the edge weights. -/
theorem w1_ew : W1 m ρ c (Proc.devRef .tc main_arg2) = (m ((c : Thread nD τ).loc main_arg2)) := by
  show StableHlo.after hostOps0 (W0 m ρ c) (Proc.devRef .tc main_arg2) = _
  after_results_simp <;> rfl
theorem w2_ew : W2 m ρ c (Proc.devRef .tc main_arg2) = (m ((c : Thread nD τ).loc main_arg2)) :=
  (W2_of_ne m ρ c main_arg2 (by decide)).trans (w1_ew m ρ c)
theorem w3_ew : W3 m ρ c (Proc.devRef .tc main_arg2) = (m ((c : Thread nD τ).loc main_arg2)) := by
  refine Eq.trans ?_ (w2_ew m ρ c)
  show StableHlo.after hostOps1 (W2 m ρ c) (Proc.devRef .tc main_arg2) = _
  after_results_simp
theorem w4_ew : W4 m ρ c (Proc.devRef .tc main_arg2) = (m ((c : Thread nD τ).loc main_arg2)) :=
  (W4_of_ne m ρ c main_arg2 (by decide)).trans (w3_ew m ρ c)

/-- After the first stretch: the second layer's neighbour weights, transposed. -/
theorem w1_w2r : W1 m ρ c (Proc.devRef .tc main_v7) = transpose S128x128 [1, 0] (m ((c : Thread nD τ).loc main_arg6)) transposes_S128x128_S128x128_1_0 := by
  show StableHlo.after hostOps0 (W0 m ρ c) (Proc.devRef .tc main_v7) = _
  after_results_simp <;> rfl
theorem w2_w2r : W2 m ρ c (Proc.devRef .tc main_v7) = transpose S128x128 [1, 0] (m ((c : Thread nD τ).loc main_arg6)) transposes_S128x128_S128x128_1_0 :=
  (W2_of_ne m ρ c main_v7 (by decide)).trans (w1_w2r m ρ c)
theorem w3_w2r : W3 m ρ c (Proc.devRef .tc main_v7) = transpose S128x128 [1, 0] (m ((c : Thread nD τ).loc main_arg6)) transposes_S128x128_S128x128_1_0 := by
  refine Eq.trans ?_ (w2_w2r m ρ c)
  show StableHlo.after hostOps1 (W2 m ρ c) (Proc.devRef .tc main_v7) = _
  after_results_simp

/-- After the first stretch: the second layer's own-row weights, transposed. -/
theorem w1_w2o : W1 m ρ c (Proc.devRef .tc main_v8) = transpose S128x128 [1, 0] (m ((c : Thread nD τ).loc main_arg7)) transposes_S128x128_S128x128_1_0 := by
  show StableHlo.after hostOps0 (W0 m ρ c) (Proc.devRef .tc main_v8) = _
  after_results_simp <;> rfl
theorem w2_w2o : W2 m ρ c (Proc.devRef .tc main_v8) = transpose S128x128 [1, 0] (m ((c : Thread nD τ).loc main_arg7)) transposes_S128x128_S128x128_1_0 :=
  (W2_of_ne m ρ c main_v8 (by decide)).trans (w1_w2o m ρ c)
theorem w3_w2o : W3 m ρ c (Proc.devRef .tc main_v8) = transpose S128x128 [1, 0] (m ((c : Thread nD τ).loc main_arg7)) transposes_S128x128_S128x128_1_0 := by
  refine Eq.trans ?_ (w2_w2o m ρ c)
  show StableHlo.after hostOps1 (W2 m ρ c) (Proc.devRef .tc main_v8) = _
  after_results_simp

/-- After the first stretch: the second layer's bias as one row. -/
theorem w1_b2 : W1 m ρ c (Proc.devRef .tc main_v9) = shapeCast S1x128 (m ((c : Thread nD τ).loc main_arg8)) shapeCasts_S128_S1x128 := by
  show StableHlo.after hostOps0 (W0 m ρ c) (Proc.devRef .tc main_v9) = _
  after_results_simp <;> rfl
theorem w2_b2 : W2 m ρ c (Proc.devRef .tc main_v9) = shapeCast S1x128 (m ((c : Thread nD τ).loc main_arg8)) shapeCasts_S128_S1x128 :=
  (W2_of_ne m ρ c main_v9 (by decide)).trans (w1_b2 m ρ c)
theorem w3_b2 : W3 m ρ c (Proc.devRef .tc main_v9) = shapeCast S1x128 (m ((c : Thread nD τ).loc main_arg8)) shapeCasts_S128_S1x128 := by
  refine Eq.trans ?_ (w2_b2 m ρ c)
  show StableHlo.after hostOps1 (W2 m ρ c) (Proc.devRef .tc main_v9) = _
  after_results_simp

/-- After the first stretch: the third layer's neighbour weights, transposed. -/
theorem w1_w3r : W1 m ρ c (Proc.devRef .tc main_v10) = transpose S128x128 [1, 0] (m ((c : Thread nD τ).loc main_arg9)) transposes_S128x128_S128x128_1_0 := by
  show StableHlo.after hostOps0 (W0 m ρ c) (Proc.devRef .tc main_v10) = _
  after_results_simp <;> rfl
theorem w2_w3r : W2 m ρ c (Proc.devRef .tc main_v10) = transpose S128x128 [1, 0] (m ((c : Thread nD τ).loc main_arg9)) transposes_S128x128_S128x128_1_0 :=
  (W2_of_ne m ρ c main_v10 (by decide)).trans (w1_w3r m ρ c)
theorem w3_w3r : W3 m ρ c (Proc.devRef .tc main_v10) = transpose S128x128 [1, 0] (m ((c : Thread nD τ).loc main_arg9)) transposes_S128x128_S128x128_1_0 := by
  refine Eq.trans ?_ (w2_w3r m ρ c)
  show StableHlo.after hostOps1 (W2 m ρ c) (Proc.devRef .tc main_v10) = _
  after_results_simp
theorem w4_w3r : W4 m ρ c (Proc.devRef .tc main_v10) = transpose S128x128 [1, 0] (m ((c : Thread nD τ).loc main_arg9)) transposes_S128x128_S128x128_1_0 :=
  (W4_of_ne m ρ c main_v10 (by decide)).trans (w3_w3r m ρ c)
theorem w5_w3r : W5 m ρ c (Proc.devRef .tc main_v10) = transpose S128x128 [1, 0] (m ((c : Thread nD τ).loc main_arg9)) transposes_S128x128_S128x128_1_0 := by
  refine Eq.trans ?_ (w4_w3r m ρ c)
  show StableHlo.after hostOps2 (W4 m ρ c) (Proc.devRef .tc main_v10) = _
  after_results_simp

/-- After the first stretch: the third layer's own-row weights, transposed. -/
theorem w1_w3o : W1 m ρ c (Proc.devRef .tc main_v11) = transpose S128x128 [1, 0] (m ((c : Thread nD τ).loc main_arg10)) transposes_S128x128_S128x128_1_0 := by
  show StableHlo.after hostOps0 (W0 m ρ c) (Proc.devRef .tc main_v11) = _
  after_results_simp <;> rfl
theorem w2_w3o : W2 m ρ c (Proc.devRef .tc main_v11) = transpose S128x128 [1, 0] (m ((c : Thread nD τ).loc main_arg10)) transposes_S128x128_S128x128_1_0 :=
  (W2_of_ne m ρ c main_v11 (by decide)).trans (w1_w3o m ρ c)
theorem w3_w3o : W3 m ρ c (Proc.devRef .tc main_v11) = transpose S128x128 [1, 0] (m ((c : Thread nD τ).loc main_arg10)) transposes_S128x128_S128x128_1_0 := by
  refine Eq.trans ?_ (w2_w3o m ρ c)
  show StableHlo.after hostOps1 (W2 m ρ c) (Proc.devRef .tc main_v11) = _
  after_results_simp
theorem w4_w3o : W4 m ρ c (Proc.devRef .tc main_v11) = transpose S128x128 [1, 0] (m ((c : Thread nD τ).loc main_arg10)) transposes_S128x128_S128x128_1_0 :=
  (W4_of_ne m ρ c main_v11 (by decide)).trans (w3_w3o m ρ c)
theorem w5_w3o : W5 m ρ c (Proc.devRef .tc main_v11) = transpose S128x128 [1, 0] (m ((c : Thread nD τ).loc main_arg10)) transposes_S128x128_S128x128_1_0 := by
  refine Eq.trans ?_ (w4_w3o m ρ c)
  show StableHlo.after hostOps2 (W4 m ρ c) (Proc.devRef .tc main_v11) = _
  after_results_simp

/-- After the first stretch: the third layer's bias as one row. -/
theorem w1_b3 : W1 m ρ c (Proc.devRef .tc main_v12) = shapeCast S1x128 (m ((c : Thread nD τ).loc main_arg11)) shapeCasts_S128_S1x128 := by
  show StableHlo.after hostOps0 (W0 m ρ c) (Proc.devRef .tc main_v12) = _
  after_results_simp <;> rfl
theorem w2_b3 : W2 m ρ c (Proc.devRef .tc main_v12) = shapeCast S1x128 (m ((c : Thread nD τ).loc main_arg11)) shapeCasts_S128_S1x128 :=
  (W2_of_ne m ρ c main_v12 (by decide)).trans (w1_b3 m ρ c)
theorem w3_b3 : W3 m ρ c (Proc.devRef .tc main_v12) = shapeCast S1x128 (m ((c : Thread nD τ).loc main_arg11)) shapeCasts_S128_S1x128 := by
  refine Eq.trans ?_ (w2_b3 m ρ c)
  show StableHlo.after hostOps1 (W2 m ρ c) (Proc.devRef .tc main_v12) = _
  after_results_simp
theorem w4_b3 : W4 m ρ c (Proc.devRef .tc main_v12) = shapeCast S1x128 (m ((c : Thread nD τ).loc main_arg11)) shapeCasts_S128_S1x128 :=
  (W4_of_ne m ρ c main_v12 (by decide)).trans (w3_b3 m ρ c)
theorem w5_b3 : W5 m ρ c (Proc.devRef .tc main_v12) = shapeCast S1x128 (m ((c : Thread nD τ).loc main_arg11)) shapeCasts_S128_S1x128 := by
  refine Eq.trans ?_ (w4_b3 m ρ c)
  show StableHlo.after hostOps2 (W4 m ρ c) (Proc.devRef .tc main_v12) = _
  after_results_simp

/-- After the first stretch: the classifier's weights, transposed. -/
theorem w1_wl : W1 m ρ c (Proc.devRef .tc main_v13) = transpose S384x47 [1, 0] (m ((c : Thread nD τ).loc main_arg12)) transposes_S47x384_S384x47_1_0 := by
  show StableHlo.after hostOps0 (W0 m ρ c) (Proc.devRef .tc main_v13) = _
  after_results_simp <;> rfl
theorem w2_wl : W2 m ρ c (Proc.devRef .tc main_v13) = transpose S384x47 [1, 0] (m ((c : Thread nD τ).loc main_arg12)) transposes_S47x384_S384x47_1_0 :=
  (W2_of_ne m ρ c main_v13 (by decide)).trans (w1_wl m ρ c)
theorem w3_wl : W3 m ρ c (Proc.devRef .tc main_v13) = transpose S384x47 [1, 0] (m ((c : Thread nD τ).loc main_arg12)) transposes_S47x384_S384x47_1_0 := by
  refine Eq.trans ?_ (w2_wl m ρ c)
  show StableHlo.after hostOps1 (W2 m ρ c) (Proc.devRef .tc main_v13) = _
  after_results_simp
theorem w4_wl : W4 m ρ c (Proc.devRef .tc main_v13) = transpose S384x47 [1, 0] (m ((c : Thread nD τ).loc main_arg12)) transposes_S47x384_S384x47_1_0 :=
  (W4_of_ne m ρ c main_v13 (by decide)).trans (w3_wl m ρ c)
theorem w5_wl : W5 m ρ c (Proc.devRef .tc main_v13) = transpose S384x47 [1, 0] (m ((c : Thread nD τ).loc main_arg12)) transposes_S47x384_S384x47_1_0 := by
  refine Eq.trans ?_ (w4_wl m ρ c)
  show StableHlo.after hostOps2 (W4 m ρ c) (Proc.devRef .tc main_v13) = _
  after_results_simp

/-- After the first stretch: the classifier's bias as one row. -/
theorem w1_bl : W1 m ρ c (Proc.devRef .tc main_v14) = shapeCast S1x47 (m ((c : Thread nD τ).loc main_arg13)) shapeCasts_S47_S1x47 := by
  show StableHlo.after hostOps0 (W0 m ρ c) (Proc.devRef .tc main_v14) = _
  after_results_simp <;> rfl
theorem w2_bl : W2 m ρ c (Proc.devRef .tc main_v14) = shapeCast S1x47 (m ((c : Thread nD τ).loc main_arg13)) shapeCasts_S47_S1x47 :=
  (W2_of_ne m ρ c main_v14 (by decide)).trans (w1_bl m ρ c)
theorem w3_bl : W3 m ρ c (Proc.devRef .tc main_v14) = shapeCast S1x47 (m ((c : Thread nD τ).loc main_arg13)) shapeCasts_S47_S1x47 := by
  refine Eq.trans ?_ (w2_bl m ρ c)
  show StableHlo.after hostOps1 (W2 m ρ c) (Proc.devRef .tc main_v14) = _
  after_results_simp
theorem w4_bl : W4 m ρ c (Proc.devRef .tc main_v14) = shapeCast S1x47 (m ((c : Thread nD τ).loc main_arg13)) shapeCasts_S47_S1x47 :=
  (W4_of_ne m ρ c main_v14 (by decide)).trans (w3_bl m ρ c)
theorem w5_bl : W5 m ρ c (Proc.devRef .tc main_v14) = shapeCast S1x47 (m ((c : Thread nD τ).loc main_arg13)) shapeCasts_S47_S1x47 := by
  refine Eq.trans ?_ (w4_bl m ρ c)
  show StableHlo.after hostOps2 (W4 m ρ c) (Proc.devRef .tc main_v14) = _
  after_results_simp

/-! ## The first layer's output, carried to the later regions -/

/-- The second stretch leaves the first layer's output where the first region wrote it. -/
theorem w3_x1 : W3 m ρ c (Proc.devRef .tc main_v28) = W2 m ρ c (Proc.devRef .tc main_v28) := by
  show StableHlo.after hostOps1 (W2 m ρ c) (Proc.devRef .tc main_v28) = _
  after_results_simp

/-- The second region only reads it. -/
theorem w4_x1 : W4 m ρ c (Proc.devRef .tc main_v28) = W2 m ρ c (Proc.devRef .tc main_v28) :=
  (W4_arr m ρ c 1).trans (((dat1 (V3 m ρ) c).arrAt_in 1 rfl _).trans ((A_eq1 (V3 m ρ) c 1).trans (w3_x1 m ρ c)))

/-- The third stretch leaves it too. -/
theorem w5_x1 : W5 m ρ c (Proc.devRef .tc main_v28) = W2 m ρ c (Proc.devRef .tc main_v28) := by
  refine Eq.trans ?_ (w4_x1 m ρ c)
  show StableHlo.after hostOps2 (W4 m ρ c) (Proc.devRef .tc main_v28) = _
  after_results_simp

/-- The third stretch leaves the second layer's output where the second region wrote it. -/
theorem w5_x2 : W5 m ρ c (Proc.devRef .tc main_v42) = W4 m ρ c (Proc.devRef .tc main_v42) := by
  show StableHlo.after hostOps2 (W4 m ρ c) (Proc.devRef .tc main_v42) = _
  after_results_simp

/-! ## The aggregations the later regions find -/

/-- The second region finds the aggregation of the first layer's output over the edge list. -/
theorem e3_agg : V3 m ρ c main_v41 =
    Cert.ReferenceIdeal.HostNet.agg128 (W2 m ρ c (Proc.devRef .tc main_v28)) (m ((c : Thread nD τ).loc main_arg1)) (m ((c : Thread nD τ).loc main_arg2)) := by
  show StableHlo.after hostOps1 (W2 m ρ c) (Proc.devRef .tc main_v41) = _
  after_results_simp
  rw [w2_v1 m ρ c, w2_v3 m ρ c, w2_ew m ρ c]
  rfl

/-- The third region finds the aggregation of the second layer's output over the edge list. -/
theorem e5_agg : V5 m ρ c main_v55 =
    Cert.ReferenceIdeal.HostNet.agg128 (W4 m ρ c (Proc.devRef .tc main_v42)) (m ((c : Thread nD τ).loc main_arg1)) (m ((c : Thread nD τ).loc main_arg2)) := by
  show StableHlo.after hostOps2 (W4 m ρ c) (Proc.devRef .tc main_v55) = _
  after_results_simp
  rw [w4_v1 m ρ c, w4_v3 m ρ c, w4_ew m ρ c]
  rfl

/-! ## The same facts as the regions' proof data read them -/

theorem e3_x : V3 m ρ c main_v28 = W2 m ρ c (Proc.devRef .tc main_v28) := w3_x1 m ρ c
theorem e3_wr : V3 m ρ c main_v7 = transpose S128x128 [1, 0] (m ((c : Thread nD τ).loc main_arg6)) transposes_S128x128_S128x128_1_0 := w3_w2r m ρ c
theorem e3_wo : V3 m ρ c main_v8 = transpose S128x128 [1, 0] (m ((c : Thread nD τ).loc main_arg7)) transposes_S128x128_S128x128_1_0 := w3_w2o m ρ c
theorem e3_b : V3 m ρ c main_v9 = shapeCast S1x128 (m ((c : Thread nD τ).loc main_arg8)) shapeCasts_S128_S1x128 := w3_b2 m ρ c
theorem e5_x1 : V5 m ρ c main_v28 = W2 m ρ c (Proc.devRef .tc main_v28) := w5_x1 m ρ c
theorem e5_x2 : V5 m ρ c main_v42 = W4 m ρ c (Proc.devRef .tc main_v42) := w5_x2 m ρ c
theorem e5_wr : V5 m ρ c main_v10 = transpose S128x128 [1, 0] (m ((c : Thread nD τ).loc main_arg9)) transposes_S128x128_S128x128_1_0 := w5_w3r m ρ c
theorem e5_wo : V5 m ρ c main_v11 = transpose S128x128 [1, 0] (m ((c : Thread nD τ).loc main_arg10)) transposes_S128x128_S128x128_1_0 := w5_w3o m ρ c
theorem e5_b : V5 m ρ c main_v12 = shapeCast S1x128 (m ((c : Thread nD τ).loc main_arg11)) shapeCasts_S128_S1x128 := w5_b3 m ρ c
theorem e5_wl : V5 m ρ c main_v13 = transpose S384x47 [1, 0] (m ((c : Thread nD τ).loc main_arg12)) transposes_S47x384_S384x47_1_0 := w5_wl m ρ c
theorem e5_bl : V5 m ρ c main_v14 = shapeCast S1x47 (m ((c : Thread nD τ).loc main_arg13)) shapeCasts_S47_S1x47 := w5_bl m ρ c

end Cert.KernelIdeal.Fold

end
-- ==== Proof.Spec.lean ====
/-
  The functions both programs compute, one output row at a time, over the extended reals.

  A graph-convolution layer followed by a rectifier sends a row `a` of aggregated neighbour features and the node's own row
  `x` to `max (a · Wr + x · Wo + b) 0`: two inner products per output column, the bias, the rectifier (`denseRow`). The
  classifier joins three such rows side by side (`cat3`), takes one more inner product per class and adds the class bias
  (`logitRow`), and normalises the row of logits in the logarithmic scale: subtract the row's maximum, then subtract the
  logarithm of the sum of the exponentials of what is left (`logSoftmaxRow`). The two words the programs print — the
  pattern of zero and the pattern of minus infinity — are kept as words: both programs use the same ones.
-/
import Idealize.ShloMosaic.Lib.ValueIdx
import Idealize.ShloMosaic.PureOps.Ideal

noncomputable section

namespace Cert.GraphNet

open Idealize.ShloMosaic Idealize.ShloMosaic.ValueIdx
open scoped BigOperators

/-- A matrix of extended reals, indexed as the programs index a rank-two array. -/
abbrev Mat (M N : ℕ) : Type := (⟨2, ![M, N]⟩ : Shape).Idx → EReal

/-- The value of the f32 pattern of zero. -/
def zeroW : EReal := Ideal.ofBits .f32 0x00000000#32

/-- The value of the f32 pattern of minus infinity. -/
def negInfW : EReal := Ideal.ofBits .f32 0xFF800000#32

/-- Column `q` of one layer's output row: the aggregated row `a` against column `q` of `wr`, plus the node's own row `x`
    against column `q` of `wo`, plus the bias, cut off below at zero. -/
def denseRow {K H : ℕ} (a x : Fin K → EReal) (wr wo : Mat K H) (b : Fin H → EReal) (q : Fin H) : EReal :=
  max (((∑ k : Fin K, a k * wr (ix2 k q)) + ∑ k : Fin K, x k * wo (ix2 k q)) + b q) zeroW

/-- Three rows of 128 entries side by side. -/
def cat3 (u v w : Fin 128 → EReal) (k : Fin 384) : EReal :=
  if h : k.val < 128 then u ⟨k.val, h⟩
  else if h' : k.val < 256 then v ⟨k.val - 128, by omega⟩
  else w ⟨k.val - 256, by omega⟩

/-- Class `q`'s logit of the joined row. -/
def logitRow (u v w : Fin 128 → EReal) (wl : Mat 384 47) (bl : Fin 47 → EReal) (q : Fin 47) : EReal :=
  (∑ k : Fin 384, cat3 u v w k * wl (ix2 k q)) + bl q

/-- The largest entry of a row, as the fold of `max` from minus infinity. -/
def rowMax {C : ℕ} (l : Fin C → EReal) : EReal := (Finset.univ : Finset (Fin C)).fold max negInfW l

/-- Entry `q` of the row's logarithmic softmax. -/
def logSoftmaxRow {C : ℕ} (l : Fin C → EReal) (q : Fin C) : EReal :=
  (l q - rowMax l) - Ideal.log (∑ j : Fin C, Ideal.exp (l j - rowMax l))

/-- Entry `q` of the network's last stage for one node: the third layer's row from the aggregated row `a3` and the second
    layer's row `x2`, the three layers' rows joined, the logits, their logarithmic softmax. -/
def headRow (a3 x1 x2 : Fin 128 → EReal) (wr wo : Mat 128 128) (b3 : Fin 128 → EReal) (wl : Mat 384 47) (bl : Fin 47 → EReal)
    (q : Fin 47) : EReal :=
  logSoftmaxRow (logitRow x1 x2 (denseRow a3 x2 wr wo b3) wl bl) q

end Cert.GraphNet

end
-- ==== Proof.LibDenseRows.lean ====
/-
  Row-wise dense algebra read at an index given by coordinates, at the ideal values: a plain two-dimensional
  contraction `[M, K] · [K, N]` (the kernel's matrix product into a zero accumulator and the host's `dot_general`) as a sum
  over `k : Fin K` of the left operand's row times the right operand's column; a bias vector `[N]` laid along every row of
  `[M, N]` (both spellings: cast to one row then broadcast, and two `broadcast_in_dim`s); a concatenation of two blocks side
  by side along the columns; and a sum along the columns of `[M, N]` (the lane reduction and the host's `reduce`), plain
  and laid back out as a column `[M, 1]` that is broadcast over the columns.
-/
import Idealize.ShloMosaic.Lib.ValueIdx
import Idealize.ShloMosaic.Lib.ValueLayout
import Idealize.ShloMosaic.Lib.Pipeline.Value
import Idealize.ShloMosaic.Lib.KernelVsHost
import Idealize.ShloMosaic.Lib.IdealHost
import Idealize.ShloMosaic.PureOps.Ideal.Laws

noncomputable section

namespace Cert.DenseRows

open Idealize.ShloMosaic Idealize.ShloMosaic.ValueIdx
open scoped BigOperators

/-! ## A plain contraction `[M, K] · [K, N]` -/

/-- For dimension numbers that contract the left operand's columns with the right operand's rows and keep the left rows and
    the right columns in place, the sum over the contraction index at `(r, c)` is the sum over `k : Fin K` of the left
    operand at `(r, k)` times the right operand at `(k, c)`. -/
theorem sum_contr_plain {M K N : ℕ} (D : DotDims ⟨2, ![M, K]⟩ ⟨2, ![K, N]⟩ ⟨2, ![M, N]⟩)
    (hl : D.lhsContracting = [(1 : Fin 2)]) (hr : D.rhsContracting = [(0 : Fin 2)])
    (hrank : D.contr.rank = 1) (hsize : D.contr.size ⟨0, by omega⟩ = K)
    (hl0 : ∀ j k, (D.lhsIdx j k (0 : Fin 2)).val = (j (0 : Fin 2)).val)
    (hr1 : ∀ j k, (D.rhsIdx j k (1 : Fin 2)).val = (j (1 : Fin 2)).val)
    (A : (⟨2, ![M, K]⟩ : Shape).Idx → EReal) (W : (⟨2, ![K, N]⟩ : Shape).Idx → EReal) (r : Fin M) (c : Fin N) :
    ∑ k : D.contr.Idx, A (D.lhsIdx (ix2 r c) k) * W (D.rhsIdx (ix2 r c) k) = ∑ k : Fin K, A (ix2 r k) * W (ix2 k c) := by
  rw [← Equiv.sum_comp (contrEquiv1 D K hrank hsize).symm]
  refine Finset.sum_congr rfl fun k _ => ?_
  have e1 : D.lhsIdx (ix2 r c) ((contrEquiv1 D K hrank hsize).symm k) = ix2 r k := by
    funext a; apply Fin.ext
    match a with
    | ⟨0, _⟩ => exact hl0 _ _
    | ⟨1, _⟩ => exact (D.lhsIdx_val_of_single hl _ _).trans (contrEquiv1_symm_val D K hrank hsize k)
  have e2 : D.rhsIdx (ix2 r c) ((contrEquiv1 D K hrank hsize).symm k) = ix2 k c := by
    funext a; apply Fin.ext
    match a with
    | ⟨0, _⟩ => exact (D.rhsIdx_val_of_single hr _ _).trans (contrEquiv1_symm_val D K hrank hsize k)
    | ⟨1, _⟩ => exact hr1 _ _
  rw [e1, e2]

/-- The kernel's matrix product into the zero accumulator, at `(r, c)`. -/
theorem matmul_zero_plain_apply {M K N : ℕ} {φ₁ φ₂ : FTy} (D : DotDims ⟨2, ![M, K]⟩ ⟨2, ![K, N]⟩ ⟨2, ![M, N]⟩)
    (hl : D.lhsContracting = [(1 : Fin 2)]) (hr : D.rhsContracting = [(0 : Fin 2)])
    (hrank : D.contr.rank = 1) (hsize : D.contr.size ⟨0, by omega⟩ = K)
    (hl0 : ∀ j k, (D.lhsIdx j k (0 : Fin 2)).val = (j (0 : Fin 2)).val)
    (hr1 : ∀ j k, (D.rhsIdx j k (1 : Fin 2)).val = (j (1 : Fin 2)).val)
    (A : FVec Ideal ⟨2, ![M, K]⟩ φ₁) (W : FVec Ideal ⟨2, ![K, N]⟩ φ₂) (r : Fin M) (c : Fin N) :
    matmul D none A W (constant (F := Ideal) ⟨2, ![M, N]⟩ .f32 0x00000000#32) (ix2 r c) = ∑ k : Fin K, A (ix2 r k) * W (ix2 k c) :=
  (Ideal.matmul_constant_zero_apply D none A W (ix2 r c)).trans (sum_contr_plain D hl hr hrank hsize hl0 hr1 A W r c)

/-- The host's `dot_general` with the same dimension numbers, at `(r, c)`. -/
theorem dotGeneral_plain_apply {M K N : ℕ} {φ₁ φ₂ : FTy} (D : DotDims ⟨2, ![M, K]⟩ ⟨2, ![K, N]⟩ ⟨2, ![M, N]⟩)
    (hl : D.lhsContracting = [(1 : Fin 2)]) (hr : D.rhsContracting = [(0 : Fin 2)])
    (hrank : D.contr.rank = 1) (hsize : D.contr.size ⟨0, by omega⟩ = K)
    (hl0 : ∀ j k, (D.lhsIdx j k (0 : Fin 2)).val = (j (0 : Fin 2)).val)
    (hr1 : ∀ j k, (D.rhsIdx j k (1 : Fin 2)).val = (j (1 : Fin 2)).val)
    (A : FVec Ideal ⟨2, ![M, K]⟩ φ₁) (W : FVec Ideal ⟨2, ![K, N]⟩ φ₂) (r : Fin M) (c : Fin N) :
    Host.dotGeneral D none A W (ix2 r c) = ∑ k : Fin K, A (ix2 r k) * W (ix2 k c) :=
  (Ideal.dotGeneral_apply D none .single A W (ix2 r c)).trans (sum_contr_plain D hl hr hrank hsize hl0 hr1 A W r c)

/-! ## A bias vector along every row -/

variable {α : Type}

/-- A vector `[N]` cast to one row `[1, N]` and broadcast down `M` rows reads, at `(r, c)`, the vector at `c`. -/
theorem rowBias_cast_apply {M N : ℕ} (b : (⟨1, ![N]⟩ : Shape).Idx → α) (h1 : (⟨1, ![N]⟩ : Shape).ShapeCasts ⟨2, ![1, N]⟩)
    (h2 : (⟨2, ![1, N]⟩ : Shape).Broadcasts ⟨2, ![M, N]⟩) (r : Fin M) (c : Fin N) :
    broadcastTo ⟨2, ![M, N]⟩ (shapeCast ⟨2, ![1, N]⟩ b h1) h2 (ix2 r c) = b (ix1 c) :=
  (broadcastTo_1b_ab_apply _ h2 r c).trans (shapeCast_a_1a_apply b h1 0 c)

/-- A vector `[N]` placed on axis 1 of `[1, N]` reads, at `(u, c)`, the vector at `c`. -/
theorem broadcastInDim_a_1a_apply {N : ℕ} (b : (⟨1, ![N]⟩ : Shape).Idx → α)
    (h : (⟨1, ![N]⟩ : Shape).BroadcastsInDim ⟨2, ![1, N]⟩ ![1]) (u : Fin 1) (c : Fin N) :
    broadcastInDim ⟨2, ![1, N]⟩ ![1] h b (ix2 u c) = b (ix1 c) := by
  refine broadcastInDim_apply ![1] h b (ix2 u c) (ix1 c) fun a => ?_
  match a with
  | ⟨0, _⟩ =>
    show c.val = if N = 1 then 0 else c.val
    split
    · have := c.isLt; omega
    · rfl

/-- The host's spelling of the same: two `broadcast_in_dim`s, `[N]` to `[1, N]` to `[M, N]`. -/
theorem rowBias_inDim_apply {M N : ℕ} (b : (⟨1, ![N]⟩ : Shape).Idx → α)
    (h1 : (⟨1, ![N]⟩ : Shape).BroadcastsInDim ⟨2, ![1, N]⟩ ![1])
    (h2 : (⟨2, ![1, N]⟩ : Shape).BroadcastsInDim ⟨2, ![M, N]⟩ ![0, 1]) (r : Fin M) (c : Fin N) :
    broadcastInDim ⟨2, ![M, N]⟩ ![0, 1] h2 (broadcastInDim ⟨2, ![1, N]⟩ ![1] h1 b) (ix2 r c) = b (ix1 c) :=
  (broadcastInDim_oneRow_apply h2 _ r c).trans (broadcastInDim_a_1a_apply b h1 0 c)

/-! ## Two blocks side by side -/

/-- Two blocks `[M, A]` and `[M, B]` concatenated along the columns: a column left of `A` reads the first block. -/
theorem concat_cols_left {M A B C : ℕ} (x : (⟨2, ![M, A]⟩ : Shape).Idx → α) (y : (⟨2, ![M, B]⟩ : Shape).Idx → α)
    (h : Shape.Concatenates [⟨2, ![M, A]⟩, ⟨2, ![M, B]⟩] ⟨2, ![M, C]⟩ (1 : Fin 2)) (r : Fin M) (k : Fin C) (hk : k.val < A) :
    concatenate ⟨2, ![M, C]⟩ (1 : Fin 2) [⟨⟨2, ![M, A]⟩, x⟩, ⟨⟨2, ![M, B]⟩, y⟩] h (ix2 r k) = x (ix2 r ⟨k.val, hk⟩) :=
  concatenate_pair_apply_left (1 : Fin 2) x y h (ix2 r k) rfl (ix2 r ⟨k.val, hk⟩) fun b => by
    match b with
    | ⟨0, _⟩ => rfl
    | ⟨1, _⟩ => rfl

/-- … and a column from `A` on reads the second block, `A` columns to the left. -/
theorem concat_cols_right {M A B C : ℕ} (x : (⟨2, ![M, A]⟩ : Shape).Idx → α) (y : (⟨2, ![M, B]⟩ : Shape).Idx → α)
    (h : Shape.Concatenates [⟨2, ![M, A]⟩, ⟨2, ![M, B]⟩] ⟨2, ![M, C]⟩ (1 : Fin 2)) (r : Fin M) (k : Fin C) (hk : A ≤ k.val)
    (hk' : k.val - A < B) :
    concatenate ⟨2, ![M, C]⟩ (1 : Fin 2) [⟨⟨2, ![M, A]⟩, x⟩, ⟨⟨2, ![M, B]⟩, y⟩] h (ix2 r k) = y (ix2 r ⟨k.val - A, hk'⟩) :=
  concatenate_pair_apply_right (1 : Fin 2) x y h (ix2 r k) rfl rfl (ix2 r ⟨k.val - A, hk'⟩)
    (fun b hb => by
      match b with
      | ⟨0, _⟩ => rfl
      | ⟨1, _⟩ => exact absurd rfl hb)
    (by show k.val - A + A = k.val; omega)

/-! ## A sum along the columns -/

/-- The lane reduction of `[M, N]` along its columns from the zero word, at row `r`. -/
theorem laneSum_apply {M N : ℕ} (src : FVec Ideal ⟨2, ![M, N]⟩ .f32) (h : (⟨2, ![M, N]⟩ : Shape).Reduces [(1 : Fin 2)] ⟨1, ![M]⟩)
    (hφ : FKind.Formats .f32) (hacc : (0x00000000#32 : BitVec 32) = FKind.add.neutral .f32 hφ)
    (hlift : ∀ (r : Fin M) (k : Fin N), h.lift (ix1 r) k = ix2 r k) (r : Fin M) :
    multiReduction .add [(1 : Fin 2)] ⟨1, ![M]⟩ src 0x00000000#32 h hφ hacc (ix1 r) = ∑ k : Fin N, src (ix2 r k) :=
  (Ideal.multiReduction_add_single src 0x00000000#32 h hφ hacc (ix1 r)).trans
    (Finset.sum_congr rfl fun k _ => congrArg src (hlift r k))

/-- The host's `reduce` with `add` along the columns from an initial scalar, at row `r`. -/
theorem hostRowSum_apply {M N : ℕ} (x : FVec Ideal ⟨2, ![M, N]⟩ .f32) (init : (⟨0, ![]⟩ : Shape).Idx → Ideal .f32)
    (h' : (⟨2, ![M, N]⟩ : Shape).ReducesTo [(1 : Fin 2)] ⟨1, ![M]⟩) (hu : 0 < (⟨0, ![]⟩ : Shape).numel)
    (h : (⟨2, ![M, N]⟩ : Shape).Reduces [(1 : Fin 2)] ⟨1, ![M]⟩)
    (hlift : ∀ (r : Fin M) (k : Fin N), h.lift (ix1 r) k = ix2 r k) (r : Fin M) :
    Host.reduceAdd x init h' hu (ix1 r) = init (Shape.Idx.first hu) + ∑ k : Fin N, x (ix2 r k) :=
  (hostReduceAdd_apply x init h' hu (ix1 r)).trans
    ((Ideal.hostReduceAdd_single h' h x _ (ix1 r)).trans
      (congrArg (init (Shape.Idx.first hu) + ·) (Finset.sum_congr rfl fun k _ => congrArg x (hlift r k))))

/-- A vector `[M]` placed on axis 0 of `[M, 1]` reads, at `(r, u)`, the vector at `r`. -/
theorem broadcastInDim_a_a1_apply {M : ℕ} (v : (⟨1, ![M]⟩ : Shape).Idx → α)
    (h : (⟨1, ![M]⟩ : Shape).BroadcastsInDim ⟨2, ![M, 1]⟩ ![0]) (r : Fin M) (u : Fin 1) :
    broadcastInDim ⟨2, ![M, 1]⟩ ![0] h v (ix2 r u) = v (ix1 r) := by
  refine broadcastInDim_apply ![0] h v (ix2 r u) (ix1 r) fun a => ?_
  match a with
  | ⟨0, _⟩ =>
    show r.val = if M = 1 then 0 else r.val
    split
    · have := r.isLt; omega
    · rfl

/-- A column `[M, 1]` laid over the columns of `[M, N]` by `broadcast_in_dim` reads, at `(r, c)`, the column at row `r`. -/
theorem broadcastInDim_a1_ab_apply {M N : ℕ} (v : (⟨2, ![M, 1]⟩ : Shape).Idx → α)
    (h : (⟨2, ![M, 1]⟩ : Shape).BroadcastsInDim ⟨2, ![M, N]⟩ ![0, 1]) (r : Fin M) (c : Fin N) :
    broadcastInDim ⟨2, ![M, N]⟩ ![0, 1] h v (ix2 r c) = v (ix2 r (0 : Fin 1)) := by
  refine broadcastInDim_apply ![0, 1] h v (ix2 r c) (ix2 r (0 : Fin 1)) fun a => ?_
  match a with
  | ⟨0, _⟩ =>
    show r.val = if M = 1 then 0 else r.val
    split
    · have := r.isLt; omega
    · rfl
  | ⟨1, _⟩ => rfl

end Cert.DenseRows

end
-- ==== Proof.LibRowLift.lean ====
/-
  A row index lifted back along the columns: for a reduction of `[M, N]` along its columns to `[M]`, the source index over
  row `r` with column coordinate `k` is `(r, k)`.
-/
import Idealize.ShloMosaic.Lib.ValueIdx
import Idealize.ShloMosaic.PureOps.Ideal.Laws

namespace Cert.RowLift

open Idealize.ShloMosaic Idealize.ShloMosaic.ValueIdx

/-- The source index over row `r` whose coordinate on the reduced column axis is `k` is `(r, k)`. -/
theorem lift_row {M N : ℕ} (h : (⟨2, ![M, N]⟩ : Shape).Reduces [(1 : Fin 2)] ⟨1, ![M]⟩) (r : Fin M) (k : Fin N) :
    h.lift (ix1 r) k = ix2 r k := by
  funext c
  apply Fin.ext
  match c with
  | ⟨0, _⟩ => rfl
  | ⟨1, _⟩ => rfl

end Cert.RowLift
-- ==== Proof.LibColumnLayout.lean ====
/-
  Two layout operations read at an index given by coordinates, for a column kept as a trailing unit axis
  (`keepdims=True`): a vector `[a]` cast to a column `[a, 1]`, and a column `[a, 1]` broadcast along the rows of
  `[a, b]`. Each reads one element of its operand: the one with the same row.
-/
import Idealize.ShloMosaic.Lib.ValueLayout

namespace Cert.ColumnLayout

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.ColumnLayout
-- ==== Proof.Layers.lean ====
/-
  One graph-convolution layer with its rectifier, read off the blocked program as one function of the arrays the layer
  starts from.

  The layer's output array has 100000 rows of 128 entries and is produced in 50 blocks of 2000 consecutive rows. The block
  at grid point t holds, for each of its rows r and each column q, the aggregated neighbour row of node 2000 t + r against
  column q of the first weight matrix, plus the node's own row against column q of the second weight matrix, plus entry q
  of the bias row, cut off below at zero: the two weight matrices and the bias row are whole at every point, and the two
  row operands move with the output block, so entry (p, q) of the output depends only on row p of the aggregated array, row
  p of the node array, column q of the two weight matrices and entry q of the bias. Every row p lies in exactly the block
  of point p / 2000, each point writes its block of that one whole-array function, and so the array after the last point
  is that function everywhere. The rounding of the matrix products' operands to a narrower format is the identity on
  extended reals, and a matrix product into a zero accumulator is the plain sum over the contracted index.
-/
import proofs.«172433_j15625091023093_1_alg».proof.Proof.KernelIdealFrameP
import proofs.«172433_j15625091023093_1_alg».proof.Proof.Spec
import proofs.«172433_j15625091023093_1_alg».proof.Proof.LibDenseRows
import proofs.«172433_j15625091023093_1_alg».proof.Proof.LibRowLift
import proofs.«172433_j15625091023093_1_alg».proof.Proof.LibColumnLayout
import proofs.«172433_j15625091023093_1_alg».proof.Proof.LibOpenLists
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Layers

open Cert.KernelIdeal Cert.KernelIdeal.Gen Cert.KernelIdeal.GenP Cert.GraphNet
open Idealize.ShloMosaic Idealize.ShloMosaic.TcCoe Idealize.ShloMosaic.ValueIdx Idealize.SL.Sem
open Idealize.ShloMosaic.Pipeline (Dat Cfg Window)
open scoped BigOperators

variable (V : (c : Dev nD) → (b : Ref sig .tc) → Buf (Elt Ideal) ((c : Thread nD τ).loc b))

/-! ## One output entry of a layer's block -/

/-- The two zero offsets of a whole-block access, as the constant function. -/
theorem zeroOffsets : (![0, 0] : Fin 2 → Nat) = fun _ => 0 := funext fun a => by fin_cases a <;> rfl

/-- Two matrix products into zero accumulators added, a bias row laid along every row added, the rectifier: entry
    `(r, q)` is the layer's row function of row `r` of the two left operands. -/
theorem dense_apply {M K N : ℕ} {φ₁ φ₂ : FTy} (D : DotDims ⟨2, ![M, K]⟩ ⟨2, ![K, N]⟩ ⟨2, ![M, N]⟩)
    (hl : D.lhsContracting = [(1 : Fin 2)]) (hr : D.rhsContracting = [(0 : Fin 2)])
    (hrank : D.contr.rank = 1) (hsize : D.contr.size ⟨0, by omega⟩ = K)
    (hl0 : ∀ j k, (D.lhsIdx j k (0 : Fin 2)).val = (j (0 : Fin 2)).val)
    (hr1 : ∀ j k, (D.rhsIdx j k (1 : Fin 2)).val = (j (1 : Fin 2)).val)
    (A X : FVec Ideal ⟨2, ![M, K]⟩ φ₁) (Wr Wo : FVec Ideal ⟨2, ![K, N]⟩ φ₂) (B : FVec Ideal ⟨2, ![1, N]⟩ .f32)
    (hb : (⟨2, ![1, N]⟩ : Shape).Broadcasts ⟨2, ![M, N]⟩) (r : Fin M) (q : Fin N) :
    maximumf (addf (addf (matmul D none A Wr (constant (F := Ideal) ⟨2, ![M, N]⟩ .f32 0x00000000#32))
          (matmul D none X Wo (constant (F := Ideal) ⟨2, ![M, N]⟩ .f32 0x00000000#32)))
        (broadcastTo ⟨2, ![M, N]⟩ B hb))
      (broadcast ⟨2, ![M, N]⟩ (Scalar.ofBits (F := Ideal) .f32 0x00000000#32)) (ix2 r q)
      = denseRow (fun k : Fin K => A (ix2 r k)) (fun k : Fin K => X (ix2 r k)) Wr Wo (fun j : Fin N => B (ix2 (0 : Fin 1) j)) q := by
  show max ((matmul D none A Wr (constant (F := Ideal) ⟨2, ![M, N]⟩ .f32 0x00000000#32) (ix2 r q)
      + matmul D none X Wo (constant (F := Ideal) ⟨2, ![M, N]⟩ .f32 0x00000000#32) (ix2 r q))
      + broadcastTo ⟨2, ![M, N]⟩ B hb (ix2 r q)) zeroW = _
  rw [Cert.DenseRows.matmul_zero_plain_apply D hl hr hrank hsize hl0 hr1 A Wr r q,
    Cert.DenseRows.matmul_zero_plain_apply D hl hr hrank hsize hl0 hr1 X Wo r q, broadcastTo_1b_ab_apply B hb r q]
  rfl

/-! ## Region 0: 100 input features -/

/-- The contraction of region 0's matrix products. -/
abbrev dims0 : DotDims S2000x100 S100x128 S2000x128 := dot_S2000x100_S100x128_S2000x128_1_0_0_1_n_n

theorem dims0_lhs_row (j : S2000x128.Idx) (k : dims0.contr.Idx) : (dims0.lhsIdx j k (0 : Fin 2)).val = (j (0 : Fin 2)).val := by
  unfold DotDims.lhsIdx
  rw [dif_neg (show ¬(0 : Fin S2000x100.rank) ∈ dims0.lhsBatch by decide), dif_pos (show (0 : Fin S2000x100.rank) ∈ dims0.lhsNonContracting by decide)]
  rfl

theorem dims0_rhs_col (j : S2000x128.Idx) (k : dims0.contr.Idx) : (dims0.rhsIdx j k (1 : Fin 2)).val = (j (1 : Fin 2)).val := by
  unfold DotDims.rhsIdx
  rw [dif_neg (show ¬(1 : Fin S100x128.rank) ∈ dims0.rhsBatch by decide), dif_pos (show (1 : Fin S100x128.rank) ∈ dims0.rhsNonContracting by decide)]
  rfl

/-- The value the body of region 0 stores, at `(r, q)`: the layer's row function of row `r` of the two loaded row blocks. -/
theorem pay0_apply (x0 x1 : Vec Ideal S2000x100 .f32) (x2 x3 : Vec Ideal S100x128 .f32) (x4 : Vec Ideal S1x128 .f32)
    (r : Fin 2000) (q : Fin 128) :
    k0_pay1 (F := Ideal) x0 x1 x2 x3 x4 (ix2 r q)
      = denseRow (fun k : Fin 100 => x0 (ix2 r k)) (fun k : Fin 100 => x1 (ix2 r k)) x2 x3 (fun j : Fin 128 => x4 (ix2 (0 : Fin 1) j)) q := by
  unfold k0_pay1
  rw [shapeCast_self x0, shapeCast_self x2, shapeCast_self x3, shapeCast_self x4]
  exact dense_apply dims0 rfl rfl rfl rfl dims0_lhs_row dims0_rhs_col
    (truncf .bf16 x0 bitsLt_bf16_f32) (truncf .bf16 x1 bitsLt_bf16_f32) (truncf .bf16 x2 bitsLt_bf16_f32) (truncf .bf16 x3 bitsLt_bf16_f32)
    x4 broadcasts_S1x128_S2000x128 r q

/-! ## Region 1: 128 input features -/

/-- The contraction of region 1's matrix products. -/
abbrev dims1 : DotDims S2000x128 S128x128 S2000x128 := dot_S2000x128_S128x128_S2000x128_1_0_0_1_n_n

theorem dims1_lhs_row (j : S2000x128.Idx) (k : dims1.contr.Idx) : (dims1.lhsIdx j k (0 : Fin 2)).val = (j (0 : Fin 2)).val := by
  unfold DotDims.lhsIdx
  rw [dif_neg (show ¬(0 : Fin S2000x128.rank) ∈ dims1.lhsBatch by decide), dif_pos (show (0 : Fin S2000x128.rank) ∈ dims1.lhsNonContracting by decide)]
  rfl

theorem dims1_rhs_col (j : S2000x128.Idx) (k : dims1.contr.Idx) : (dims1.rhsIdx j k (1 : Fin 2)).val = (j (1 : Fin 2)).val := by
  unfold DotDims.rhsIdx
  rw [dif_neg (show ¬(1 : Fin S128x128.rank) ∈ dims1.rhsBatch by decide), dif_pos (show (1 : Fin S128x128.rank) ∈ dims1.rhsNonContracting by decide)]
  rfl

/-- The value the body of region 1 stores, at `(r, q)`: the layer's row function of row `r` of the two loaded row blocks. -/
theorem pay1_apply (x0 x1 : Vec Ideal S2000x128 .f32) (x2 x3 : Vec Ideal S128x128 .f32) (x4 : Vec Ideal S1x128 .f32)
    (r : Fin 2000) (q : Fin 128) :
    k1_pay1 (F := Ideal) x0 x1 x2 x3 x4 (ix2 r q)
      = denseRow (fun k : Fin 128 => x0 (ix2 r k)) (fun k : Fin 128 => x1 (ix2 r k)) x2 x3 (fun j : Fin 128 => x4 (ix2 (0 : Fin 1) j)) q := by
  unfold k1_pay1
  rw [shapeCast_self x0, shapeCast_self x1, shapeCast_self x2, shapeCast_self x3, shapeCast_self x4]
  exact dense_apply dims1 rfl rfl rfl rfl dims1_lhs_row dims1_rhs_col
    (truncf .bf16 x0 bitsLt_bf16_f32) (truncf .bf16 x1 bitsLt_bf16_f32) (truncf .bf16 x2 bitsLt_bf16_f32) (truncf .bf16 x3 bitsLt_bf16_f32)
    x4 broadcasts_S1x128_S2000x128 r q

/-! ## Region 0: from blocks to the array -/

/-- The layer of region 0 as one function of the arrays the region starts from: entry `(p, q)` from row `p` of the
    aggregated array and of the node array, the two weight matrices and the bias row. -/
def layer0 (c : Dev nD) : S100000x128.Idx → EReal := fun i =>
  denseRow (fun k : Fin 100 => V c main_v27 (ix2 (i 0 : Fin 100000) k)) (fun k : Fin 100 => V c main_arg0 (ix2 (i 0 : Fin 100000) k))
    (V c main_v4) (V c main_v5) (fun j : Fin 128 => V c main_v6 (ix2 (0 : Fin 1) j)) (i 1 : Fin 128)

/-- The index maps of region 0, decided over its 50 points: the two row operands and the output are at block `(t, 0)`,
    the weight matrices and the bias row at block `(0, 0)`. -/
theorem index0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Row `r` of the aggregated operand's block at point `t` is row `2000 t + r` of its array. -/
theorem agg0_apply (c : Dev nD) (t : Fin cfg0.N) (r : Fin 2000) (k : Fin 100) (p : Fin 100000) (hp : p.val = t.val * 2000 + r.val) :
    (iblk0 V c 0 t : Vec Ideal S2000x100 .f32) (ix2 r k) = V c main_v27 (ix2 p k) := by
  unfold iblk0
  show V c main_v27 (((cfg0.win 0).blk t).view.emb (ix2 r k)) = V c main_v27 (ix2 p k)
  refine congrArg (V c main_v27) ?_
  obtain ⟨e00, e01, -⟩ := index0 t
  funext a; apply Fin.ext
  match a with
  | ⟨0, _⟩ => show win0_0.index t (0 : Fin 2) * 2000 + 1 * r.val = p.val; omega
  | ⟨1, _⟩ => show win0_0.index t (1 : Fin 2) * 100 + 1 * k.val = k.val; omega

/-- Row `r` of the node operand's block at point `t` is row `2000 t + r` of its array. -/
theorem own0_apply (c : Dev nD) (t : Fin cfg0.N) (r : Fin 2000) (k : Fin 100) (p : Fin 100000) (hp : p.val = t.val * 2000 + r.val) :
    (iblk0 V c 1 t : Vec Ideal S2000x100 .f32) (ix2 r k) = V c main_arg0 (ix2 p k) := by
  unfold iblk0
  show V c main_arg0 (((cfg0.win 1).blk t).view.emb (ix2 r k)) = V c main_arg0 (ix2 p k)
  refine congrArg (V c main_arg0) ?_
  obtain ⟨-, -, e10, e11, -⟩ := index0 t
  funext a; apply Fin.ext
  match a with
  | ⟨0, _⟩ => show win0_1.index t (0 : Fin 2) * 2000 + 1 * r.val = p.val; omega
  | ⟨1, _⟩ => show win0_1.index t (1 : Fin 2) * 100 + 1 * k.val = k.val; omega

/-- The first weight matrix's block at any point is the whole matrix. -/
theorem wr0_eq (c : Dev nD) (t : Fin cfg0.N) : (iblk0 V c 2 t : Vec Ideal S100x128 .f32) = V c main_v4 := by
  funext y
  unfold iblk0
  show V c main_v4 (((cfg0.win 2).blk t).view.emb y) = V c main_v4 y
  refine congrArg (V c main_v4) ?_
  obtain ⟨-, -, -, -, e20, e21, -⟩ := index0 t
  funext a; apply Fin.ext
  match a with
  | ⟨0, _⟩ => show win0_2.index t (0 : Fin 2) * 100 + 1 * (y 0).val = (y 0).val; omega
  | ⟨1, _⟩ => show win0_2.index t (1 : Fin 2) * 128 + 1 * (y 1).val = (y 1).val; omega

/-- The second weight matrix's block at any point is the whole matrix. -/
theorem wo0_eq (c : Dev nD) (t : Fin cfg0.N) : (iblk0 V c 3 t : Vec Ideal S100x128 .f32) = V c main_v5 := by
  funext y
  unfold iblk0
  show V c main_v5 (((cfg0.win 3).blk t).view.emb y) = V c main_v5 y
  refine congrArg (V c main_v5) ?_
  obtain ⟨-, -, -, -, -, -, e30, e31, -⟩ := index0 t
  funext a; apply Fin.ext
  match a with
  | ⟨0, _⟩ => show win0_3.index t (0 : Fin 2) * 100 + 1 * (y 0).val = (y 0).val; omega
  | ⟨1, _⟩ => show win0_3.index t (1 : Fin 2) * 128 + 1 * (y 1).val = (y 1).val; omega

/-- The bias row's block at any point is the whole row. -/
theorem bias0_eq (c : Dev nD) (t : Fin cfg0.N) : (iblk0 V c 4 t : Vec Ideal S1x128 .f32) = V c main_v6 := by
  funext y
  unfold iblk0
  show V c main_v6 (((cfg0.win 4).blk t).view.emb y) = V c main_v6 y
  refine congrArg (V c main_v6) ?_
  obtain ⟨-, -, -, -, -, -, -, -, e40, e41, -⟩ := index0 t
  funext a; apply Fin.ext
  match a with
  | ⟨0, _⟩ => show win0_4.index t (0 : Fin 2) * 1 + 1 * (y 0).val = (y 0).val; omega
  | ⟨1, _⟩ => show win0_4.index t (1 : Fin 2) * 128 + 1 * (y 1).val = (y 1).val; omega

/-- Entry `(r, q)` of the output's block at point `t` is entry `(2000 t + r, q)` of the output array. -/
theorem out0_emb (t : Fin cfg0.N) (r : Fin 2000) (q : Fin 128) (p : Fin 100000) (hp : p.val = t.val * 2000 + r.val) :
    ((cfg0.win 5).blk t).view.emb (ix2 r q) = (ix2 p q : S100000x128.Idx) := by
  obtain ⟨-, -, -, -, -, -, -, -, -, -, e50, e51⟩ := index0 t
  funext a; apply Fin.ext
  match a with
  | ⟨0, _⟩ => show win0_5.index t (0 : Fin 2) * 2000 + 1 * r.val = p.val; omega
  | ⟨1, _⟩ => show win0_5.index t (1 : Fin 2) * 128 + 1 * q.val = q.val; omega

/-- What point `t` writes back is its block of the layer's whole-array function. -/
theorem flushed0_eq (c : Dev nD) (t : Fin cfg0.N) :
    (dat0 (F := Ideal) V c).flushed 5 t = ((cfg0.win 5).blk t).view.read (Elt Ideal) (layer0 V c) := by
  show (cfg0.win 5).cut (grid0.coords t) ((dat0 (F := Ideal) V c).after 5 t) = _
  rw [after0_5]
  unfold out0_5
  rw [View.canon_unit_zero zeroOffsets]
  simp only [View.ld_unit_zero (S := S2000x100) zeroOffsets, View.ld_unit_zero (S := S100x128) zeroOffsets, View.ld_unit_zero (S := S1x128) zeroOffsets]
  show (k0_pay1 (F := Ideal) (iblk0 V c 0 t) (iblk0 V c 1 t) (iblk0 V c 2 t) (iblk0 V c 3 t) (iblk0 V c 4 t) : S2000x128.Idx → EReal)
    = fun y : S2000x128.Idx => layer0 V c (((cfg0.win 5).blk t).view.emb y)
  funext y
  obtain ⟨r, q, rfl⟩ : ∃ (r : Fin 2000) (q : Fin 128), y = ix2 r q := ⟨y 0, y 1, eq_ix2 y⟩
  have hN : cfg0.N = 50 := N_0
  have ht : t.val < 50 := hN ▸ t.isLt
  have hr : r.val < 2000 := r.isLt
  obtain ⟨p, hp⟩ : ∃ p : Fin 100000, p.val = t.val * 2000 + r.val := ⟨⟨t.val * 2000 + r.val, by omega⟩, rfl⟩
  refine (pay0_apply (iblk0 V c 0 t) (iblk0 V c 1 t) (iblk0 V c 2 t) (iblk0 V c 3 t) (iblk0 V c 4 t) r q).trans ?_
  refine Eq.trans ?_ (congrArg (layer0 V c) (out0_emb t r q p hp)).symm
  show denseRow _ _ _ _ _ q = denseRow _ _ _ _ _ q
  rw [wr0_eq V c t, wo0_eq V c t, bias0_eq V c t,
    funext fun k : Fin 100 => agg0_apply V c t r k p hp, funext fun k : Fin 100 => own0_apply V c t r k p hp]

/-- An index of the output array is in point `t`'s block iff each coordinate is in the block's range on its axis. -/
theorem mem_blk0 (t : Fin cfg0.N) (i : S100000x128.Idx) :
    i ∈ ((cfg0.win 5).blk t).view.set ↔ ∀ a : Fin 2, win0_5.index t a * S2000x128.size a ≤ (i a).val ∧ (i a).val < win0_5.index t a * S2000x128.size a + S2000x128.size a := by
  show i ∈ ((View.whole main_v28).slice (win0_5.rect t)).set ↔ _
  rw [View.set_slice_whole, Rect.mem_set_unit]
  exact Iff.rfl

/-- Every index of the output array is in the block of the point its row falls to. -/
theorem cover0 (i : S100000x128.Idx) :
    ∃ t : Fin cfg0.N, (cfg0.win 5).flush t = true ∧ i ∈ ((cfg0.win 5).blk t).view.set := by
  have hi0 : (i 0).val < 100000 := (i 0).isLt
  have hi1 : (i 1).val < 128 := (i 1).isLt
  have hN : cfg0.N = 50 := N_0
  obtain ⟨t, ht⟩ : ∃ t : Fin cfg0.N, t.val = (i 0).val / 2000 := ⟨⟨(i 0).val / 2000, by rw [hN]; omega⟩, rfl⟩
  obtain ⟨-, -, -, -, -, -, -, -, -, -, e50, e51⟩ := index0 t
  refine ⟨t, flush0_5 t, ?_⟩
  rw [mem_blk0]
  intro a
  match a with
  | ⟨0, _⟩ => show win0_5.index t (0 : Fin 2) * 2000 ≤ (i 0).val ∧ (i 0).val < win0_5.index t (0 : Fin 2) * 2000 + 2000; omega
  | ⟨1, _⟩ => show win0_5.index t (1 : Fin 2) * 128 ≤ (i 1).val ∧ (i 1).val < win0_5.index t (1 : Fin 2) * 128 + 128; omega

/-- The output array after the last point is the layer's function of the arrays the region started from. -/
theorem final0 (c : Dev nD) : (dat0 (F := Ideal) V c).arrAt 5 cfg0.N = layer0 V c :=
  (dat0 (F := Ideal) V c).arrAt_eq_of_cover 5 (layer0 V c) (fun t _ => flushed0_eq V c t) cover0

theorem final0_apply (c : Dev nD) (p : Fin 100000) (q : Fin 128) :
    (dat0 (F := Ideal) V c).arrAt 5 cfg0.N (ix2 p q) =
      denseRow (fun k : Fin 100 => V c main_v27 (ix2 p k)) (fun k : Fin 100 => V c main_arg0 (ix2 p k))
        (V c main_v4) (V c main_v5) (fun j : Fin 128 => V c main_v6 (ix2 (0 : Fin 1) j)) q :=
  (congrFun (final0 V c) (ix2 p q)).trans rfl

/-! ## Region 1: from blocks to the array -/

/-- The layer of region 1 as one function of the arrays the region starts from: entry `(p, q)` from row `p` of the
    aggregated array and of the node array, the two weight matrices and the bias row. -/
def layer1 (c : Dev nD) : S100000x128.Idx → EReal := fun i =>
  denseRow (fun k : Fin 128 => V c main_v41 (ix2 (i 0 : Fin 100000) k)) (fun k : Fin 128 => V c main_v28 (ix2 (i 0 : Fin 100000) k))
    (V c main_v7) (V c main_v8) (fun j : Fin 128 => V c main_v9 (ix2 (0 : Fin 1) j)) (i 1 : Fin 128)

/-- The index maps of region 1, decided over its 50 points: the two row operands and the output are at block `(t, 0)`,
    the weight matrices and the bias row at block `(0, 0)`. -/
theorem index1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- Row `r` of the aggregated operand's block at point `t` is row `2000 t + r` of its array. -/
theorem agg1_apply (c : Dev nD) (t : Fin cfg1.N) (r : Fin 2000) (k : Fin 128) (p : Fin 100000) (hp : p.val = t.val * 2000 + r.val) :
    (iblk1 V c 0 t : Vec Ideal S2000x128 .f32) (ix2 r k) = V c main_v41 (ix2 p k) := by
  unfold iblk1
  show V c main_v41 (((cfg1.win 0).blk t).view.emb (ix2 r k)) = V c main_v41 (ix2 p k)
  refine congrArg (V c main_v41) ?_
  obtain ⟨e00, e01, -⟩ := index1 t
  funext a; apply Fin.ext
  match a with
  | ⟨0, _⟩ => show win1_0.index t (0 : Fin 2) * 2000 + 1 * r.val = p.val; omega
  | ⟨1, _⟩ => show win1_0.index t (1 : Fin 2) * 128 + 1 * k.val = k.val; omega

/-- Row `r` of the node operand's block at point `t` is row `2000 t + r` of its array. -/
theorem own1_apply (c : Dev nD) (t : Fin cfg1.N) (r : Fin 2000) (k : Fin 128) (p : Fin 100000) (hp : p.val = t.val * 2000 + r.val) :
    (iblk1 V c 1 t : Vec Ideal S2000x128 .f32) (ix2 r k) = V c main_v28 (ix2 p k) := by
  unfold iblk1
  show V c main_v28 (((cfg1.win 1).blk t).view.emb (ix2 r k)) = V c main_v28 (ix2 p k)
  refine congrArg (V c main_v28) ?_
  obtain ⟨-, -, e10, e11, -⟩ := index1 t
  funext a; apply Fin.ext
  match a with
  | ⟨0, _⟩ => show win1_1.index t (0 : Fin 2) * 2000 + 1 * r.val = p.val; omega
  | ⟨1, _⟩ => show win1_1.index t (1 : Fin 2) * 128 + 1 * k.val = k.val; omega

/-- The first weight matrix's block at any point is the whole matrix. -/
theorem wr1_eq (c : Dev nD) (t : Fin cfg1.N) : (iblk1 V c 2 t : Vec Ideal S128x128 .f32) = V c main_v7 := by
  funext y
  unfold iblk1
  show V c main_v7 (((cfg1.win 2).blk t).view.emb y) = V c main_v7 y
  refine congrArg (V c main_v7) ?_
  obtain ⟨-, -, -, -, e20, e21, -⟩ := index1 t
  funext a; apply Fin.ext
  match a with
  | ⟨0, _⟩ => show win1_2.index t (0 : Fin 2) * 128 + 1 * (y 0).val = (y 0).val; omega
  | ⟨1, _⟩ => show win1_2.index t (1 : Fin 2) * 128 + 1 * (y 1).val = (y 1).val; omega

/-- The second weight matrix's block at any point is the whole matrix. -/
theorem wo1_eq (c : Dev nD) (t : Fin cfg1.N) : (iblk1 V c 3 t : Vec Ideal S128x128 .f32) = V c main_v8 := by
  funext y
  unfold iblk1
  show V c main_v8 (((cfg1.win 3).blk t).view.emb y) = V c main_v8 y
  refine congrArg (V c main_v8) ?_
  obtain ⟨-, -, -, -, -, -, e30, e31, -⟩ := index1 t
  funext a; apply Fin.ext
  match a with
  | ⟨0, _⟩ => show win1_3.index t (0 : Fin 2) * 128 + 1 * (y 0).val = (y 0).val; omega
  | ⟨1, _⟩ => show win1_3.index t (1 : Fin 2) * 128 + 1 * (y 1).val = (y 1).val; omega

/-- The bias row's block at any point is the whole row. -/
theorem bias1_eq (c : Dev nD) (t : Fin cfg1.N) : (iblk1 V c 4 t : Vec Ideal S1x128 .f32) = V c main_v9 := by
  funext y
  unfold iblk1
  show V c main_v9 (((cfg1.win 4).blk t).view.emb y) = V c main_v9 y
  refine congrArg (V c main_v9) ?_
  obtain ⟨-, -, -, -, -, -, -, -, e40, e41, -⟩ := index1 t
  funext a; apply Fin.ext
  match a with
  | ⟨0, _⟩ => show win1_4.index t (0 : Fin 2) * 1 + 1 * (y 0).val = (y 0).val; omega
  | ⟨1, _⟩ => show win1_4.index t (1 : Fin 2) * 128 + 1 * (y 1).val = (y 1).val; omega

/-- Entry `(r, q)` of the output's block at point `t` is entry `(2000 t + r, q)` of the output array. -/
theorem out1_emb (t : Fin cfg1.N) (r : Fin 2000) (q : Fin 128) (p : Fin 100000) (hp : p.val = t.val * 2000 + r.val) :
    ((cfg1.win 5).blk t).view.emb (ix2 r q) = (ix2 p q : S100000x128.Idx) := by
  obtain ⟨-, -, -, -, -, -, -, -, -, -, e50, e51⟩ := index1 t
  funext a; apply Fin.ext
  match a with
  | ⟨0, _⟩ => show win1_5.index t (0 : Fin 2) * 2000 + 1 * r.val = p.val; omega
  | ⟨1, _⟩ => show win1_5.index t (1 : Fin 2) * 128 + 1 * q.val = q.val; omega

/-- What point `t` writes back is its block of the layer's whole-array function. -/
theorem flushed1_eq (c : Dev nD) (t : Fin cfg1.N) :
    (dat1 (F := Ideal) V c).flushed 5 t = ((cfg1.win 5).blk t).view.read (Elt Ideal) (layer1 V c) := by
  show (cfg1.win 5).cut (grid1.coords t) ((dat1 (F := Ideal) V c).after 5 t) = _
  rw [after1_5]
  unfold out1_5
  rw [View.canon_unit_zero zeroOffsets]
  simp only [View.ld_unit_zero (S := S2000x128) zeroOffsets, View.ld_unit_zero (S := S128x128) zeroOffsets, View.ld_unit_zero (S := S1x128) zeroOffsets]
  show (k1_pay1 (F := Ideal) (iblk1 V c 0 t) (iblk1 V c 1 t) (iblk1 V c 2 t) (iblk1 V c 3 t) (iblk1 V c 4 t) : S2000x128.Idx → EReal)
    = fun y : S2000x128.Idx => layer1 V c (((cfg1.win 5).blk t).view.emb y)
  funext y
  obtain ⟨r, q, rfl⟩ : ∃ (r : Fin 2000) (q : Fin 128), y = ix2 r q := ⟨y 0, y 1, eq_ix2 y⟩
  have hN : cfg1.N = 50 := N_1
  have ht : t.val < 50 := hN ▸ t.isLt
  have hr : r.val < 2000 := r.isLt
  obtain ⟨p, hp⟩ : ∃ p : Fin 100000, p.val = t.val * 2000 + r.val := ⟨⟨t.val * 2000 + r.val, by omega⟩, rfl⟩
  refine (pay1_apply (iblk1 V c 0 t) (iblk1 V c 1 t) (iblk1 V c 2 t) (iblk1 V c 3 t) (iblk1 V c 4 t) r q).trans ?_
  refine Eq.trans ?_ (congrArg (layer1 V c) (out1_emb t r q p hp)).symm
  show denseRow _ _ _ _ _ q = denseRow _ _ _ _ _ q
  rw [wr1_eq V c t, wo1_eq V c t, bias1_eq V c t,
    funext fun k : Fin 128 => agg1_apply V c t r k p hp, funext fun k : Fin 128 => own1_apply V c t r k p hp]

/-- An index of the output array is in point `t`'s block iff each coordinate is in the block's range on its axis. -/
theorem mem_blk1 (t : Fin cfg1.N) (i : S100000x128.Idx) :
    i ∈ ((cfg1.win 5).blk t).view.set ↔ ∀ a : Fin 2, win1_5.index t a * S2000x128.size a ≤ (i a).val ∧ (i a).val < win1_5.index t a * S2000x128.size a + S2000x128.size a := by
  show i ∈ ((View.whole main_v42).slice (win1_5.rect t)).set ↔ _
  rw [View.set_slice_whole, Rect.mem_set_unit]
  exact Iff.rfl

/-- Every index of the output array is in the block of the point its row falls to. -/
theorem cover1 (i : S100000x128.Idx) :
    ∃ t : Fin cfg1.N, (cfg1.win 5).flush t = true ∧ i ∈ ((cfg1.win 5).blk t).view.set := by
  have hi0 : (i 0).val < 100000 := (i 0).isLt
  have hi1 : (i 1).val < 128 := (i 1).isLt
  have hN : cfg1.N = 50 := N_1
  obtain ⟨t, ht⟩ : ∃ t : Fin cfg1.N, t.val = (i 0).val / 2000 := ⟨⟨(i 0).val / 2000, by rw [hN]; omega⟩, rfl⟩
  obtain ⟨-, -, -, -, -, -, -, -, -, -, e50, e51⟩ := index1 t
  refine ⟨t, flush1_5 t, ?_⟩
  rw [mem_blk1]
  intro a
  match a with
  | ⟨0, _⟩ => show win1_5.index t (0 : Fin 2) * 2000 ≤ (i 0).val ∧ (i 0).val < win1_5.index t (0 : Fin 2) * 2000 + 2000; omega
  | ⟨1, _⟩ => show win1_5.index t (1 : Fin 2) * 128 ≤ (i 1).val ∧ (i 1).val < win1_5.index t (1 : Fin 2) * 128 + 128; omega

/-- The output array after the last point is the layer's function of the arrays the region started from. -/
theorem final1 (c : Dev nD) : (dat1 (F := Ideal) V c).arrAt 5 cfg1.N = layer1 V c :=
  (dat1 (F := Ideal) V c).arrAt_eq_of_cover 5 (layer1 V c) (fun t _ => flushed1_eq V c t) cover1

theorem final1_apply (c : Dev nD) (p : Fin 100000) (q : Fin 128) :
    (dat1 (F := Ideal) V c).arrAt 5 cfg1.N (ix2 p q) =
      denseRow (fun k : Fin 128 => V c main_v41 (ix2 p k)) (fun k : Fin 128 => V c main_v28 (ix2 p k))
        (V c main_v7) (V c main_v8) (fun j : Fin 128 => V c main_v9 (ix2 (0 : Fin 1) j)) q :=
  (congrFun (final1 V c) (ix2 p q)).trans rfl

end Cert.KernelIdeal.Layers

end
-- ==== Proof.Head.lean ====
/-
  The last stage of the network, one block of 2000 nodes at a time, read off the idealized kernel program.

  For a node's row the body forms the third layer's row (the aggregated row against one weight matrix, the second layer's
  row against the other, the bias, the rectifier), lays the three layers' rows side by side, takes the inner products with
  the classifier's columns and adds the class bias, subtracts the row's largest logit, and subtracts the logarithm of the
  sum of the exponentials of what is left. Each of those steps is read at an entry given by its row and column; together
  they say that the stored block holds, at row `r` and class `q`, the specification's `headRow` of the loaded rows. Then:
  grid point `t` writes back rows `2000 t … 2000 t + 1999` of one function of the whole arrays, every row lies in exactly
  the block of point `r / 2000`, and so the result array ends holding that function everywhere.
-/
import proofs.«172433_j15625091023093_1_alg».proof.Proof.KernelIdealFrameP
import proofs.«172433_j15625091023093_1_alg».proof.Proof.Spec
import proofs.«172433_j15625091023093_1_alg».proof.Proof.LibDenseRows
import proofs.«172433_j15625091023093_1_alg».proof.Proof.LibRowLift
import proofs.«172433_j15625091023093_1_alg».proof.Proof.LibColumnLayout
import proofs.«172433_j15625091023093_1_alg».proof.Proof.LibOpenLists
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Head

open Cert.KernelIdeal Cert.KernelIdeal.Gen Cert.KernelIdeal.GenP Cert.GraphNet
open Idealize.ShloMosaic Idealize.ShloMosaic.TcCoe Idealize.ShloMosaic.ValueIdx Idealize.SL.Sem
open Idealize.ShloMosaic.Pipeline (Dat Cfg Window)
open scoped BigOperators

variable (V : (c : Dev nD) → (b : Ref sig .tc) → Buf (Elt Ideal) ((c : Thread nD τ).loc b))

/-! ## The two contractions' index maps -/

/-- The `[2000, 128] · [128, 128]` contraction keeps the left operand's row. -/
theorem dotLayer_l0 (j : S2000x128.Idx) (k : dot_S2000x128_S128x128_S2000x128_1_0_0_1_n_n.contr.Idx) :
    (dot_S2000x128_S128x128_S2000x128_1_0_0_1_n_n.lhsIdx j k (0 : Fin 2)).val = (j (0 : Fin 2)).val := by
  unfold DotDims.lhsIdx
  rw [dif_neg (show ¬(0 : Fin S2000x128.rank) ∈ dot_S2000x128_S128x128_S2000x128_1_0_0_1_n_n.lhsBatch by decide),
    dif_pos (show (0 : Fin S2000x128.rank) ∈ dot_S2000x128_S128x128_S2000x128_1_0_0_1_n_n.lhsNonContracting by decide)]
  rfl

/-- … and the right operand's column. -/
theorem dotLayer_r1 (j : S2000x128.Idx) (k : dot_S2000x128_S128x128_S2000x128_1_0_0_1_n_n.contr.Idx) :
    (dot_S2000x128_S128x128_S2000x128_1_0_0_1_n_n.rhsIdx j k (1 : Fin 2)).val = (j (1 : Fin 2)).val := by
  unfold DotDims.rhsIdx
  rw [dif_neg (show ¬(1 : Fin S128x128.rank) ∈ dot_S2000x128_S128x128_S2000x128_1_0_0_1_n_n.rhsBatch by decide),
    dif_pos (show (1 : Fin S128x128.rank) ∈ dot_S2000x128_S128x128_S2000x128_1_0_0_1_n_n.rhsNonContracting by decide)]
  rfl

/-- The `[2000, 384] · [384, 47]` contraction keeps the left operand's row. -/
theorem dotHead_l0 (j : S2000x47.Idx) (k : dot_S2000x384_S384x47_S2000x47_1_0_0_1_n_n.contr.Idx) :
    (dot_S2000x384_S384x47_S2000x47_1_0_0_1_n_n.lhsIdx j k (0 : Fin 2)).val = (j (0 : Fin 2)).val := by
  unfold DotDims.lhsIdx
  rw [dif_neg (show ¬(0 : Fin S2000x384.rank) ∈ dot_S2000x384_S384x47_S2000x47_1_0_0_1_n_n.lhsBatch by decide),
    dif_pos (show (0 : Fin S2000x384.rank) ∈ dot_S2000x384_S384x47_S2000x47_1_0_0_1_n_n.lhsNonContracting by decide)]
  rfl

/-- … and the right operand's column. -/
theorem dotHead_r1 (j : S2000x47.Idx) (k : dot_S2000x384_S384x47_S2000x47_1_0_0_1_n_n.contr.Idx) :
    (dot_S2000x384_S384x47_S2000x47_1_0_0_1_n_n.rhsIdx j k (1 : Fin 2)).val = (j (1 : Fin 2)).val := by
  unfold DotDims.rhsIdx
  rw [dif_neg (show ¬(1 : Fin S384x47.rank) ∈ dot_S2000x384_S384x47_S2000x47_1_0_0_1_n_n.rhsBatch by decide),
    dif_pos (show (1 : Fin S384x47.rank) ∈ dot_S2000x384_S384x47_S2000x47_1_0_0_1_n_n.rhsNonContracting by decide)]
  rfl

/-! ## The body's arithmetic, stage by stage -/

/-- The third layer's block: the aggregated block `a` against `wr`, the second layer's block `x2` against `wo`, the bias
    row laid along every row, the rectifier. -/
def layer3 (a x2 : Vec Ideal S2000x128 .f32) (wr wo : Vec Ideal S128x128 .f32) (b3 : Vec Ideal S1x128 .f32) :
    FVec Ideal S2000x128 .f32 :=
  maximumf
    (addf
      (addf
        (matmul dot_S2000x128_S128x128_S2000x128_1_0_0_1_n_n none
          (truncf .bf16 (shapeCast S2000x128 a shapeCasts_S2000x128_S2000x128) bitsLt_bf16_f32)
          (truncf .bf16 (shapeCast S128x128 wr shapeCasts_S128x128_S128x128) bitsLt_bf16_f32)
          (constant S2000x128 .f32 0x00000000#32))
        (matmul dot_S2000x128_S128x128_S2000x128_1_0_0_1_n_n none
          (truncf .bf16 (shapeCast S2000x128 x2 shapeCasts_S2000x128_S2000x128) bitsLt_bf16_f32)
          (truncf .bf16 (shapeCast S128x128 wo shapeCasts_S128x128_S128x128) bitsLt_bf16_f32)
          (constant S2000x128 .f32 0x00000000#32)))
      (broadcastTo S2000x128 (shapeCast S1x128 b3 shapeCasts_S1x128_S1x128) broadcasts_S1x128_S2000x128))
    (broadcast S2000x128 (Scalar.ofBits .f32 0x00000000#32))

/-- Row `r`, column `q` of the third layer's block is the specification's layer row of the two loaded rows. -/
theorem layer3_apply (a x2 : Vec Ideal S2000x128 .f32) (wr wo : Vec Ideal S128x128 .f32) (b3 : Vec Ideal S1x128 .f32)
    (r : Fin 2000) (q : Fin 128) :
    layer3 a x2 wr wo b3 (ix2 r q) =
      denseRow (fun k : Fin 128 => a (ix2 r k)) (fun k : Fin 128 => x2 (ix2 r k)) wr wo
        (fun j : Fin 128 => b3 (ix2 (0 : Fin 1) j)) q := by
  unfold layer3 denseRow zeroW
  simp only [shapeCast_self, Cert.OpenLists.truncf_id]
  refine congrArg₂ max (congrArg₂ (· + ·) (congrArg₂ (· + ·) ?_ ?_) ?_) rfl
  · exact Cert.DenseRows.matmul_zero_plain_apply (φ₁ := .f32) (φ₂ := .f32) dot_S2000x128_S128x128_S2000x128_1_0_0_1_n_n rfl rfl rfl rfl
      dotLayer_l0 dotLayer_r1 a wr r q
  · exact Cert.DenseRows.matmul_zero_plain_apply (φ₁ := .f32) (φ₂ := .f32) dot_S2000x128_S128x128_S2000x128_1_0_0_1_n_n rfl rfl rfl rfl
      dotLayer_l0 dotLayer_r1 x2 wo r q
  · exact broadcastTo_1b_ab_apply b3 broadcasts_S1x128_S2000x128 r q

/-- The three layers' blocks side by side. -/
def joined (x1 x2 x3 : FVec Ideal S2000x128 .f32) : FVec Ideal S2000x384 .f32 :=
  concatenate S2000x384 1 [⟨S2000x128, x1⟩, ⟨S2000x128, x2⟩, ⟨S2000x128, x3⟩]
    concatenates_S2000x128_S2000x128_S2000x128_S2000x384_d1

/-- Row `r` of the joined block is the three rows side by side: a column below 128 reads the first block, one below 256
    the second block 128 columns to the left, any other the third block 256 columns to the left. -/
theorem joined_apply (x1 x2 x3 : FVec Ideal S2000x128 .f32) (r : Fin 2000) (k : Fin 384) :
    joined x1 x2 x3 (ix2 r k) =
      cat3 (fun c : Fin 128 => x1 (ix2 r c)) (fun c : Fin 128 => x2 (ix2 r c)) (fun c : Fin 128 => x3 (ix2 r c)) k := by
  unfold joined cat3
  split
  · next h =>
    exact concatenate_apply_piece (α := Ideal .f32) (t := S2000x384) (1 : Fin 2) [⟨S2000x128, x1⟩, ⟨S2000x128, x2⟩, ⟨S2000x128, x3⟩]
      concatenates_S2000x128_S2000x128_S2000x128_S2000x384_d1 (ix2 r k) 0 (by show 0 < 3; omega) S2000x128 x1 rfl rfl 0 rfl
      (ix2 r ⟨k.val, h⟩)
      (fun b hb => by
        match b with
        | ⟨0, _⟩ => rfl
        | ⟨1, _⟩ => exact absurd rfl hb)
      (by show 0 + k.val = k.val; omega)
  · next h =>
    split
    · next h' =>
      exact concatenate_apply_piece (α := Ideal .f32) (t := S2000x384) (1 : Fin 2) [⟨S2000x128, x1⟩, ⟨S2000x128, x2⟩, ⟨S2000x128, x3⟩]
        concatenates_S2000x128_S2000x128_S2000x128_S2000x384_d1 (ix2 r k) 1 (by show 1 < 3; omega) S2000x128 x2 rfl rfl 128 rfl
        (ix2 r ⟨k.val - 128, by omega⟩)
        (fun b hb => by
          match b with
          | ⟨0, _⟩ => rfl
          | ⟨1, _⟩ => exact absurd rfl hb)
        (by show 128 + (k.val - 128) = k.val; omega)
    · next h' =>
      exact concatenate_apply_piece (α := Ideal .f32) (t := S2000x384) (1 : Fin 2) [⟨S2000x128, x1⟩, ⟨S2000x128, x2⟩, ⟨S2000x128, x3⟩]
        concatenates_S2000x128_S2000x128_S2000x128_S2000x384_d1 (ix2 r k) 2 (by show 2 < 3; omega) S2000x128 x3 rfl rfl 256 rfl
        (ix2 r ⟨k.val - 256, by have := k.isLt; omega⟩)
        (fun b hb => by
          match b with
          | ⟨0, _⟩ => rfl
          | ⟨1, _⟩ => exact absurd rfl hb)
        (by show 256 + (k.val - 256) = k.val; omega)

/-- The logits' block: the joined block against the classifier's matrix, the class bias laid along every row. -/
def logits (jn : FVec Ideal S2000x384 .f32) (wl : Vec Ideal S384x47 .f32) (bl : Vec Ideal S1x47 .f32) :
    FVec Ideal S2000x47 .f32 :=
  addf
    (matmul dot_S2000x384_S384x47_S2000x47_1_0_0_1_n_n none
      (truncf .bf16 jn bitsLt_bf16_f32)
      (truncf .bf16 (shapeCast S384x47 wl shapeCasts_S384x47_S384x47) bitsLt_bf16_f32)
      (constant S2000x47 .f32 0x00000000#32))
    (broadcastTo S2000x47 (shapeCast S1x47 bl shapeCasts_S1x47_S1x47) broadcasts_S1x47_S2000x47)

/-- Row `r`, class `q` of the logits: the joined row against column `q`, plus the class's bias. -/
theorem logits_apply (jn : FVec Ideal S2000x384 .f32) (wl : Vec Ideal S384x47 .f32) (bl : Vec Ideal S1x47 .f32)
    (r : Fin 2000) (q : Fin 47) :
    logits jn wl bl (ix2 r q) = (∑ k : Fin 384, jn (ix2 r k) * wl (ix2 k q)) + bl (ix2 (0 : Fin 1) q) := by
  unfold logits
  simp only [shapeCast_self, Cert.OpenLists.truncf_id]
  refine congrArg₂ (· + ·) ?_ ?_
  · exact Cert.DenseRows.matmul_zero_plain_apply (φ₁ := .f32) (φ₂ := .f32) dot_S2000x384_S384x47_S2000x47_1_0_0_1_n_n rfl rfl rfl rfl
      dotHead_l0 dotHead_r1 jn wl r q
  · exact broadcastTo_1b_ab_apply bl broadcasts_S1x47_S2000x47 r q

/-- A block of logits less each row's largest entry (the largest entry taken along the row, kept as a column, laid back
    over the row). -/
def centred (l : FVec Ideal S2000x47 .f32) : FVec Ideal S2000x47 .f32 :=
  subf l
    (broadcastTo S2000x47
      (shapeCast S2000x1
        (multiReduction .maximumf [1] S2000 l 0xFF800000#32 reduces_S2000x47_S2000 (.inl rfl) rfl)
        shapeCasts_S2000_S2000x1)
      broadcasts_S2000x1_S2000x47)

/-- Row `r`, class `q` of the centred block: the entry less the row's maximum. -/
theorem centred_apply (l : FVec Ideal S2000x47 .f32) (r : Fin 2000) (q : Fin 47) :
    centred l (ix2 r q) = l (ix2 r q) - rowMax (fun k : Fin 47 => l (ix2 r k)) := by
  unfold centred
  refine congrArg (l (ix2 r q) - ·) ?_
  refine (Cert.ColumnLayout.broadcastTo_a1_ab_apply _ broadcasts_S2000x1_S2000x47 r q).trans ?_
  refine (Cert.ColumnLayout.shapeCast_a_a1_apply _ shapeCasts_S2000_S2000x1 r (0 : Fin 1)).trans ?_
  refine (Ideal.multiReduction_maximumf_single l 0xFF800000#32 reduces_S2000x47_S2000 (.inl rfl) rfl (ix1 r)).trans ?_
  exact congrArg (fun f : Fin 47 → EReal => Finset.fold max (Ideal.ofBits .f32 0xFF800000#32) f Finset.univ)
    (funext fun k : Fin 47 => congrArg l (Cert.RowLift.lift_row reduces_S2000x47_S2000 r k))

/-- The stored block at row `r`, class `q`: the centred entry less the logarithm of the row's sum of exponentials. -/
theorem pay1_apply (z e : FVec Ideal S2000x47 .f32) (r : Fin 2000) (q : Fin 47) :
    k2_pay1 z e (ix2 r q) = z (ix2 r q) - Ideal.log (∑ k : Fin 47, e (ix2 r k)) := by
  unfold k2_pay1
  refine congrArg (z (ix2 r q) - ·) ?_
  refine (Cert.ColumnLayout.broadcastTo_a1_ab_apply _ broadcasts_S2000x1_S2000x47 r q).trans ?_
  refine congrArg Ideal.log ?_
  refine (Cert.ColumnLayout.shapeCast_a_a1_apply _ shapeCasts_S2000_S2000x1 r (0 : Fin 1)).trans ?_
  exact Cert.DenseRows.laneSum_apply e reduces_S2000x47_S2000 (.inl rfl) rfl
    (Cert.RowLift.lift_row reduces_S2000x47_S2000) r

/-- The body's first value is the centred logits of the joined block (the loaded blocks of the first two layers pass
    through a cast to their own shape). -/
theorem pay2_eq (a x2 : Vec Ideal S2000x128 .f32) (wr wo : Vec Ideal S128x128 .f32) (b3 : Vec Ideal S1x128 .f32)
    (x1 : Vec Ideal S2000x128 .f32) (wl : Vec Ideal S384x47 .f32) (bl : Vec Ideal S1x47 .f32) :
    k2_pay2 a x2 wr wo b3 x1 wl bl =
      centred (logits (joined (shapeCast S2000x128 x1 shapeCasts_S2000x128_S2000x128)
        (shapeCast S2000x128 x2 shapeCasts_S2000x128_S2000x128) (layer3 a x2 wr wo b3)) wl bl) := rfl

/-- Row `r`, class `q` of the logits of the joined block is the specification's logit of the three rows. -/
theorem logits_joined_apply (a x2 : Vec Ideal S2000x128 .f32) (wr wo : Vec Ideal S128x128 .f32) (b3 : Vec Ideal S1x128 .f32)
    (x1 : Vec Ideal S2000x128 .f32) (wl : Vec Ideal S384x47 .f32) (bl : Vec Ideal S1x47 .f32) (r : Fin 2000) (q : Fin 47) :
    logits (joined x1 x2 (layer3 a x2 wr wo b3)) wl bl (ix2 r q) =
      logitRow (fun k : Fin 128 => x1 (ix2 r k)) (fun k : Fin 128 => x2 (ix2 r k))
        (denseRow (fun k : Fin 128 => a (ix2 r k)) (fun k : Fin 128 => x2 (ix2 r k)) wr wo
          (fun j : Fin 128 => b3 (ix2 (0 : Fin 1) j)))
        wl (fun j : Fin 47 => bl (ix2 (0 : Fin 1) j)) q := by
  refine (logits_apply _ wl bl r q).trans ?_
  unfold logitRow
  refine congrArg (· + bl (ix2 (0 : Fin 1) q)) (Finset.sum_congr rfl fun k _ => congrArg (· * wl (ix2 k q)) ?_)
  refine (joined_apply x1 x2 _ r k).trans ?_
  exact congrArg (fun w : Fin 128 → EReal => cat3 (fun c : Fin 128 => x1 (ix2 r c)) (fun c : Fin 128 => x2 (ix2 r c)) w k)
    (funext fun c : Fin 128 => layer3_apply a x2 wr wo b3 r c)

/-- Row `r`, class `q` of the body's first value: the logit less the row's largest logit. -/
theorem pay2_apply (a x2 : Vec Ideal S2000x128 .f32) (wr wo : Vec Ideal S128x128 .f32) (b3 : Vec Ideal S1x128 .f32)
    (x1 : Vec Ideal S2000x128 .f32) (wl : Vec Ideal S384x47 .f32) (bl : Vec Ideal S1x47 .f32) (r : Fin 2000) (q : Fin 47) :
    k2_pay2 a x2 wr wo b3 x1 wl bl (ix2 r q) =
      logitRow (fun k : Fin 128 => x1 (ix2 r k)) (fun k : Fin 128 => x2 (ix2 r k))
          (denseRow (fun k : Fin 128 => a (ix2 r k)) (fun k : Fin 128 => x2 (ix2 r k)) wr wo
            (fun j : Fin 128 => b3 (ix2 (0 : Fin 1) j)))
          wl (fun j : Fin 47 => bl (ix2 (0 : Fin 1) j)) q
        - rowMax (logitRow (fun k : Fin 128 => x1 (ix2 r k)) (fun k : Fin 128 => x2 (ix2 r k))
          (denseRow (fun k : Fin 128 => a (ix2 r k)) (fun k : Fin 128 => x2 (ix2 r k)) wr wo
            (fun j : Fin 128 => b3 (ix2 (0 : Fin 1) j)))
          wl (fun j : Fin 47 => bl (ix2 (0 : Fin 1) j))) := by
  rw [pay2_eq, shapeCast_self, shapeCast_self]
  refine (centred_apply _ r q).trans ?_
  exact congrArg₂ (· - ·) (logits_joined_apply a x2 wr wo b3 x1 wl bl r q)
    (congrArg rowMax (funext fun k : Fin 47 => logits_joined_apply a x2 wr wo b3 x1 wl bl r k))

/-- THE STORED BLOCK at row `r`, class `q` is the specification's last stage of the loaded rows. -/
theorem body_apply (a x2 : Vec Ideal S2000x128 .f32) (wr wo : Vec Ideal S128x128 .f32) (b3 : Vec Ideal S1x128 .f32)
    (x1 : Vec Ideal S2000x128 .f32) (wl : Vec Ideal S384x47 .f32) (bl : Vec Ideal S1x47 .f32) (r : Fin 2000) (q : Fin 47) :
    k2_pay1 (k2_pay2 a x2 wr wo b3 x1 wl bl) (k2_pay3 a x2 wr wo b3 x1 wl bl) (ix2 r q) =
      headRow (fun k : Fin 128 => a (ix2 r k)) (fun k : Fin 128 => x1 (ix2 r k)) (fun k : Fin 128 => x2 (ix2 r k)) wr wo
        (fun j : Fin 128 => b3 (ix2 (0 : Fin 1) j)) wl (fun j : Fin 47 => bl (ix2 (0 : Fin 1) j)) q := by
  refine (pay1_apply _ _ r q).trans ?_
  unfold headRow logSoftmaxRow
  refine congrArg₂ (· - ·) (pay2_apply a x2 wr wo b3 x1 wl bl r q)
    (congrArg Ideal.log (Finset.sum_congr rfl fun k _ => ?_))
  exact congrArg Ideal.exp (pay2_apply a x2 wr wo b3 x1 wl bl r k)

/-! ## From the blocks to the array -/

/-- The offsets of a whole-buffer rectangle are zero. -/
theorem zeroOffsets : (![0, 0] : Fin 2 → Nat) = fun _ => 0 := funext fun a => by fin_cases a <;> rfl

/-- The last stage for node `p`, class `q`, from the arrays as the region finds them. -/
def headAt (c : Dev nD) (p : Fin 100000) (q : Fin 47) : EReal :=
  headRow (fun k : Fin 128 => V c main_v55 (ix2 p k)) (fun k : Fin 128 => V c main_v28 (ix2 p k))
    (fun k : Fin 128 => V c main_v42 (ix2 p k)) (V c main_v10) (V c main_v11)
    (fun j : Fin 128 => V c main_v12 (ix2 (0 : Fin 1) j)) (V c main_v13) (fun j : Fin 47 => V c main_v14 (ix2 (0 : Fin 1) j)) q

/-- The same as one function of the result array's index. -/
def headArr (c : Dev nD) : S100000x47.Idx → EReal :=
  fun i => headAt V c ⟨(i 0).val, idx2_lt0 i⟩ ⟨(i 1).val, idx2_lt1 i⟩

/-- … read at an index whose coordinates are `p` and `q`. -/
theorem headArr_apply (c : Dev nD) (i : S100000x47.Idx) (p : Fin 100000) (q : Fin 47) (hp : (i 0).val = p.val)
    (hq : (i 1).val = q.val) : headArr V c i = headAt V c p q := by
  unfold headArr
  exact congrArg₂ (headAt V c) (Fin.ext hp) (Fin.ext hq)

/-- What the body leaves in the output's staging buffer, at row `r` and class `q`, from the loaded blocks. -/
theorem out_apply (x0 x1 x2 : Vec Ideal S2000x128 .f32) (x3 x4 : Vec Ideal S128x128 .f32) (x5 : Vec Ideal S1x128 .f32)
    (x6 : Vec Ideal S384x47 .f32) (x7 : Vec Ideal S1x47 .f32) (y : S2000x47.Idx) (r : Fin 2000) (q : Fin 47)
    (hr : (y 0).val = r.val) (hq : (y 1).val = q.val) :
    out2_8 x0 x1 x2 x3 x4 x5 x6 x7 y =
      headRow (fun k : Fin 128 => x0 (ix2 r k)) (fun k : Fin 128 => x1 (ix2 r k)) (fun k : Fin 128 => x2 (ix2 r k)) x3 x4
        (fun j : Fin 128 => x5 (ix2 (0 : Fin 1) j)) x6 (fun j : Fin 47 => x7 (ix2 (0 : Fin 1) j)) q := by
  obtain rfl : y = ix2 r q := funext fun a => Fin.ext (by
    match a with
    | ⟨0, _⟩ => exact hr
    | ⟨1, _⟩ => exact hq)
  unfold out2_8
  rw [View.canon_unit_zero zeroOffsets]
  simp only [View.ld_unit_zero (S := S2000x128) zeroOffsets, View.ld_unit_zero (S := S128x128) zeroOffsets,
    View.ld_unit_zero (S := S1x128) zeroOffsets, View.ld_unit_zero (S := S384x47) zeroOffsets,
    View.ld_unit_zero (S := S1x47) zeroOffsets]
  exact body_apply x0 x2 x3 x4 x5 x1 x6 x7 r q

/-- The printed index maps, decided over the grid: the three row-blocked inputs and the output sit at block `(t, 0)`, the
    weights and biases at block `(0, 0)`. -/
theorem index_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = 0 ∧ win2_6.index t (1 : Fin 2) = 0
    ∧ win2_7.index t (0 : Fin 2) = 0 ∧ win2_7.index t (1 : Fin 2) = 0
    ∧ win2_8.index t (0 : Fin 2) = t.val ∧ win2_8.index t (1 : Fin 2) = 0 :=
  (by decide +kernel : ∀ t : Fin grid2.N, _)

/-- The aggregated rows' block at point `t` holds rows `2000 t …` of its array. -/
theorem aggBlock_apply (c : Dev nD) (t : Fin cfg2.N) (r : Fin 2000) (k : Fin 128) (p : Fin 100000)
    (hp : p.val = t.val * 2000 + r.val) :
    (iblk2 V c 0 t : Vec Ideal S2000x128 .f32) (ix2 r k) = V c main_v55 (ix2 p k) := by
  obtain ⟨e0, e1, -⟩ := index_facts t
  unfold iblk2
  show V c main_v55 (((cfg2.win 0).blk t).view.emb (ix2 r k)) = V c main_v55 (ix2 p k)
  refine congrArg (V c main_v55) (funext fun a => Fin.ext ?_)
  match a with
  | ⟨0, _⟩ => show win2_0.index t (0 : Fin 2) * 2000 + 1 * r.val = p.val; omega
  | ⟨1, _⟩ => show win2_0.index t (1 : Fin 2) * 128 + 1 * k.val = k.val; omega

/-- The first layer's block at point `t` holds rows `2000 t …` of its array. -/
theorem firstBlock_apply (c : Dev nD) (t : Fin cfg2.N) (r : Fin 2000) (k : Fin 128) (p : Fin 100000)
    (hp : p.val = t.val * 2000 + r.val) :
    (iblk2 V c 1 t : Vec Ideal S2000x128 .f32) (ix2 r k) = V c main_v28 (ix2 p k) := by
  obtain ⟨-, -, e0, e1, -⟩ := index_facts t
  unfold iblk2
  show V c main_v28 (((cfg2.win 1).blk t).view.emb (ix2 r k)) = V c main_v28 (ix2 p k)
  refine congrArg (V c main_v28) (funext fun a => Fin.ext ?_)
  match a with
  | ⟨0, _⟩ => show win2_1.index t (0 : Fin 2) * 2000 + 1 * r.val = p.val; omega
  | ⟨1, _⟩ => show win2_1.index t (1 : Fin 2) * 128 + 1 * k.val = k.val; omega

/-- The second layer's block at point `t` holds rows `2000 t …` of its array. -/
theorem secondBlock_apply (c : Dev nD) (t : Fin cfg2.N) (r : Fin 2000) (k : Fin 128) (p : Fin 100000)
    (hp : p.val = t.val * 2000 + r.val) :
    (iblk2 V c 2 t : Vec Ideal S2000x128 .f32) (ix2 r k) = V c main_v42 (ix2 p k) := by
  obtain ⟨-, -, -, -, e0, e1, -⟩ := index_facts t
  unfold iblk2
  show V c main_v42 (((cfg2.win 2).blk t).view.emb (ix2 r k)) = V c main_v42 (ix2 p k)
  refine congrArg (V c main_v42) (funext fun a => Fin.ext ?_)
  match a with
  | ⟨0, _⟩ => show win2_2.index t (0 : Fin 2) * 2000 + 1 * r.val = p.val; omega
  | ⟨1, _⟩ => show win2_2.index t (1 : Fin 2) * 128 + 1 * k.val = k.val; omega

/-- The weights and biases are whole arrays: their block at every point is the array. -/
theorem wrBlock_eq (c : Dev nD) (t : Fin cfg2.N) : (iblk2 V c 3 t : Vec Ideal S128x128 .f32) = V c main_v10 := by
  obtain ⟨-, -, -, -, -, -, e0, e1, -⟩ := index_facts t
  funext y
  unfold iblk2
  show V c main_v10 (((cfg2.win 3).blk t).view.emb y) = V c main_v10 y
  refine congrArg (V c main_v10) (funext fun a => Fin.ext ?_)
  match a with
  | ⟨0, _⟩ => show win2_3.index t (0 : Fin 2) * 128 + 1 * (y 0).val = (y 0).val; omega
  | ⟨1, _⟩ => show win2_3.index t (1 : Fin 2) * 128 + 1 * (y 1).val = (y 1).val; omega

theorem woBlock_eq (c : Dev nD) (t : Fin cfg2.N) : (iblk2 V c 4 t : Vec Ideal S128x128 .f32) = V c main_v11 := by
  obtain ⟨-, -, -, -, -, -, -, -, e0, e1, -⟩ := index_facts t
  funext y
  unfold iblk2
  show V c main_v11 (((cfg2.win 4).blk t).view.emb y) = V c main_v11 y
  refine congrArg (V c main_v11) (funext fun a => Fin.ext ?_)
  match a with
  | ⟨0, _⟩ => show win2_4.index t (0 : Fin 2) * 128 + 1 * (y 0).val = (y 0).val; omega
  | ⟨1, _⟩ => show win2_4.index t (1 : Fin 2) * 128 + 1 * (y 1).val = (y 1).val; omega

theorem b3Block_eq (c : Dev nD) (t : Fin cfg2.N) : (iblk2 V c 5 t : Vec Ideal S1x128 .f32) = V c main_v12 := by
  obtain ⟨-, -, -, -, -, -, -, -, -, -, e0, e1, -⟩ := index_facts t
  funext y
  unfold iblk2
  show V c main_v12 (((cfg2.win 5).blk t).view.emb y) = V c main_v12 y
  refine congrArg (V c main_v12) (funext fun a => Fin.ext ?_)
  match a with
  | ⟨0, _⟩ => show win2_5.index t (0 : Fin 2) * 1 + 1 * (y 0).val = (y 0).val; omega
  | ⟨1, _⟩ => show win2_5.index t (1 : Fin 2) * 128 + 1 * (y 1).val = (y 1).val; omega

theorem wlBlock_eq (c : Dev nD) (t : Fin cfg2.N) : (iblk2 V c 6 t : Vec Ideal S384x47 .f32) = V c main_v13 := by
  obtain ⟨-, -, -, -, -, -, -, -, -, -, -, -, e0, e1, -⟩ := index_facts t
  funext y
  unfold iblk2
  show V c main_v13 (((cfg2.win 6).blk t).view.emb y) = V c main_v13 y
  refine congrArg (V c main_v13) (funext fun a => Fin.ext ?_)
  match a with
  | ⟨0, _⟩ => show win2_6.index t (0 : Fin 2) * 384 + 1 * (y 0).val = (y 0).val; omega
  | ⟨1, _⟩ => show win2_6.index t (1 : Fin 2) * 47 + 1 * (y 1).val = (y 1).val; omega

theorem blBlock_eq (c : Dev nD) (t : Fin cfg2.N) : (iblk2 V c 7 t : Vec Ideal S1x47 .f32) = V c main_v14 := by
  obtain ⟨-, -, -, -, -, -, -, -, -, -, -, -, -, -, e0, e1, -⟩ := index_facts t
  funext y
  unfold iblk2
  show V c main_v14 (((cfg2.win 7).blk t).view.emb y) = V c main_v14 y
  refine congrArg (V c main_v14) (funext fun a => Fin.ext ?_)
  match a with
  | ⟨0, _⟩ => show win2_7.index t (0 : Fin 2) * 1 + 1 * (y 0).val = (y 0).val; omega
  | ⟨1, _⟩ => show win2_7.index t (1 : Fin 2) * 47 + 1 * (y 1).val = (y 1).val; omega

/-- WHAT POINT `t` WRITES BACK is rows `2000 t … 2000 t + 1999` of the last stage of the arrays as the region finds them. -/
theorem flushed_eq (c : Dev nD) (t : Fin cfg2.N) :
    (dat2 (F := Ideal) V c).flushed 8 t = ((cfg2.win 8).blk t).view.read (Elt Ideal) (headArr V c) := by
  show (cfg2.win 8).cut (grid2.coords t) ((dat2 (F := Ideal) V c).after 8 t) = _
  rw [after2_8]
  obtain ⟨-, -, -, -, -, -, -, -, -, -, -, -, -, -, -, -, e0, e1⟩ := index_facts t
  have hN : t.val < 50 := lt_of_lt_of_eq t.isLt N_2
  funext j
  have hj0 : (j 0).val < 2000 := (j 0).isLt
  have hj1 : (j 1).val < 47 := (j 1).isLt
  show out2_8 (iblk2 V c 0 t) (iblk2 V c 1 t) (iblk2 V c 2 t) (iblk2 V c 3 t) (iblk2 V c 4 t) (iblk2 V c 5 t) (iblk2 V c 6 t)
      (iblk2 V c 7 t) j = headArr V c (((cfg2.win 8).blk t).view.emb j)
  refine (out_apply (iblk2 V c 0 t) (iblk2 V c 1 t) (iblk2 V c 2 t) (iblk2 V c 3 t) (iblk2 V c 4 t) (iblk2 V c 5 t)
    (iblk2 V c 6 t) (iblk2 V c 7 t) j ⟨(j 0).val, hj0⟩ ⟨(j 1).val, hj1⟩ rfl rfl).trans ?_
  refine Eq.trans ?_ (headArr_apply V c (((cfg2.win 8).blk t).view.emb j) ⟨t.val * 2000 + (j 0).val, by omega⟩
    ⟨(j 1).val, hj1⟩ ?_ ?_).symm
  · unfold headAt
    rw [wrBlock_eq, woBlock_eq, b3Block_eq, wlBlock_eq, blBlock_eq]
    rw [show (fun k : Fin 128 => (iblk2 V c 0 t : Vec Ideal S2000x128 .f32) (ix2 (⟨(j 0).val, hj0⟩ : Fin 2000) k))
        = fun k : Fin 128 => V c main_v55 (ix2 (⟨t.val * 2000 + (j 0).val, by omega⟩ : Fin 100000) k) from
      funext fun k => aggBlock_apply V c t _ k _ rfl,
      show (fun k : Fin 128 => (iblk2 V c 1 t : Vec Ideal S2000x128 .f32) (ix2 (⟨(j 0).val, hj0⟩ : Fin 2000) k))
        = fun k : Fin 128 => V c main_v28 (ix2 (⟨t.val * 2000 + (j 0).val, by omega⟩ : Fin 100000) k) from
      funext fun k => firstBlock_apply V c t _ k _ rfl,
      show (fun k : Fin 128 => (iblk2 V c 2 t : Vec Ideal S2000x128 .f32) (ix2 (⟨(j 0).val, hj0⟩ : Fin 2000) k))
        = fun k : Fin 128 => V c main_v42 (ix2 (⟨t.val * 2000 + (j 0).val, by omega⟩ : Fin 100000) k) from
      funext fun k => secondBlock_apply V c t _ k _ rfl]
  · show win2_8.index t (0 : Fin 2) * 2000 + 1 * (j 0).val = t.val * 2000 + (j 0).val
    omega
  · show win2_8.index t (1 : Fin 2) * 47 + 1 * (j 1).val = (j 1).val
    omega

/-- An index of the result array is in point `t`'s block iff each coordinate is in the block's range on its axis. -/
theorem mem_block (t : Fin cfg2.N) (i : S100000x47.Idx) :
    i ∈ ((cfg2.win 8).blk t).view.set ↔
      ∀ a : Fin 2, win2_8.index t a * S2000x47.size a ≤ (i a).val ∧ (i a).val < win2_8.index t a * S2000x47.size a + S2000x47.size a := by
  show i ∈ ((View.whole main_v56).slice (win2_8.rect t)).set ↔ _
  rw [View.set_slice_whole, Rect.mem_set_unit]
  exact Iff.rfl

/-- Every row `r` of the result array lies in the block of point `r / 2000`. -/
theorem covered (i : S100000x47.Idx) :
    ∃ t : Fin cfg2.N, (cfg2.win 8).flush t = true ∧ i ∈ ((cfg2.win 8).blk t).view.set := by
  have hi0 : (i 0).val < 100000 := (i 0).isLt
  have hi1 : (i 1).val < 47 := (i 1).isLt
  have hN : cfg2.N = 50 := N_2
  have ht : (i 0).val / 2000 < cfg2.N := by rw [hN]; omega
  obtain ⟨-, -, -, -, -, -, -, -, -, -, -, -, -, -, -, -, e0, e1⟩ := index_facts ⟨(i 0).val / 2000, ht⟩
  refine ⟨⟨(i 0).val / 2000, ht⟩, flush2_8 _, ?_⟩
  rw [mem_block]
  intro a
  match a with
  | ⟨0, _⟩ =>
    show win2_8.index ⟨(i 0).val / 2000, ht⟩ (0 : Fin 2) * 2000 ≤ (i 0).val
      ∧ (i 0).val < win2_8.index ⟨(i 0).val / 2000, ht⟩ (0 : Fin 2) * 2000 + 2000
    rw [e0]
    show (i 0).val / 2000 * 2000 ≤ (i 0).val ∧ (i 0).val < (i 0).val / 2000 * 2000 + 2000
    omega
  | ⟨1, _⟩ =>
    show win2_8.index ⟨(i 0).val / 2000, ht⟩ (1 : Fin 2) * 47 ≤ (i 1).val
      ∧ (i 1).val < win2_8.index ⟨(i 0).val / 2000, ht⟩ (1 : Fin 2) * 47 + 47
    rw [e1]
    omega

/-- THE RESULT ARRAY after the region is the last stage of the arrays as the region finds them, node by node. -/
theorem final2 (c : Dev nD) : (dat2 (F := Ideal) V c).arrAt 8 cfg2.N = headArr V c :=
  (dat2 (F := Ideal) V c).arrAt_eq_of_cover 8 (headArr V c) (fun t _ => flushed_eq V c t) covered

theorem final2_apply (c : Dev nD) (p : Fin 100000) (q : Fin 47) :
    (dat2 (F := Ideal) V c).arrAt 8 cfg2.N (ix2 p q) =
      headRow (fun k : Fin 128 => V c main_v55 (ix2 p k)) (fun k : Fin 128 => V c main_v28 (ix2 p k))
        (fun k : Fin 128 => V c main_v42 (ix2 p k)) (V c main_v10) (V c main_v11)
        (fun j : Fin 128 => V c main_v12 (ix2 (0 : Fin 1) j)) (V c main_v13) (fun j : Fin 47 => V c main_v14 (ix2 (0 : Fin 1) j)) q :=
  (congrFun (final2 V c) (ix2 p q)).trans (headArr_apply V c (ix2 p q) p q rfl rfl)

end Cert.KernelIdeal.Head

end
-- ==== Proof.KernelValue.lean ====
/-
  The three regions' outputs as functions of the launch arrays. Each region's output array is, row by row, the layer's
  row function of the rows of the arrays the region finds in its windows; what it finds there is, by the fold through the
  earlier segments, the aggregation of the previous layer's output, that output itself, and the transposed weights and
  biases the first stretch computed. Chained: the first layer from the input features, the second from the first, and the
  last stage — third layer, join, logits, logarithmic softmax — from the first two.
-/
import proofs.«172433_j15625091023093_1_alg».proof.Proof.Fold
import proofs.«172433_j15625091023093_1_alg».proof.Proof.Layers
import proofs.«172433_j15625091023093_1_alg».proof.Proof.Head
import proofs.«172433_j15625091023093_1_alg».proof.Proof.Spec
import Idealize.ShloMosaic.Lib.ValueIdx

noncomputable section

namespace Cert.KernelIdeal.KernelValue

open Cert.KernelIdeal Cert.KernelIdeal.Gen Cert.KernelIdeal.GenP Cert.KernelIdeal.Fold Cert.GraphNet
open Idealize.ShloMosaic Idealize.ShloMosaic.TcCoe Idealize.ShloMosaic.ValueIdx Idealize.SL.Sem

variable (m : (ℓ : Loc nD τ sig) → Buf (Elt Ideal) ℓ) (ρ : Dev nD → PrngReg) (c : Dev nD)

/-- The first layer's output, where the first region leaves it: row `p` is the layer's row function of row `p` of the
    aggregated input features and row `p` of the input features. -/
theorem x1_apply (p : Fin 100000) (q : Fin 128) :
    (W2 m ρ c (Proc.devRef .tc main_v28)) (ix2 p q) =
      denseRow (fun k : Fin 100 => Cert.ReferenceIdeal.HostNet.agg100 (m ((c : Thread nD τ).loc main_arg0)) (m ((c : Thread nD τ).loc main_arg1)) (m ((c : Thread nD τ).loc main_arg2)) (ix2 p k))
        (fun k : Fin 100 => (m ((c : Thread nD τ).loc main_arg0)) (ix2 p k))
        (transpose S100x128 [1, 0] (m ((c : Thread nD τ).loc main_arg3)) transposes_S128x100_S100x128_1_0)
        (transpose S100x128 [1, 0] (m ((c : Thread nD τ).loc main_arg4)) transposes_S128x100_S100x128_1_0)
        (fun j : Fin 128 => shapeCast S1x128 (m ((c : Thread nD τ).loc main_arg5)) shapeCasts_S128_S1x128 (ix2 (0 : Fin 1) j)) q := by
  refine (congrFun (W2_arr m ρ c 5) (ix2 p q)).trans ?_
  refine (Cert.KernelIdeal.Layers.final0_apply (V1 m ρ) c p q).trans ?_
  rw [e1_agg m ρ c, e1_x m ρ c, e1_wr m ρ c, e1_wo m ρ c, e1_b m ρ c]

/-- The second layer's output, where the second region leaves it, from the first layer's. -/
theorem x2_apply (p : Fin 100000) (q : Fin 128) :
    (W4 m ρ c (Proc.devRef .tc main_v42)) (ix2 p q) =
      denseRow (fun k : Fin 128 => Cert.ReferenceIdeal.HostNet.agg128 (W2 m ρ c (Proc.devRef .tc main_v28)) (m ((c : Thread nD τ).loc main_arg1)) (m ((c : Thread nD τ).loc main_arg2)) (ix2 p k))
        (fun k : Fin 128 => (W2 m ρ c (Proc.devRef .tc main_v28)) (ix2 p k))
        (transpose S128x128 [1, 0] (m ((c : Thread nD τ).loc main_arg6)) transposes_S128x128_S128x128_1_0) (transpose S128x128 [1, 0] (m ((c : Thread nD τ).loc main_arg7)) transposes_S128x128_S128x128_1_0)
        (fun j : Fin 128 => (shapeCast S1x128 (m ((c : Thread nD τ).loc main_arg8)) shapeCasts_S128_S1x128) (ix2 (0 : Fin 1) j)) q := by
  refine (congrFun (W4_arr m ρ c 5) (ix2 p q)).trans ?_
  refine (Cert.KernelIdeal.Layers.final1_apply (V3 m ρ) c p q).trans ?_
  rw [e3_agg m ρ c, e3_x m ρ c, e3_wr m ρ c, e3_wo m ρ c, e3_b m ρ c]

/-- The program's result, where the third region leaves it, from the first two layers' outputs. -/
theorem out_apply (p : Fin 100000) (q : Fin 47) :
    W6 m ρ c (Proc.devRef .tc main_v56) (ix2 p q) =
      headRow (fun k : Fin 128 => Cert.ReferenceIdeal.HostNet.agg128 (W4 m ρ c (Proc.devRef .tc main_v42)) (m ((c : Thread nD τ).loc main_arg1)) (m ((c : Thread nD τ).loc main_arg2)) (ix2 p k))
        (fun k : Fin 128 => (W2 m ρ c (Proc.devRef .tc main_v28)) (ix2 p k)) (fun k : Fin 128 => (W4 m ρ c (Proc.devRef .tc main_v42)) (ix2 p k))
        (transpose S128x128 [1, 0] (m ((c : Thread nD τ).loc main_arg9)) transposes_S128x128_S128x128_1_0) (transpose S128x128 [1, 0] (m ((c : Thread nD τ).loc main_arg10)) transposes_S128x128_S128x128_1_0)
        (fun j : Fin 128 => (shapeCast S1x128 (m ((c : Thread nD τ).loc main_arg11)) shapeCasts_S128_S1x128) (ix2 (0 : Fin 1) j))
        (transpose S384x47 [1, 0] (m ((c : Thread nD τ).loc main_arg12)) transposes_S47x384_S384x47_1_0) (fun j : Fin 47 => (shapeCast S1x47 (m ((c : Thread nD τ).loc main_arg13)) shapeCasts_S47_S1x47) (ix2 (0 : Fin 1) j)) q := by
  refine (congrFun (W6_arr m ρ c 8) (ix2 p q)).trans ?_
  refine (Cert.KernelIdeal.Head.final2_apply (V5 m ρ) c p q).trans ?_
  rw [e5_agg m ρ c, e5_x1 m ρ c, e5_x2 m ρ c, e5_wr m ρ c, e5_wo m ρ c, e5_b m ρ c, e5_wl m ρ c, e5_bl m ρ c]

end Cert.KernelIdeal.KernelValue

end
-- ==== Proof.HostSide.lean ====
/-
  The reference's whole-array stages, read one entry at a time, are the row functions of the specification.

  A layer's entry `(p, q)` needs only row `p` of its two operands: each of the two matrix products is, at `(p, q)`, the
  inner product of row `p` with column `q` of the weights; the bias vector laid along every row contributes its entry
  `q`; and the rectifier is the maximum with an array that holds the zero word everywhere. Together that is `denseRow` of
  the two rows.

  The classifier's entry `(p, q)` needs only row `p` of the three layers' outputs. Joining three blocks of 128 columns
  side by side gives, at column `k`, the first block's column `k` when `k < 128`, the second block's column `k - 128` when
  `128 ≤ k < 256`, and the third block's column `k - 256` otherwise: the row `cat3`. One more inner product and the class
  bias give `logitRow`. The logarithmic softmax then works along each row: the maximum of the row is the fold of `max`
  from minus infinity over its 47 entries (taking the maximum with minus infinity once more changes nothing, minus infinity
  being neutral for `max`); laid out as a column and repeated over the 47 columns it is subtracted from every entry; the
  exponentials of the differences are summed along the row from the zero word, which adds nothing; and the logarithm of
  that sum, laid out the same way, is subtracted again. That is `logSoftmaxRow` of the row of logits.
-/
import proofs.«172433_j15625091023093_1_alg».proof.Proof.HostDefs
import proofs.«172433_j15625091023093_1_alg».proof.Proof.Spec
import proofs.«172433_j15625091023093_1_alg».proof.Proof.LibDenseRows
import proofs.«172433_j15625091023093_1_alg».proof.Proof.LibRowLift
import Idealize.ShloMosaic.Lib.ValueIdx
import Idealize.ShloMosaic.Lib.ValueLayout
import Idealize.ShloMosaic.Lib.Pipeline.Value
import Idealize.ShloMosaic.PureOps.Ideal.Laws

noncomputable section

namespace Cert.ReferenceIdeal.HostNet

open Cert.ReferenceIdeal Cert.ReferenceIdeal.Gen Cert.GraphNet
open Idealize.ShloMosaic Idealize.ShloMosaic.TcCoe Idealize.ShloMosaic.ValueIdx
open scoped BigOperators

/-- The zero word splat over a whole array reads, everywhere, the value of the zero word. -/
theorem zeroSplat_apply {T : Shape} (h : S_.BroadcastsInDim T ![]) (j : T.Idx) :
    broadcastInDim T ![] h (constant (F := Ideal) S_ .f32 0x00000000#32) j = zeroW :=
  broadcastInDim_scalar_apply h _ j

theorem layer100_apply (a x : FVec Ideal S100000x100 .f32) (wr wo : FVec Ideal S100x128 .f32) (b : FVec Ideal S128 .f32)
    (p : Fin 100000) (q : Fin 128) :
    layer100 a x wr wo b (ix2 p q) =
      denseRow (fun k : Fin 100 => a (ix2 p k)) (fun k : Fin 100 => x (ix2 p k)) wr wo (fun j : Fin 128 => b (ix1 j)) q := by
  unfold layer100 denseRow
  rw [maximumf_apply, addf_apply, addf_apply, zeroSplat_apply,
    Cert.DenseRows.dotGeneral_plain_apply dot_S100000x100_S100x128_S100000x128_1_0_0_1_n_n rfl rfl rfl rfl
      (fun _ _ => rfl) (fun _ _ => rfl) a wr p q,
    Cert.DenseRows.dotGeneral_plain_apply dot_S100000x100_S100x128_S100000x128_1_0_0_1_n_n rfl rfl rfl rfl
      (fun _ _ => rfl) (fun _ _ => rfl) x wo p q,
    Cert.DenseRows.rowBias_inDim_apply b bcast_S128_S1x128_1 bcast_S1x128_S100000x128_0_1 p q]

theorem layer128_apply (a x : FVec Ideal S100000x128 .f32) (wr wo : FVec Ideal S128x128 .f32) (b : FVec Ideal S128 .f32)
    (p : Fin 100000) (q : Fin 128) :
    layer128 a x wr wo b (ix2 p q) =
      denseRow (fun k : Fin 128 => a (ix2 p k)) (fun k : Fin 128 => x (ix2 p k)) wr wo (fun j : Fin 128 => b (ix1 j)) q := by
  unfold layer128 denseRow
  rw [maximumf_apply, addf_apply, addf_apply, zeroSplat_apply,
    Cert.DenseRows.dotGeneral_plain_apply dot_S100000x128_S128x128_S100000x128_1_0_0_1_n_n rfl rfl rfl rfl
      (fun _ _ => rfl) (fun _ _ => rfl) a wr p q,
    Cert.DenseRows.dotGeneral_plain_apply dot_S100000x128_S128x128_S100000x128_1_0_0_1_n_n rfl rfl rfl rfl
      (fun _ _ => rfl) (fun _ _ => rfl) x wo p q,
    Cert.DenseRows.rowBias_inDim_apply b bcast_S128_S1x128_1 bcast_S1x128_S100000x128_0_1 p q]

/-- Minus infinity is neutral for the maximum. -/
theorem max_negInfW (y : EReal) : max negInfW y = y := by
  unfold negInfW; simp [Ideal.ofBits, Ideal.ieee]

/-- The columns of a `[100000, 47]` array are dropped by a reduction along axis 1. -/
theorem reduces47 : S100000x47.Reduces [(1 : Fin 2)] S100000 := by decide

/-- The host's maximum along the columns from minus infinity, at row `p`: the fold of `max` over that row. -/
theorem hostRowMax_apply (l : FVec Ideal S100000x47 .f32) (p : Fin 100000) :
    Host.reduce FloatOps.maximumf l (constant (F := Ideal) S_ .f32 0xFF800000#32) reducesTo_S100000x47_S100000_d1 h_S_ (ix1 p)
      = rowMax (fun j : Fin 47 => l (ix2 p j)) := by
  refine (Host.reduce_eq_fold_single FloatOps.maximumf l _ reducesTo_S100000x47_S100000_d1 reduces47 h_S_ (ix1 p)).trans ?_
  have hf : (l ∘ reduces47.lift (ix1 p)) = fun k : Fin 47 => l (ix2 p k) :=
    funext fun k => congrArg l (Cert.RowLift.lift_row reduces47 p k)
  exact congrArg (fun f => Finset.fold max negInfW f (Finset.univ : Finset (Fin 47))) hf

/-- The reference's row maximum — the maximum of a splat of minus infinity with the reduced maximum — at row `p`. -/
theorem rowMaxStage_apply (l : FVec Ideal S100000x47 .f32) (p : Fin 100000) :
    maximumf (broadcastInDim S100000 ![] bcast_S_S100000 (constant (F := Ideal) S_ .f32 0xFF800000#32))
        (Host.reduce FloatOps.maximumf l (constant (F := Ideal) S_ .f32 0xFF800000#32) reducesTo_S100000x47_S100000_d1 h_S_) (ix1 p)
      = rowMax (fun j : Fin 47 => l (ix2 p j)) := by
  rw [maximumf_apply, hostRowMax_apply, broadcastInDim_scalar_apply]
  exact max_negInfW _

/-- A vector over the rows laid out as a column and then over all 47 columns reads, at `(p, q)`, the vector at `p`. -/
theorem keepdims_apply {α : Type} (v : S100000.Idx → α) (p : Fin 100000) (q : Fin 47) :
    broadcastInDim S100000x47 ![0, 1] bcast_S100000x1_S100000x47_0_1 (broadcastInDim S100000x1 ![0] bcast_S100000_S100000x1_0 v) (ix2 p q)
      = v (ix1 p) :=
  (Cert.DenseRows.broadcastInDim_a1_ab_apply _ bcast_S100000x1_S100000x47_0_1 p q).trans
    (Cert.DenseRows.broadcastInDim_a_a1_apply v bcast_S100000_S100000x1_0 p 0)

/-- A row of logits less its maximum, as the reference lays it out, at `(p, q)`. -/
theorem shifted_apply (l : FVec Ideal S100000x47 .f32) (p : Fin 100000) (q : Fin 47) :
    subf l (broadcastInDim S100000x47 ![0, 1] bcast_S100000x1_S100000x47_0_1 (broadcastInDim S100000x1 ![0] bcast_S100000_S100000x1_0
        (maximumf (broadcastInDim S100000 ![] bcast_S_S100000 (constant (F := Ideal) S_ .f32 0xFF800000#32))
          (Host.reduce FloatOps.maximumf l (constant (F := Ideal) S_ .f32 0xFF800000#32) reducesTo_S100000x47_S100000_d1 h_S_)))) (ix2 p q)
      = l (ix2 p q) - rowMax (fun j : Fin 47 => l (ix2 p j)) :=
  (subf_apply _ _ _).trans (congrArg (l (ix2 p q) - ·) ((keepdims_apply _ p q).trans (rowMaxStage_apply l p)))

/-- The host's exponential reads, at an index, the exponential of the element there. -/
theorem hostExp_apply {s : Shape} (x : FVec Ideal s .f32) (i : s.Idx) : Host.exp x i = Ideal.exp (x i) := rfl

/-- The host's logarithm reads, at an index, the logarithm of the element there. -/
theorem hostLog_apply {s : Shape} (x : FVec Ideal s .f32) (i : s.Idx) : Host.log x i = Ideal.log (x i) := rfl

/-- The logarithm of the sum of the exponentials along each row, laid back over the 47 columns, at `(p, q)`. -/
theorem logSumExp_apply (y : FVec Ideal S100000x47 .f32) (p : Fin 100000) (q : Fin 47) :
    broadcastInDim S100000x47 ![0, 1] bcast_S100000x1_S100000x47_0_1 (Host.log (broadcastInDim S100000x1 ![0] bcast_S100000_S100000x1_0
        (Host.reduceAdd (Host.exp y) (constant (F := Ideal) S_ .f32 0x00000000#32) reducesTo_S100000x47_S100000_d1 h_S_))) (ix2 p q)
      = Ideal.log (∑ j : Fin 47, Ideal.exp (y (ix2 p j))) := by
  refine (Cert.DenseRows.broadcastInDim_a1_ab_apply _ bcast_S100000x1_S100000x47_0_1 p q).trans ?_
  refine (hostLog_apply _ _).trans (congrArg Ideal.log ?_)
  refine (Cert.DenseRows.broadcastInDim_a_a1_apply _ bcast_S100000_S100000x1_0 p 0).trans ?_
  refine (Cert.DenseRows.hostRowSum_apply _ _ reducesTo_S100000x47_S100000_d1 h_S_ reduces47
    (fun r k => Cert.RowLift.lift_row reduces47 r k) p).trans ?_
  refine (congrArg₂ (· + ·) (constant_apply _ _) (Finset.sum_congr rfl fun k _ => hostExp_apply y (ix2 p k))).trans ?_
  rw [Ideal.ofBits_zero_f32, zero_add]

/-- The host's logarithmic softmax at `(p, q)` is the row function of row `p`. -/
theorem logSoftmax_apply (l : FVec Ideal S100000x47 .f32) (p : Fin 100000) (q : Fin 47) :
    logSoftmax l (ix2 p q) = logSoftmaxRow (fun j : Fin 47 => l (ix2 p j)) q := by
  unfold logSoftmax logSoftmaxRow
  refine (subf_apply _ _ _).trans ?_
  refine congrArg₂ (· - ·) (shifted_apply l p q) ?_
  refine (logSumExp_apply _ p q).trans ?_
  exact congrArg Ideal.log (Finset.sum_congr rfl fun j _ => congrArg Ideal.exp (shifted_apply l p j))

/-- Off the column axis an index `(p, ·)` of a block and of the joined array have the same coordinate. -/
theorem offAxis (p : Fin 100000) (k : Fin 384) (c : Fin 128) (b : Fin S100000x128.rank)
    (hb : b.cast (rfl : S100000x128.rank = S100000x384.rank) ≠ (1 : Fin 2)) :
    ((ix2 p c : S100000x128.Idx) b).val = ((ix2 p k : S100000x384.Idx) (b.cast rfl)).val := by
  match b with
  | ⟨0, _⟩ => rfl
  | ⟨1, _⟩ => exact absurd rfl hb

/-- The list of the three blocks, each with its shape. -/
abbrev blocks3 (x1 x2 x3 : FVec Ideal S100000x128 .f32) : List ((s : Shape) × (s.Idx → Ideal .f32)) :=
  [⟨S100000x128, x1⟩, ⟨S100000x128, x2⟩, ⟨S100000x128, x3⟩]

/-- The three blocks joined along the columns, at `(p, k)`: the block that holds column `k`. -/
theorem cat3Stage_apply (x1 x2 x3 : FVec Ideal S100000x128 .f32) (p : Fin 100000) (k : Fin 384) :
    concatenate S100000x384 1 [⟨S100000x128, x1⟩, ⟨S100000x128, x2⟩, ⟨S100000x128, x3⟩]
        concatenates_S100000x128_S100000x128_S100000x128_S100000x384_d1 (ix2 p k)
      = cat3 (fun c : Fin 128 => x1 (ix2 p c)) (fun c : Fin 128 => x2 (ix2 p c)) (fun c : Fin 128 => x3 (ix2 p c)) k := by
  by_cases h : k.val < 128
  · rw [cat3, dif_pos h]
    exact concatenate_apply_piece (t := S100000x384) (1 : Fin 2) (blocks3 x1 x2 x3) concatenates_S100000x128_S100000x128_S100000x128_S100000x384_d1 (ix2 p k)
      0 (by show (0 : ℕ) < 3; decide) S100000x128 x1 rfl rfl 0 rfl (ix2 p ⟨k.val, h⟩) (offAxis p k _) (by show 0 + k.val = k.val; omega)
  · by_cases h' : k.val < 256
    · rw [cat3, dif_neg h, dif_pos h']
      exact concatenate_apply_piece (t := S100000x384) (1 : Fin 2) (blocks3 x1 x2 x3) concatenates_S100000x128_S100000x128_S100000x128_S100000x384_d1 (ix2 p k)
        1 (by show (1 : ℕ) < 3; decide) S100000x128 x2 rfl rfl 128 rfl (ix2 p ⟨k.val - 128, by omega⟩) (offAxis p k _)
        (by show 128 + (k.val - 128) = k.val; omega)
    · rw [cat3, dif_neg h, dif_neg h']
      exact concatenate_apply_piece (t := S100000x384) (1 : Fin 2) (blocks3 x1 x2 x3) concatenates_S100000x128_S100000x128_S100000x128_S100000x384_d1 (ix2 p k)
        2 (by show (2 : ℕ) < 3; decide) S100000x128 x3 rfl rfl 256 rfl (ix2 p ⟨k.val - 256, by have := k.isLt; omega⟩) (offAxis p k _)
        (by show 256 + (k.val - 256) = k.val; omega)

/-- The host's logits at `(p, q)`: class `q`'s logit of the joined row `p`. -/
theorem logits_apply (x1 x2 x3 : FVec Ideal S100000x128 .f32) (wl : FVec Ideal S384x47 .f32) (bl : FVec Ideal S47 .f32)
    (p : Fin 100000) (q : Fin 47) :
    logits x1 x2 x3 wl bl (ix2 p q) =
      logitRow (fun k : Fin 128 => x1 (ix2 p k)) (fun k : Fin 128 => x2 (ix2 p k)) (fun k : Fin 128 => x3 (ix2 p k)) wl
        (fun j : Fin 47 => bl (ix1 j)) q := by
  unfold logits logitRow
  refine (addf_apply _ _ _).trans ?_
  refine congrArg₂ (· + ·) ?_ (Cert.DenseRows.rowBias_inDim_apply bl bcast_S47_S1x47_1 bcast_S1x47_S100000x47_0_1 p q)
  refine (Cert.DenseRows.dotGeneral_plain_apply dot_S100000x384_S384x47_S100000x47_1_0_0_1_n_n rfl rfl rfl rfl
    (fun _ _ => rfl) (fun _ _ => rfl) _ wl p q).trans ?_
  exact Finset.sum_congr rfl fun k _ => congrArg (· * wl (ix2 k q)) (cat3Stage_apply x1 x2 x3 p k)

theorem head_apply (x1 x2 x3 : FVec Ideal S100000x128 .f32) (wl : FVec Ideal S384x47 .f32) (bl : FVec Ideal S47 .f32)
    (p : Fin 100000) (q : Fin 47) :
    logSoftmax (logits x1 x2 x3 wl bl) (ix2 p q) =
      logSoftmaxRow (logitRow (fun k : Fin 128 => x1 (ix2 p k)) (fun k : Fin 128 => x2 (ix2 p k)) (fun k : Fin 128 => x3 (ix2 p k)) wl
        (fun j : Fin 47 => bl (ix1 j))) q :=
  (logSoftmax_apply _ p q).trans
    (congrArg (fun r : Fin 47 → EReal => logSoftmaxRow r q) (funext fun j => logits_apply x1 x2 x3 wl bl p j))

end Cert.ReferenceIdeal.HostNet

end
-- ==== Proof.Bridge.lean ====
/-
  The two programs' results are one array. Row by row, the reference's layers are the layer's row function of the rows of
  its operands, and so are the arrays the kernel program's regions leave; their operands agree — the launch arrays by
  hypothesis, the aggregation because it is the same line of host operations applied to equal arrays, the transposed
  weights likewise, a bias vector and the same vector viewed as one row because the view reads the vector's entry —, so
  by induction along the three layers the outputs agree, and the last stage, a row function of rows of the first two
  layers' outputs, agrees too.
-/
import proofs.«172433_j15625091023093_1_alg».proof.Proof.KernelValue
import proofs.«172433_j15625091023093_1_alg».proof.Proof.HostSide
import proofs.«172433_j15625091023093_1_alg».proof.Proof.RefNet
import Idealize.ShloMosaic.Lib.ValueIdx
import Idealize.ShloMosaic.Lib.ValueLayout

noncomputable section

namespace Cert.Bridge

open Cert.GraphNet
open Idealize.ShloMosaic Idealize.ShloMosaic.TcCoe Idealize.ShloMosaic.ValueIdx Idealize.SL.Sem
open Cert.KernelIdeal.GenP (W2 W4 W6)
open Cert.KernelIdeal Cert.KernelIdeal.Gen Cert.ReferenceIdeal.Gen

/-- A bias vector viewed as one row reads, at its column `j`, the vector's entry `j`. -/
theorem biasRow128 (b : FVec Ideal Cert.KernelIdeal.S128 .f32) :
    (fun j : Fin 128 => shapeCast Cert.KernelIdeal.S1x128 b Cert.KernelIdeal.Gen.shapeCasts_S128_S1x128 (ix2 (0 : Fin 1) j)) = fun j : Fin 128 => b (ix1 j) :=
  funext fun j => shapeCast_a_1a_apply b _ 0 j

theorem biasRow47 (b : FVec Ideal Cert.KernelIdeal.S47 .f32) :
    (fun j : Fin 47 => shapeCast Cert.KernelIdeal.S1x47 b Cert.KernelIdeal.Gen.shapeCasts_S47_S1x47 (ix2 (0 : Fin 1) j)) = fun j : Fin 47 => b (ix1 j) :=
  funext fun j => shapeCast_a_1a_apply b _ 0 j

section

variable (m : (ℓ : Loc Cert.KernelIdeal.nD Cert.KernelIdeal.τ Cert.KernelIdeal.sig) → Buf (Elt Ideal) ℓ) (ρ : Dev Cert.KernelIdeal.nD → PrngReg)
  (m' : (ℓ : Loc Cert.ReferenceIdeal.nD Cert.ReferenceIdeal.τ Cert.ReferenceIdeal.sig) → Buf (Elt Ideal) ℓ) (c : Dev Cert.KernelIdeal.nD)
    (h0 : (m' ((c.tc : Thread Cert.ReferenceIdeal.nD Cert.ReferenceIdeal.τ).loc Cert.ReferenceIdeal.main_arg0)) = (m ((c.tc : Thread Cert.KernelIdeal.nD Cert.KernelIdeal.τ).loc Cert.KernelIdeal.main_arg0)))
    (h1 : (m' ((c.tc : Thread Cert.ReferenceIdeal.nD Cert.ReferenceIdeal.τ).loc Cert.ReferenceIdeal.main_arg1)) = (m ((c.tc : Thread Cert.KernelIdeal.nD Cert.KernelIdeal.τ).loc Cert.KernelIdeal.main_arg1)))
    (h2 : (m' ((c.tc : Thread Cert.ReferenceIdeal.nD Cert.ReferenceIdeal.τ).loc Cert.ReferenceIdeal.main_arg2)) = (m ((c.tc : Thread Cert.KernelIdeal.nD Cert.KernelIdeal.τ).loc Cert.KernelIdeal.main_arg2)))
    (h3 : (m' ((c.tc : Thread Cert.ReferenceIdeal.nD Cert.ReferenceIdeal.τ).loc Cert.ReferenceIdeal.main_arg3)) = (m ((c.tc : Thread Cert.KernelIdeal.nD Cert.KernelIdeal.τ).loc Cert.KernelIdeal.main_arg3)))
    (h4 : (m' ((c.tc : Thread Cert.ReferenceIdeal.nD Cert.ReferenceIdeal.τ).loc Cert.ReferenceIdeal.main_arg4)) = (m ((c.tc : Thread Cert.KernelIdeal.nD Cert.KernelIdeal.τ).loc Cert.KernelIdeal.main_arg4)))
    (h5 : (m' ((c.tc : Thread Cert.ReferenceIdeal.nD Cert.ReferenceIdeal.τ).loc Cert.ReferenceIdeal.main_arg5)) = (m ((c.tc : Thread Cert.KernelIdeal.nD Cert.KernelIdeal.τ).loc Cert.KernelIdeal.main_arg5)))
    (h6 : (m' ((c.tc : Thread Cert.ReferenceIdeal.nD Cert.ReferenceIdeal.τ).loc Cert.ReferenceIdeal.main_arg6)) = (m ((c.tc : Thread Cert.KernelIdeal.nD Cert.KernelIdeal.τ).loc Cert.KernelIdeal.main_arg6)))
    (h7 : (m' ((c.tc : Thread Cert.ReferenceIdeal.nD Cert.ReferenceIdeal.τ).loc Cert.ReferenceIdeal.main_arg7)) = (m ((c.tc : Thread Cert.KernelIdeal.nD Cert.KernelIdeal.τ).loc Cert.KernelIdeal.main_arg7)))
    (h8 : (m' ((c.tc : Thread Cert.ReferenceIdeal.nD Cert.ReferenceIdeal.τ).loc Cert.ReferenceIdeal.main_arg8)) = (m ((c.tc : Thread Cert.KernelIdeal.nD Cert.KernelIdeal.τ).loc Cert.KernelIdeal.main_arg8)))
    (h9 : (m' ((c.tc : Thread Cert.ReferenceIdeal.nD Cert.ReferenceIdeal.τ).loc Cert.ReferenceIdeal.main_arg9)) = (m ((c.tc : Thread Cert.KernelIdeal.nD Cert.KernelIdeal.τ).loc Cert.KernelIdeal.main_arg9)))
    (h10 : (m' ((c.tc : Thread Cert.ReferenceIdeal.nD Cert.ReferenceIdeal.τ).loc Cert.ReferenceIdeal.main_arg10)) = (m ((c.tc : Thread Cert.KernelIdeal.nD Cert.KernelIdeal.τ).loc Cert.KernelIdeal.main_arg10)))
    (h11 : (m' ((c.tc : Thread Cert.ReferenceIdeal.nD Cert.ReferenceIdeal.τ).loc Cert.ReferenceIdeal.main_arg11)) = (m ((c.tc : Thread Cert.KernelIdeal.nD Cert.KernelIdeal.τ).loc Cert.KernelIdeal.main_arg11)))
    (h12 : (m' ((c.tc : Thread Cert.ReferenceIdeal.nD Cert.ReferenceIdeal.τ).loc Cert.ReferenceIdeal.main_arg12)) = (m ((c.tc : Thread Cert.KernelIdeal.nD Cert.KernelIdeal.τ).loc Cert.KernelIdeal.main_arg12)))
    (h13 : (m' ((c.tc : Thread Cert.ReferenceIdeal.nD Cert.ReferenceIdeal.τ).loc Cert.ReferenceIdeal.main_arg13)) = (m ((c.tc : Thread Cert.KernelIdeal.nD Cert.KernelIdeal.τ).loc Cert.KernelIdeal.main_arg13)))
include h0 h1 h2 h3 h4 h5 h6 h7 h8 h9 h10 h11 h12 h13

/-- The reference's first layer is the array the kernel program's first region leaves. -/
theorem x1_eq : Cert.ReferenceIdeal.RefValue.x1 m' c = W2 m ρ c (Proc.devRef .tc Cert.KernelIdeal.main_v28) := by
  funext i
  obtain ⟨p, q, rfl⟩ : ∃ (p : Fin 100000) (q : Fin 128), i = ix2 p q := ⟨i 0, i 1, eq_ix2 i⟩
  unfold Cert.ReferenceIdeal.RefValue.x1
  rw [h0, h1, h2, h3, h4, h5]
  refine (Cert.ReferenceIdeal.HostNet.layer100_apply _ _ _ _ _ p q).trans ?_
  refine Eq.trans ?_ (Cert.KernelIdeal.KernelValue.x1_apply m ρ c p q).symm
  rw [biasRow128]

/-- The reference's second layer is the array the second region leaves. -/
theorem x2_eq : Cert.ReferenceIdeal.RefValue.x2 m' c = W4 m ρ c (Proc.devRef .tc Cert.KernelIdeal.main_v42) := by
  funext i
  obtain ⟨p, q, rfl⟩ : ∃ (p : Fin 100000) (q : Fin 128), i = ix2 p q := ⟨i 0, i 1, eq_ix2 i⟩
  unfold Cert.ReferenceIdeal.RefValue.x2
  rw [x1_eq m ρ m' c h0 h1 h2 h3 h4 h5 h6 h7 h8 h9 h10 h11 h12 h13, h1, h2, h6, h7, h8]
  refine (Cert.ReferenceIdeal.HostNet.layer128_apply _ _ _ _ _ p q).trans ?_
  refine Eq.trans ?_ (Cert.KernelIdeal.KernelValue.x2_apply m ρ c p q).symm
  rw [biasRow128]

/-- The reference's result is the array the third region leaves. -/
theorem out_eq : Cert.ReferenceIdeal.RefValue.out m' c = W6 m ρ c (Proc.devRef .tc Cert.KernelIdeal.main_v56) := by
  funext i
  obtain ⟨p, q, rfl⟩ : ∃ (p : Fin 100000) (q : Fin 47), i = ix2 p q := ⟨i 0, i 1, eq_ix2 i⟩
  unfold Cert.ReferenceIdeal.RefValue.out
  refine (Cert.ReferenceIdeal.HostNet.head_apply _ _ _ _ _ p q).trans ?_
  refine Eq.trans ?_ (Cert.KernelIdeal.KernelValue.out_apply m ρ c p q).symm
  have e3 : (fun k : Fin 128 => Cert.ReferenceIdeal.RefValue.x3 m' c (ix2 p k)) =
      denseRow (fun k : Fin 128 => Cert.ReferenceIdeal.HostNet.agg128 (W4 m ρ c (Proc.devRef .tc Cert.KernelIdeal.main_v42)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (ix2 p k))
        (fun k : Fin 128 => W4 m ρ c (Proc.devRef .tc Cert.KernelIdeal.main_v42) (ix2 p k))
        (transpose Cert.KernelIdeal.S128x128 [1, 0] (m ((c.tc : Thread Cert.KernelIdeal.nD Cert.KernelIdeal.τ).loc Cert.KernelIdeal.main_arg9)) Cert.KernelIdeal.Gen.transposes_S128x128_S128x128_1_0)
        (transpose Cert.KernelIdeal.S128x128 [1, 0] (m ((c.tc : Thread Cert.KernelIdeal.nD Cert.KernelIdeal.τ).loc Cert.KernelIdeal.main_arg10)) Cert.KernelIdeal.Gen.transposes_S128x128_S128x128_1_0)
        (fun j : Fin 128 => shapeCast Cert.KernelIdeal.S1x128 (m ((c.tc : Thread Cert.KernelIdeal.nD Cert.KernelIdeal.τ).loc Cert.KernelIdeal.main_arg11)) Cert.KernelIdeal.Gen.shapeCasts_S128_S1x128 (ix2 (0 : Fin 1) j)) := by
    funext k
    unfold Cert.ReferenceIdeal.RefValue.x3
    rw [x2_eq m ρ m' c h0 h1 h2 h3 h4 h5 h6 h7 h8 h9 h10 h11 h12 h13, h1, h2, h9, h10, h11]
    refine (Cert.ReferenceIdeal.HostNet.layer128_apply _ _ _ _ _ p k).trans ?_
    rw [biasRow128]
  rw [e3, x1_eq m ρ m' c h0 h1 h2 h3 h4 h5 h6 h7 h8 h9 h10 h11 h12 h13, x2_eq m ρ m' c h0 h1 h2 h3 h4 h5 h6 h7 h8 h9 h10 h11 h12 h13, h12, h13, biasRow47]
  rfl

end

end Cert.Bridge

end
-- ==== Proof.lean ====
/-
  A three-layer graph-convolution network with a logarithmic-softmax classifier, computed two ways. Each layer sends a
  table of node features x to max(agg(x)·Wr + x·Wo + b, 0), where agg gathers the source rows of the edge list, scales each
  by its edge weight and adds them up at the destination rows. The kernel program runs the aggregation as host operations
  and each layer's dense part as a pipelined region over blocks of 2000 rows (the third region also joins the three
  layers' outputs, applies the classifier and the row-wise logarithmic softmax); the reference runs everything as host
  operations on whole arrays. Over the extended reals the two are the same function of the argument arrays, entry by entry:
  rounding the matrix products' operands to a narrower format is the identity, a matrix product into a zero accumulator and
  the host's contraction are the same sums, the blocks tile the rows, and the aggregation is the same line of operations on
  both sides. No law that needs finiteness is used: every sum and maximum is taken in the same arrangement on both sides.

  The three frames: each program's run terminates without a fault and leaves its argument arrays as launched (the kernel
  programs' by the frame certificates over their segments, the reference's by its run with the result dropped). The
  idealization changed nothing that needs a statement. The last conjunct: the kernel program's run names its result buffer
  at the last boundary's contents, the reference's run names its result at the staged whole-array expression, and the two
  are equal when the launch arrays agree.
-/
import proofs.«172433_j15625091023093_1_alg».proof.Defs
import proofs.«172433_j15625091023093_1_alg».proof.Proof.Gen.Kernel
import proofs.«172433_j15625091023093_1_alg».proof.Proof.Gen.KernelIdeal
import proofs.«172433_j15625091023093_1_alg».proof.Proof.Gen.ReferenceIdeal
import proofs.«172433_j15625091023093_1_alg».proof.Proof.Gen.Pre_finite_inputs
import proofs.«172433_j15625091023093_1_alg».proof.Proof.KernelFrameP
import proofs.«172433_j15625091023093_1_alg».proof.Proof.KernelIdealFrameP
import proofs.«172433_j15625091023093_1_alg».proof.Proof.ValueRun
import proofs.«172433_j15625091023093_1_alg».proof.Proof.ReferenceValue
import proofs.«172433_j15625091023093_1_alg».proof.Proof.Bridge
import Idealize.ShloMosaic.Adequacy
import Idealize.ShloMosaic.Init

noncomputable section

namespace Cert.Proof

open Idealize.ShloMosaic Idealize.SL.Sem

/-- The kernel program as printed: its run terminates, faults nowhere and leaves the arguments as launched. -/
theorem frame_kernel : Cert.frame_Kernel := fun m ρ _ => Cert.Kernel.GenP.frame m ρ

/-- The same of the idealized kernel program. -/
theorem frame_kernelIdeal : Cert.frame_KernelIdeal := fun m ρ _ => Cert.KernelIdeal.GenP.frame m ρ

/-- The same of the idealized reference: its run, with what it says about the result dropped. -/
theorem frame_referenceIdeal : Cert.frame_ReferenceIdeal := fun m ρ _ =>
  (θ_run Cert.ReferenceIdeal.defs _ _).mono (fun _ h c => (h c).2) (Cert.ReferenceIdeal.RefValue.run m ρ)

/-- The idealization rewrote nothing. -/
theorem preserves : Cert.preserves_Kernel_KernelIdeal := trivial

/-- Run from memories that agree on the arguments, the two idealized programs end with the same result array: the
    array the kernel program's third region leaves, which is the reference's staged expression of the arguments. -/
theorem algebraic : Cert.algebraic_KernelIdeal_ReferenceIdeal := by
  intro m ρ m' ρ' _ hagree
  refine ⟨fun c => Cert.KernelIdeal.GenP.W6 m ρ c (Proc.devRef .tc Cert.KernelIdeal.main_v56),
    Cert.KernelIdeal.ValueRun.run_named m ρ, ?_⟩
  refine (θ_run Cert.ReferenceIdeal.defs _ _).mono (fun _ h c => ⟨(h c).1.trans ?_, (h c).2⟩)
    (Cert.ReferenceIdeal.RefValue.run m' ρ')
  obtain ⟨h0, h1, h2, h3, h4, h5, h6, h7, h8, h9, h10, h11, h12, h13⟩ := hagree c
  exact Cert.Bridge.out_eq m ρ m' c h0 h1 h2 h3 h4 h5 h6 h7 h8 h9 h10 h11 h12 h13

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
